-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S_ : Shape := ⟨0, ![]⟩
abbrev S12288 : Shape := ⟨1, ![12288]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S12288x12288 : S_.BroadcastsInDim S12288x12288 (![] : Fin 0 → Fin S12288x12288.rank)
  reducesTo_S12288x12288_S_d0_1 : S12288x12288.ReducesTo [0, 1] S_
  reducesTo_S12288x12288_S12288_d1 : S12288x12288.ReducesTo [1] S12288
  bcast_S_S12288 : S_.BroadcastsInDim S12288 (![] : Fin 0 → Fin S12288.rank)
  reducesTo_S12288_S_d0 : S12288.ReducesTo [0] S_

variable [Facts]

def fn_part2 {F : FTy → Type} [FloatOps F] (main_v28 : IVec S_ 1) (main_v31 : FVec F S12288 .f32) (main_v32 : FVec F S12288 .f32) : IVec S_ 1 :=
  let main_v33 : IVec S12288 1 := cmpf .ogt main_v31 main_v32
  let main_c_13 : IVec S_ 1 := constantI S_ 1 1#1
  let main_v34 : IVec S_ 1 := (fun x v => Host.reduce IntOp.andi x v reducesTo_S12288_S_d0 h_S_) main_v33 main_c_13
  let main_v35 : IVec S_ 1 := andi main_v28 main_v34
  main_v35

def fn_part1 {F : FTy → Type} [FloatOps F] (main_arg4 : FVec F S64 .f32) (main_arg5 : FVec F S12288x12288 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S12288x12288 .f32 := Host.absf main_arg5
  let main_cst_8 : FVec F S_ .f32 := constant S_ .f32 0x7F800000#32
  let main_v25 : FVec F S12288x12288 .f32 := broadcastInDim S12288x12288 ![] bcast_S_S12288x12288 main_cst_8
  let main_v26 : IVec S12288x12288 1 := cmpf .olt main_v24 main_v25
  let main_c_9 : IVec S_ 1 := constantI S_ 1 1#1
  let main_v27 : IVec S_ 1 := (fun x v => Host.reduce IntOp.andi x v reducesTo_S12288x12288_S_d0_1 h_S_) main_v26 main_c_9
  let main_v28 : IVec S_ 1 := andi main_v23 main_v27
  let main_cst_10 : FVec F S_ .f32 := constant S_ .f32 0x00000000#32
  let main_v29 : FVec F S12288 .f32 := (fun x v => Host.reduceAdd x v reducesTo_S12288x12288_S12288_d1 h_S_) main_arg5 main_cst_10
  let main_cst_11 : FVec F S_ .f32 := constant S_ .f32 0x3F800000#32
  let main_v30 : FVec F S12288 .f32 := broadcastInDim S12288 ![] bcast_S_S12288 main_cst_11
  let main_v31 : FVec F S12288 .f32 := addf main_v29 main_v30
  let main_cst_12 : FVec F S_ .f32 := constant S_ .f32 0x00000000#32
  let main_v32 : FVec F S12288 .f32 := broadcastInDim S12288 ![] bcast_S_S12288 main_cst_12
  fn_part2 (F := F) main_v28 main_v31 main_v32

def fn {F : FTy → Type} [FloatOps F] (main_arg0 : FVec F S12288x64 .f32) (main_arg1 : FVec F S64x64 .f32) (main_arg2 : FVec F S64 .f32) (main_arg3 : FVec F S64 .f32) (main_arg4 : FVec F S64 .f32) (main_arg5 : FVec F S12288x12288 .f32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S1x64 : Shape := ⟨2, ![1, 64]⟩
abbrev S12288x1 : Shape := ⟨2, ![12288, 1]⟩
abbrev S512x12288 : Shape := ⟨2, ![512, 12288]⟩
abbrev S512x1 : Shape := ⟨2, ![512, 1]⟩
abbrev S512 : Shape := ⟨1, ![512]⟩
abbrev S512x64 : Shape := ⟨2, ![512, 64]⟩
abbrev S_ : Shape := ⟨0, ![]⟩

abbrev nBuf : Space → Nat
  | .hbm => 66
  | .vmem => 13
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S12288x12288, .f32⟩
  | .hbm, ⟨6, _⟩ => ⟨S12288x64, .f32⟩
  | .hbm, ⟨7, _⟩ => ⟨S1x64, .f32⟩
  | .hbm, ⟨8, _⟩ => ⟨S12288x64, .f32⟩
  | .hbm, ⟨9, _⟩ => ⟨S12288x64, .f32⟩
  | .hbm, ⟨10, _⟩ => ⟨S12288x1, .f32⟩
  | .hbm, ⟨11, _⟩ => ⟨S12288x64, .f32⟩
  | .hbm, ⟨12, _⟩ => ⟨S12288x64, .f32⟩
  | .hbm, ⟨13, _⟩ => ⟨S12288x64, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .i32⟩
  | .hbm, ⟨20, _⟩ => ⟨S_, .f32⟩
  | .hbm, ⟨21, _⟩ => ⟨S64, .f32⟩
  | .hbm, ⟨22, _⟩ => ⟨S1x64, .f32⟩
  | .hbm, ⟨23, _⟩ => ⟨S_, .f32⟩
  | .hbm, ⟨24, _⟩ => ⟨S1x64, .f32⟩
  | .hbm, ⟨25, _⟩ => ⟨S1x64, .f32⟩
  | .hbm, ⟨26, _⟩ => ⟨S12288x64, .f32⟩
  | .hbm, ⟨27, _⟩ => ⟨S12288x64, .f32⟩
  | .hbm, ⟨28, _⟩ => ⟨S12288x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S12288x64, .f32⟩
  | .hbm, ⟨44, _⟩ => ⟨S12288x64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S1x64, .f32⟩
  | .hbm, ⟨50, _⟩ => ⟨S12288x64, .f32⟩
  | .hbm, ⟨51, _⟩ => ⟨S12288x64, .f32⟩
  | .hbm, ⟨52, _⟩ => ⟨S1x64, .f32⟩
  | .hbm, ⟨53, _⟩ => ⟨S12288x64, .f32⟩
  | .hbm, ⟨54, _⟩ => ⟨S12288x64, .f32⟩
  | .hbm, ⟨55, _⟩ => ⟨S1x64, .f32⟩
  | .hbm, ⟨56, _⟩ => ⟨S12288x64, .f32⟩
  | .hbm, ⟨57, _⟩ => ⟨S12288x64, .f32⟩
  | .hbm, ⟨58, _⟩ => ⟨S_, .f32⟩
  | .hbm, ⟨59, _⟩ => ⟨S_, .f32⟩
  | .hbm, ⟨60, _⟩ => ⟨S12288x64, .f32⟩
  | .hbm, ⟨61, _⟩ => ⟨S12288x64, .i1⟩
  | .hbm, ⟨62, _⟩ => ⟨S_, .f32⟩
  | .hbm, ⟨63, _⟩ => ⟨S12288x64, .f32⟩
  | .hbm, ⟨64, _⟩ => ⟨S12288x64, .f32⟩
  | .hbm, ⟨65, _⟩ => ⟨S12288x64, .f32⟩
  | .local _ .vmem, ⟨0, _⟩ => ⟨S512x12288, .f32⟩
  | .local _ .vmem, ⟨1, _⟩ => ⟨S512x12288, .f32⟩
  | .local _ .vmem, ⟨2, _⟩ => ⟨S512x1, .f32⟩
  | .local _ .vmem, ⟨3, _⟩ => ⟨S512x1, .f32⟩
  | .local _ .vmem, ⟨4, _⟩ => ⟨S512x12288, .f32⟩
  | .local _ .vmem, ⟨5, _⟩ => ⟨S512x12288, .f32⟩
  | .local _ .vmem, ⟨6, _⟩ => ⟨S12288x64, .f32⟩
  | .local _ .vmem, ⟨7, _⟩ => ⟨S512x64, .f32⟩
  | .local _ .vmem, ⟨8, _⟩ => ⟨S512x64, .f32⟩
  | .local _ .vmem, ⟨9, _⟩ => ⟨S512x1, .f32⟩
  | .local _ .vmem, ⟨10, _⟩ => ⟨S512x1, .f32⟩
  | .local _ .vmem, ⟨11, _⟩ => ⟨S512x64, .f32⟩
  | .local _ .vmem, ⟨12, _⟩ => ⟨S512x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v27 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  inb_S512x12288_S512x12288_0_0 : ∀ a, (![0, 0] : Fin 2 → Nat) a + S512x12288.size a ≤ S512x12288.size a
  h_S512x12288 : 0 < S512x12288.numel
  reduces_S512x12288_S512 : S512x12288.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S12288x1_S12288x64_0_1 : S12288x1.BroadcastsInDim S12288x64 (![0, 1] : Fin 2 → Fin S12288x64.rank)
  inb_S12288x64_S12288x64_0_0 : ∀ a, (![0, 0] : Fin 2 → Nat) a + S12288x64.size a ≤ S12288x64.size a
  h_S12288x64 : 0 < S12288x64.numel
  shapeCasts_S12288x64_S12288x64 : S12288x64.ShapeCasts S12288x64
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  reducesTo_S12288x64_S64_d0 : S12288x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S12288x64 : S_.BroadcastsInDim S12288x64 (![] : Fin 0 → Fin S12288x64.rank)
  dot_S12288x64_S64x64_S12288x64_1_0_0_1_n_n_wf : DotDims.WF S12288x64 S64x64 S12288x64 [1] [0] [0] [1] [] []
  dot_S512x12288_S12288x64_S512x64_1_0_0_1_n_n_wf : DotDims.WF S512x12288 S12288x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x12288.size a ≤ S12288x12288.size a
  hwx0_0 : ∀ i : grid0.Coords, EltTy.bits .f32 = 32 ∨ (Rect.block (s := S12288x12288) S512x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S12288x1.size a
  hwx0_1 : ∀ i : grid0.Coords, EltTy.bits .f32 = 32 ∨ (Rect.block (s := S12288x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x12288.size a ≤ S12288x12288.size a
  hwx1_0 : ∀ i : grid1.Coords, EltTy.bits .f32 = 32 ∨ (Rect.block (s := S12288x12288) S512x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x64.size a ≤ S12288x64.size a
  hwx1_1 : ∀ i : grid1.Coords, EltTy.bits .f32 = 32 ∨ (Rect.block (s := S12288x64) S12288x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S12288x64.size a
  hwx1_2 : ∀ i : grid1.Coords, EltTy.bits .f32 = 32 ∨ (Rect.block (s := S12288x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S12288x1.size a
  hwx1_3 : ∀ i : grid1.Coords, EltTy.bits .f32 = 32 ∨ (Rect.block (s := S12288x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S12288x64.size a
  hwx1_4 : ∀ i : grid1.Coords, EltTy.bits .f32 = 32 ∨ (Rect.block (s := S12288x64) S512x64.size (cc1_transform_4 i) (hinb1_4 i)).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S512x12288_S12288x64_S512x64_1_0_0_1_n_n : DotDims S512x12288 S12288x64 S512x64 where
  lhsContracting := [1]
  rhsContracting := [0]
  lhsNonContracting := [0]
  rhsNonContracting := [1]
  lhsBatch := []
  rhsBatch := []
  wf := dot_S512x12288_S12288x64_S512x64_1_0_0_1_n_n_wf

abbrev win0_0 : Pipeline.Window sig grid0 :=
  Pipeline.Window.ofSpec (Memref.whole main_arg5) S512x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg5) S512x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S12288x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S12288 : Shape := ⟨1, ![12288]⟩
abbrev S_ : Shape := ⟨0, ![]⟩
abbrev S12288x1 : Shape := ⟨2, ![12288, 1]⟩
abbrev S12288x2 : Shape := ⟨2, ![12288, 2]⟩
abbrev S1x12288 : Shape := ⟨2, ![1, 12288]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S12288x12288, .f32⟩
  | .hbm, ⟨6, _⟩ => ⟨S12288, .i32⟩
  | .hbm, ⟨7, _⟩ => ⟨S_, .i32⟩
  | .hbm, ⟨8, _⟩ => ⟨S12288, .i32⟩
  | .hbm, ⟨9, _⟩ => ⟨S12288, .i1⟩
  | .hbm, ⟨10, _⟩ => ⟨S_, .i32⟩
  | .hbm, ⟨11, _⟩ => ⟨S12288, .i32⟩
  | .hbm, ⟨12, _⟩ => ⟨S12288, .i32⟩
  | .hbm, ⟨13, _⟩ => ⟨S12288, .i32⟩
  | .hbm, ⟨14, _⟩ => ⟨S_, .i32⟩
  | .hbm, ⟨15, _⟩ => ⟨S12288, .i32⟩
  | .hbm, ⟨16, _⟩ => ⟨S12288, .i1⟩
  | .hbm, ⟨17, _⟩ => ⟨S_, .i32⟩
  | .hbm, ⟨18, _⟩ => ⟨S12288, .i32⟩
  | .hbm, ⟨19, _⟩ => ⟨S12288, .i32⟩
  | .hbm, ⟨20, _⟩ => ⟨S12288, .i32⟩
  | .hbm, ⟨21, _⟩ => ⟨S12288x1, .i32⟩
  | .hbm, ⟨22, _⟩ => ⟨S12288x1, .i32⟩
  | .hbm, ⟨23, _⟩ => ⟨S12288x2, .i32⟩
  | .hbm, ⟨24, _⟩ => ⟨S_, .f32⟩
  | .hbm, ⟨25, _⟩ => ⟨S12288, .f32⟩
  | .hbm, ⟨26, _⟩ => ⟨S12288x12288, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S12288x1, .f32⟩
  | .hbm, ⟨31, _⟩ => ⟨S12288x12288, .f32⟩
  | .hbm, ⟨32, _⟩ => ⟨S12288x12288, .f32⟩
  | .hbm, ⟨33, _⟩ => ⟨S1x12288, .f32⟩
  | .hbm, ⟨34, _⟩ => ⟨S12288x12288, .f32⟩
  | .hbm, ⟨35, _⟩ => ⟨S12288x12288, .f32⟩
  | .hbm, ⟨36, _⟩ => ⟨S12288x64, .f32⟩
  | .hbm, ⟨37, _⟩ => ⟨S1x64, .f32⟩
  | .hbm, ⟨38, _⟩ => ⟨S12288x64, .f32⟩
  | .hbm, ⟨39, _⟩ => ⟨S12288x64, .f32⟩
  | .hbm, ⟨40, _⟩ => ⟨S12288x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S12288x64, .f32⟩
  | .hbm, ⟨54, _⟩ => ⟨S12288x64, .f32⟩
  | .hbm, ⟨55, _⟩ => ⟨S12288x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S12288x64, .f32⟩
  | .hbm, ⟨71, _⟩ => ⟨S12288x64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S12288x64, .f32⟩
  | .hbm, ⟨78, _⟩ => ⟨S12288x64, .f32⟩
  | .hbm, ⟨79, _⟩ => ⟨S1x64, .f32⟩
  | .hbm, ⟨80, _⟩ => ⟨S12288x64, .f32⟩
  | .hbm, ⟨81, _⟩ => ⟨S12288x64, .f32⟩
  | .hbm, ⟨82, _⟩ => ⟨S1x64, .f32⟩
  | .hbm, ⟨83, _⟩ => ⟨S12288x64, .f32⟩
  | .hbm, ⟨84, _⟩ => ⟨S12288x64, .f32⟩
  | .hbm, ⟨85, _⟩ => ⟨S_, .f32⟩
  | .hbm, ⟨86, _⟩ => ⟨S_, .f32⟩
  | .hbm, ⟨87, _⟩ => ⟨S12288x64, .f32⟩
  | .hbm, ⟨88, _⟩ => ⟨S12288x64, .i1⟩
  | .hbm, ⟨89, _⟩ => ⟨S_, .f32⟩
  | .hbm, ⟨90, _⟩ => ⟨S12288x64, .f32⟩
  | .hbm, ⟨91, _⟩ => ⟨S12288x64, .f32⟩
  | .hbm, ⟨92, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v48 : Ref sig .tc := ⟨.hbm, 92, rfl⟩

abbrev nD : Nat := 1
abbrev τ : Topo := Topo.v7x

variable {F : FTy → Type} [FloatOps F]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  reducesTo_S12288x12288_S12288_d1 : S12288x12288.ReducesTo [1] S12288
  h_S_ : 0 < S_.numel
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  reducesTo_S12288x64_S64_d0 : S12288x64.ReducesTo [0] S64
  bcast_S_S64 : S_.BroadcastsInDim S64 (![] : Fin 0 → Fin S64.rank)
  bcast_S_S1x64 : S_.BroadcastsInDim S1x64 (![] : Fin 0 → Fin S1x64.rank)
  bcast_S_S12288x64 : S_.BroadcastsInDim S12288x64 (![] : Fin 0 → Fin S12288x64.rank)
  scatter_S12288x12288_S12288x2_S12288_n_01_01_1_wf : ScatterDims.WF S12288x12288 S12288x2 S12288 [] [0, 1] [0, 1] 1
  dot_S12288x64_S64x64_S12288x64_1_0_0_1_n_n_wf : DotDims.WF S12288x64 S64x64 S12288x64 [1] [0] [0] [1] [] []
  dot_S12288x12288_S12288x64_S12288x64_1_0_0_1_n_n_wf : DotDims.WF S12288x12288 S12288x64 S12288x64 [1] [0] [0] [1] [] []

variable [Facts₀]

def scatter_S12288x12288_S12288x2_S12288_n_01_01_1 : ScatterDims S12288x12288 S12288x2 S12288 where
  updateWindowDims := []
  insertedWindowDims := [0, 1]
  scatterDimsToOperandDims := [0, 1]
  indexVectorDim := 1
  wf := scatter_S12288x12288_S12288x2_S12288_n_01_01_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.DegreeRegionBits.lean ====
import proofs.«141531_j54073638257182_2_alg».proof.Proof.Gen.Kernel.Launch
import proofs.«141531_j54073638257182_2_alg».proof.Proof.Gen.Kernel.Skeleton
import proofs.«141531_j54073638257182_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The degree call: per strip of 512 rows of the adjacency matrix, the reciprocal square root of each row sum plus one -/

/-- Block `t` of window `w`: rows `512·t … 512·t + 511` of the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The strip of the matrix is in its staging buffer at every grid point, for any proof data whose array is the
    entry contents and whose body leaves the strip in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole strip and the whole column of results, as rectangles. -/
abbrev r0_in : Rect S512x12288 := Rect.unit (s := S512x12288) ![0, 0] S512x12288.size inb_S512x12288_S512x12288_0_0
abbrev r0_out : Rect S512x1 := Rect.unit (s := S512x1) ![0, 0] S512x1.size inb_S512x1_S512x1_0_0

/-- What one grid point leaves in the result's staging buffer: the column of `rsqrt (row sum + 1)` over the strip. -/
def out0_1 (x0 : Vec F S512x12288 .f32) : Vec F S512x1 .f32 :=
  View.canon [⟨r0_out, k0_pay1 (View.ld x0 r0_in)⟩]

/-- The one store covers the whole column. -/
theorem cover0_1 (p0 : Vec F S512x1 .f32) (y : S512x1.Idx) :
    ∃ pc ∈ ([⟨r0_out, p0⟩] : List (View.Piece (Elt F) S512x1 .f32)), y ∈ pc.1.set :=
  View.cover_of_tiled [⟨r0_out, p0⟩] S512x1.size (by rfl) y

set_option maxHeartbeats 1000000 in
/-- The body on whole staging buffers: the strip is read and left as it was, the column ends at `out0_1` of the strip. -/
theorem sound_kernel0 (c : Dev nD) (E : Set ℕ) (i : grid0.Coords) (arg1 : Memref sig .tc .vmem S512x12288 .f32) (harg1 : arg1.IsWhole)
    (arg2 : Memref sig .tc .vmem S512x1 .f32) (harg2 : arg2.IsWhole)
    (x0 : Vec F S512x12288 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__row_sum_kernel i arg1 harg1 arg2 harg2) K := by
  simp only [cc0__row_sum_kernel_eq_skeleton]; unfold cc0__row_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree call on core `c`: the arrays as found; after the body at point `t` the strip in
    place and the column at `out0_1` of the strip; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation of the degree call, at every point. -/
theorem body_obligation0 (c : Dev nD) : BodyObligation (dat0 (F := F) V c) (defs₀ (F := F)) Variants.none () Set.univ := fun t => by
  rw [bigSep_W0, bigSep_W0]
  exact sound_body0 V c t

end Cert.Kernel.Rgn

end
-- ==== Proof.PropRegionBits.lean ====
import proofs.«141531_j54073638257182_2_alg».proof.Proof.Gen.Kernel.Launch
import proofs.«141531_j54073638257182_2_alg».proof.Proof.Gen.Kernel.Skeleton
import proofs.«141531_j54073638257182_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The propagation call: per strip of 512 rows, `d · (A_strip · Y + Y_strip)` with `Y` resident whole -/

/-- Block `t` of window `w` of the propagation call, read off its array as the call finds it: the strip of the matrix
    (window 0), all of `Y` (window 1), the strip of `Y` (window 2), the strip of the degree column (window 3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every grid point, fetched there or not (`Y` whole is fetched once:
    its block index never moves). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffers as rectangles. -/
abbrev r1_a : Rect S512x12288 := Rect.unit (s := S512x12288) ![0, 0] S512x12288.size inb_S512x12288_S512x12288_0_0
abbrev r1_y : Rect S12288x64 := Rect.unit (s := S12288x64) ![0, 0] S12288x64.size inb_S12288x64_S12288x64_0_0
abbrev r1_d : Rect S512x1 := Rect.unit (s := S512x1) ![0, 0] S512x1.size inb_S512x1_S512x1_0_0
abbrev r1_o : Rect S512x64 := Rect.unit (s := S512x64) ![0, 0] S512x64.size inb_S512x64_S512x64_0_0

/-- What one grid point leaves in the result's staging buffer, from the four input blocks. -/
def out1_4 (x0 : Vec F S512x12288 .f32) (x1 : Vec F S12288x64 .f32) (x2 : Vec F S512x64 .f32) (x3 : Vec F S512x1 .f32) : Vec F S512x64 .f32 :=
  View.canon [⟨r1_o, k1_pay1 (View.ld x0 r1_a) (View.ld x1 r1_y) (View.ld x3 r1_d) (View.ld x2 r1_o)⟩]

/-- The one store covers the whole block. -/
theorem cover1_4 (p0 : Vec F S512x64 .f32) (y : S512x64.Idx) :
    ∃ pc ∈ ([⟨r1_o, p0⟩] : List (View.Piece (Elt F) S512x64 .f32)), y ∈ pc.1.set :=
  View.cover_of_tiled [⟨r1_o, p0⟩] S512x64.size (by rfl) y

set_option maxHeartbeats 1000000 in
/-- The body on whole staging buffers: the four inputs are read and left as they were, the result ends at `out1_4`. -/
theorem sound_kernel1 (c : Dev nD) (E : Set ℕ) (i : grid1.Coords)
    (arg1 : Memref sig .tc .vmem S512x12288 .f32) (harg1 : arg1.IsWhole) (arg2 : Memref sig .tc .vmem S12288x64 .f32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole)
    (x0 : Vec F S512x12288 .f32) (x1 : Vec F S12288x64 .f32) (x2 : Vec F S512x64 .f32) (x3 : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__propagate_kernel i arg1 harg1 arg2 harg2 arg3 harg3 arg4 harg4 arg5 harg5) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- Half of a buffer's ownership: the two windows that read `Y` each hold one. -/
abbrev halfL : PosShare TreeShare := fullShare.left
abbrev halfR : PosShare TreeShare := fullShare.right

/-- The two halves make the whole. -/
theorem half_mem : fullShare ∈ PCS.op halfL halfR := PosShare.mem_left_op_right fullShare

/-- The proof data of the propagation call on core `c`: the arrays as found; after the body at point `t` each input
    block in place and the result at `out1_4` of the input blocks; nothing owed; the array of `Y`, read through two
    windows, held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => halfL
    | ⟨2, _⟩ => halfR
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of the propagation call, at every point. -/
theorem body_obligation1 (c : Dev nD) : BodyObligation (dat1 (F := F) V c) (defs₀ (F := F)) Variants.none () Set.univ := fun t => by
  rw [bigSep_W1, bigSep_W1]
  exact sound_body1 V c t

end Cert.Kernel.Rgn

end
-- ==== Proof.PropArraysBits.lean ====
import proofs.«141531_j54073638257182_2_alg».proof.Proof.PropRegionBits

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The propagation call's five windows sit on four buffers. -/
theorem arr_image1 : Finset.univ.image (Pipeline.arrRef spec1) = ([main_arg5, main_v6, main_v4, main_v7] : List (Ref sig .tc)).toFinset := by decide

/-- A sum over those four buffers, one by one. -/
theorem bigSep_arr1 (Φ : Ref sig .tc → sProp 𝕄) :
    bigSep (Finset.univ.image (Pipeline.arrRef spec1)) Φ = iprop(Φ main_arg5 ∗ Φ main_v6 ∗ Φ main_v4 ∗ Φ main_v7) :=
  bigSep_eq_bigSepL_of_eq [main_arg5, main_v6, main_v4, main_v7] arr_image1 (by decide) Φ

/-- The call's arrays, window by window, each a whole buffer at its window's share. -/
theorem arrays_eq1 (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Pipeline.Dat.arrays
  exact bigSep_congr fun w _ => by rw [(arr_whole1 w).set_eq_univ]

/-- The unscoped buffers are the four buffers behind the call's windows and the rest. -/
theorem split1 (c : Dev nD) (Vc : (b : Ref sig .tc) → Buf (Elt F) ((c : Thread nD τ).loc b)) :
    (unscopedBufs c Vc : sProp 𝕄) = iprop((Pipeline.arrBufs spec1 c Vc : sProp 𝕄) ∗ Pipeline.unscopedRest spec1 c Vc) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]; rfl

/-- ENTRY: the unscoped buffers at the entry contents are the call's arrays — the array of `Y` halved between its two
    windows — and the rest. -/
theorem arrays_in1' (c : Dev nD) :
    (unscopedBufs c (V c) : sProp 𝕄)
      ⊢ iprop((dat1 V c).arrays ((dat1 V c).arrAt · 0) ∗ Pipeline.unscopedRest spec1 c (V c)) := by
  rw [split1]
  refine sep_mono ?_ .rfl
  rw [arrays_eq1]
  unfold Pipeline.arrBufs
  rw [bigSep_W1, bigSep_arr1]
  iintro ⟨H5, H6, H4, H7⟩
  ihave H6' := (pointsTo_share half_mem).1 $$ H6
  icases H6' with ⟨H6a, H6b⟩
  isplitl [H5]; · iexact H5
  isplitl [H6a]; · iexact H6a
  isplitl [H6b]; · iexact H6b
  isplitl [H4]; · iexact H4
  iexact H7

/-- EXIT: the call's arrays at what it leaves — the four inputs as entered, the two halves of `Y` joined again, the
    result at its final contents — and the rest are the unscoped buffers at contents that differ from the entry's at the
    result's buffer only. -/
theorem arrays_out1' (V' : (c : Dev nD) → (b : Ref sig .tc) → Buf (Elt F) ((c : Thread nD τ).loc b)) (c : Dev nD)
    (hout : V' c main_v7 = (dat1 V c).arrAt 4 cfg1.N) (hne : ∀ b : Ref sig .tc, b ≠ main_v7 → V' c b = V c b) :
    iprop((dat1 V c).arrays ((dat1 V c).arrAt · cfg1.N) ∗ Pipeline.unscopedRest spec1 c (V c))
      ⊢ (unscopedBufs c (V' c) : sProp 𝕄) := by
  rw [split1]
  refine sep_mono ?_ (Entails.of_eq ?_)
  · rw [arrays_eq1]
    unfold Pipeline.arrBufs
    rw [bigSep_W1, bigSep_arr1]
    rw [hne main_arg5 (by decide), hne main_v6 (by decide), hne main_v4 (by decide), hout,
      (dat1 V c).arrAt_in 0 rfl cfg1.N, (dat1 V c).arrAt_in 1 rfl cfg1.N, (dat1 V c).arrAt_in 2 rfl cfg1.N, (dat1 V c).arrAt_in 3 rfl cfg1.N]
    iintro ⟨H0, H1, H2, H3, H4⟩
    isplitl [H0]; · iexact H0
    isplitl [H1 H2]
    · iapply (pointsTo_share half_mem).2
      isplitl [H1]; · iexact H1
      iexact H2
    isplitl [H3]; · iexact H3
    iexact H4
  · unfold Pipeline.unscopedRest
    exact bigSep_congr fun b hb => by
      rw [hne b fun e => (Finset.mem_sdiff.mp hb).2 (e ▸ Finset.mem_image.mpr ⟨4, Finset.mem_univ _, rfl⟩)]

end Cert.Kernel.Rgn

end
-- ==== Proof.KernelRunBits.lean ====
import proofs.«141531_j54073638257182_2_alg».proof.Proof.DegreeRegionBits
import proofs.«141531_j54073638257182_2_alg».proof.Proof.PropArraysBits
import proofs.«141531_j54073638257182_2_alg».proof.Proof.Gen.Kernel.Regions

set_option maxRecDepth 16384

noncomputable section

namespace Cert.Kernel.Rgn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between the items of @main: a fold from the launch memory

`B0` at launch; `B1` after the dense layer `H·W + b`; `B2` after the degree call (its result array at what the call
leaves); `B3` after `Y = d · X`; `B4` after the propagation call; `B5 … B8` after the four stretches of the
normalisation and the leaky rectifier. -/

abbrev B0 : Dev nD → Valuation τ sig (Elt F) := fun c b => (s₀ m ρ).mem ((c : Dev nD), b)
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b

/-- After the degree call: its arrays at what the pipeline leaves, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b

/-- After the propagation call: its result array at what the pipeline leaves, every other buffer as entered (its four
    inputs — the matrix, `Y` through two windows, the degree column — are read only). -/
def B4 (c : Dev nD) : Valuation τ sig (Elt F) :=
  Function.update (B3 m ρ c) main_v7 ((dat1 (U3 m ρ) c).arrAt 4 cfg1.N)
abbrev U4 : (c : Dev nD) → (b : Ref sig .tc) → Buf (Elt F) ((c : Thread nD τ).loc b) := fun c b => B4 m ρ c b
theorem B4_out (c : Dev nD) : U4 m ρ c main_v7 = (dat1 (U3 m ρ) c).arrAt 4 cfg1.N := by
  show B4 m ρ c main_v7 = _
  unfold B4; exact Function.update_self _ _ _
theorem B4_of_ne (c : Dev nD) (b : Ref sig .tc) (hb : b ≠ main_v7) : U4 m ρ c b = U3 m ρ c b := by
  show B4 m ρ c b = B3 m ρ c b
  unfold B4; exact Function.update_of_ne (StableHlo.devRef_ne_of_ne hb) _ _

abbrev B5 : Dev nD → Valuation τ sig (Elt F) := fun c => StableHlo.after hostOps2 (B4 m ρ c)
abbrev B6 : Dev nD → Valuation τ sig (Elt F) := fun c => StableHlo.after hostOps2_1 (B5 m ρ c)
abbrev B7 : Dev nD → Valuation τ sig (Elt F) := fun c => StableHlo.after hostOps2_2 (B6 m ρ c)
abbrev B8 : Dev nD → Valuation τ sig (Elt F) := fun c => StableHlo.after hostOps2_3 (B7 m ρ c)

/-! ## The proof data family and the thread state -/

abbrev admK : (p : Fin 2) → (pcfgs (F := F) p).Adm := fun p => (cfgs p).toPCfg_adm
/-- Each call's proof data at its own entry contents. -/
def pdatsK : (p : Fin 2) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
abbrev 𝒱K : Variants := Variants.none
abbrev LK : GSem nD τ sig → Finset Unit := fun _ => ∅
abbrev lvK : GSem nD τ sig → Unit → ℕ := fun _ _ => 0
/-- What rides beside the buffers through every item: the generator register and the core owing nothing. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (B8 m ρ c) ∗ ∃ r, prngReg c r)

/-! ## The propagation call's arrays in and out of the unscoped buffers

Its five windows sit on FOUR buffers: the array of `Y` is read through two windows, each holding half of it. -/

/-- ENTRY: the unscoped buffers at the entry contents are the call's arrays — the array of `Y` halved between its two
    windows — and the rest. -/
theorem arrays_in1 (c : Dev nD) :
    (unscopedBufs c (U3 m ρ c) : sProp 𝕄)
      ⊢ iprop((pdatsK m ρ 1 c).arrays ((pdatsK m ρ 1 c).arrAt · 0) ∗ Pipeline.unscopedRest spec1 c (U3 m ρ c)) :=
  arrays_in1' (U3 m ρ) c

/-- EXIT: the call's arrays at what it leaves — the inputs as entered, the two halves of `Y` joined again — and the
    rest are the unscoped buffers at the exit contents. -/
theorem arrays_out1 (c : Dev nD) :
    iprop((pdatsK m ρ 1 c).arrays ((pdatsK m ρ 1 c).arrAt · cfg1.N) ∗ Pipeline.unscopedRest spec1 c (U3 m ρ c))
      ⊢ (unscopedBufs c (U4 m ρ c) : sProp 𝕄) :=
  arrays_out1' (U3 m ρ) (U4 m ρ) c (B4_out m ρ c) (fun b hb => B4_of_ne m ρ c b hb)

/-! ## The two calls as items -/

set_option backward.isDefEq.respectTransparency.types false in
/-- The degree call over the thread state: entered from every unscoped buffer at `B1`, left at `B2`. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LK lvK 0 fun _ _ => rfl
  pre c := iprop(StableHlo.held (c : Thread nD τ) (Pipeline.ucRefs τ sig) (B1 m ρ c) ∗ RK c)
  post c := iprop(StableHlo.held (c : Thread nD τ) (Pipeline.ucRefs τ sig) (B2 m ρ c) ∗ RK c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (U1 m ρ c) (U2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation call over the thread state: entered from every unscoped buffer at `B3`, left at `B4`. -/
def reg1 : Pipeline.RegionSeg (pcfgs (F := F)) admK (pdatsK m ρ) () defs₀ 𝒱K LK lvK 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ LK lvK 1 fun _ _ => rfl
  pre c := iprop(StableHlo.held (c : Thread nD τ) (Pipeline.ucRefs τ sig) (B3 m ρ c) ∗ RK c)
  post c := iprop(StableHlo.held (c : Thread nD τ) (Pipeline.ucRefs τ sig) (B4 m ρ c) ∗ RK c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := arrays_in1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays_out1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segsK : List (Pipeline.Seg (pcfgs (F := F)) admK (pdatsK m ρ) () defs₀ 𝒱K LK lvK) :=
  [ .host (hsegK hostOps0 hostOps0_sub hostOps0_fresh (B0 m ρ)),
    .region (reg0 m ρ),
    .host (hsegK hostOps1 hostOps1_sub hostOps1_fresh (B2 m ρ)),
    .region (reg1 m ρ),
    .host (hsegK hostOps2 hostOps2_sub hostOps2_fresh (B4 m ρ)),
    .host (hsegK hostOps2_1 hostOps2_1_sub hostOps2_1_fresh (B5 m ρ)),
    .host (hsegK hostOps2_2 hostOps2_2_sub hostOps2_2_fresh (B6 m ρ)),
    .host (hsegK hostOps2_3 hostOps2_3_sub hostOps2_3_fresh (B7 m ρ)) ]

set_option backward.isDefEq.respectTransparency.types false in
/-- THE RUN: from any memory with zero counters every weakly fair execution of @main terminates, nothing faulting, and
    every final memory holds every unscoped buffer at the last fold `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admK (pdatsK m ρ) () cellOf_inj emb₁ defs₀ 𝒱K LK lvK m ρ main (segsK m ρ)
    (fun c Q => by
      rewrite [main_chain c, Pipeline.Seg.run_eq_chain,
        show (segsK m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RK c)) (Tₙ := TnK m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B8 m ρ c) ∗ RK c)
          ⊢ iprop(TnK m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LK lvK fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

/-! ## The arguments end as launched, and the frame -/

/-- A buffer that no host operation writes, that is not the degree call's result and not the propagation call's
    result, holds at the end what it held at launch. -/
theorem B8_keep (c : Dev nD) (r : Ref sig .tc) (h0 : r ∉ hostOps0_W) (h1 : r ∉ hostOps1_W) (h2 : r ∉ hostOps2_W)
    (h21 : r ∉ hostOps2_1_W) (h22 : r ∉ hostOps2_2_W) (h23 : r ∉ hostOps2_3_W) (h7 : r ≠ main_v7)
    (h12 : B2 m ρ c (Proc.devRef .tc r) = B1 m ρ c (Proc.devRef .tc r)) :
    B8 m ρ c r = m ((c : Thread nD τ).loc r) :=
  calc B8 m ρ c r
    _ = B7 m ρ c r := StableHlo.after_of_writes_sub hostOps2_3 _ hostOps2_3_writes h23
    _ = B6 m ρ c r := StableHlo.after_of_writes_sub hostOps2_2 _ hostOps2_2_writes h22
    _ = B5 m ρ c r := StableHlo.after_of_writes_sub hostOps2_1 _ hostOps2_1_writes h21
    _ = B4 m ρ c r := StableHlo.after_of_writes_sub hostOps2 _ hostOps2_writes h2
    _ = B3 m ρ c r := B4_of_ne m ρ c r h7
    _ = B2 m ρ c r := StableHlo.after_of_writes_sub hostOps1 _ hostOps1_writes h1
    _ = B1 m ρ c r := h12
    _ = B0 m ρ c r := StableHlo.after_of_writes_sub hostOps0 _ hostOps0_writes h0
    _ = m ((c : Thread nD τ).loc r) := rfl

theorem B8_main_arg0 (c : Dev nD) : B8 m ρ c main_arg0 = m ((c : Thread nD τ).loc main_arg0) :=
  B8_keep m ρ c main_arg0 (by decide) (by decide) (by decide) (by decide) (by decide) (by decide) (by decide) (B2_of_ne m ρ c main_arg0 (by decide))
theorem B8_main_arg1 (c : Dev nD) : B8 m ρ c main_arg1 = m ((c : Thread nD τ).loc main_arg1) :=
  B8_keep m ρ c main_arg1 (by decide) (by decide) (by decide) (by decide) (by decide) (by decide) (by decide) (B2_of_ne m ρ c main_arg1 (by decide))
theorem B8_main_arg2 (c : Dev nD) : B8 m ρ c main_arg2 = m ((c : Thread nD τ).loc main_arg2) :=
  B8_keep m ρ c main_arg2 (by decide) (by decide) (by decide) (by decide) (by decide) (by decide) (by decide) (B2_of_ne m ρ c main_arg2 (by decide))
theorem B8_main_arg3 (c : Dev nD) : B8 m ρ c main_arg3 = m ((c : Thread nD τ).loc main_arg3) :=
  B8_keep m ρ c main_arg3 (by decide) (by decide) (by decide) (by decide) (by decide) (by decide) (by decide) (B2_of_ne m ρ c main_arg3 (by decide))
theorem B8_main_arg4 (c : Dev nD) : B8 m ρ c main_arg4 = m ((c : Thread nD τ).loc main_arg4) :=
  B8_keep m ρ c main_arg4 (by decide) (by decide) (by decide) (by decide) (by decide) (by decide) (by decide) (B2_of_ne m ρ c main_arg4 (by decide))
/-- The adjacency matrix is the degree call's input array: the call leaves an input array as it found it. -/
theorem B8_main_arg5 (c : Dev nD) : B8 m ρ c main_arg5 = m ((c : Thread nD τ).loc main_arg5) :=
  B8_keep m ρ c main_arg5 (by decide) (by decide) (by decide) (by decide) (by decide) (by decide) (by decide)
    ((B2_arr m ρ c 0).trans (((dat0 (U1 m ρ) c).arrAt_in 0 rfl _).trans (A_eq0 (U1 m ρ) c 0)))

/-- THE RUN WITH THE RESULT NAMED: every weakly fair execution terminates, nothing faulting; the result's buffer ends at
    the last fold's contents, and the six argument arrays end as launched. -/
theorem run_value : θ_run defs (onTc (τ := τ) (main (F := F))) ⟨m, fun _ => 0, ρ⟩ (fun r => ∀ c : Dev nD,
      r.2.mem ((c.tc : Thread nD τ).loc main_v27) = B8 m ρ c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v27 (by decide)),
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c)⟩) (run_all m ρ)

/-- THE FRAME: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Rgn

end
-- ==== Proof.DegreeRegionIdeal.lean ====
import proofs.«141531_j54073638257182_2_alg».proof.Proof.Gen.KernelIdeal.Launch
import proofs.«141531_j54073638257182_2_alg».proof.Proof.Gen.KernelIdeal.Skeleton
import proofs.«141531_j54073638257182_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The degree call: per strip of 512 rows of the adjacency matrix, the reciprocal square root of each row sum plus one -/

/-- Block `t` of window `w`: rows `512·t … 512·t + 511` of the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The strip of the matrix is in its staging buffer at every grid point, for any proof data whose array is the
    entry contents and whose body leaves the strip in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole strip and the whole column of results, as rectangles. -/
abbrev r0_in : Rect S512x12288 := Rect.unit (s := S512x12288) ![0, 0] S512x12288.size inb_S512x12288_S512x12288_0_0
abbrev r0_out : Rect S512x1 := Rect.unit (s := S512x1) ![0, 0] S512x1.size inb_S512x1_S512x1_0_0

/-- What one grid point leaves in the result's staging buffer: the column of `rsqrt (row sum + 1)` over the strip. -/
def out0_1 (x0 : Vec F S512x12288 .f32) : Vec F S512x1 .f32 :=
  View.canon [⟨r0_out, k0_pay1 (View.ld x0 r0_in)⟩]

/-- The one store covers the whole column. -/
theorem cover0_1 (p0 : Vec F S512x1 .f32) (y : S512x1.Idx) :
    ∃ pc ∈ ([⟨r0_out, p0⟩] : List (View.Piece (Elt F) S512x1 .f32)), y ∈ pc.1.set :=
  View.cover_of_tiled [⟨r0_out, p0⟩] S512x1.size (by rfl) y

set_option maxHeartbeats 1000000 in
/-- The body on whole staging buffers: the strip is read and left as it was, the column ends at `out0_1` of the strip. -/
theorem sound_kernel0 (c : Dev nD) (E : Set ℕ) (i : grid0.Coords) (arg1 : Memref sig .tc .vmem S512x12288 .f32) (harg1 : arg1.IsWhole)
    (arg2 : Memref sig .tc .vmem S512x1 .f32) (harg2 : arg2.IsWhole)
    (x0 : Vec F S512x12288 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__row_sum_kernel i arg1 harg1 arg2 harg2) K := by
  simp only [cc0__row_sum_kernel_eq_skeleton]; unfold cc0__row_sum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree call on core `c`: the arrays as found; after the body at point `t` the strip in
    place and the column at `out0_1` of the strip; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation of the degree call, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rgn

end
-- ==== Proof.PropRegionIdeal.lean ====
import proofs.«141531_j54073638257182_2_alg».proof.Proof.Gen.KernelIdeal.Launch
import proofs.«141531_j54073638257182_2_alg».proof.Proof.Gen.KernelIdeal.Skeleton
import proofs.«141531_j54073638257182_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The propagation call: per strip of 512 rows, `d · (A_strip · Y + Y_strip)` with `Y` resident whole -/

/-- Block `t` of window `w` of the propagation call, read off its array as the call finds it: the strip of the matrix
    (window 0), all of `Y` (window 1), the strip of `Y` (window 2), the strip of the degree column (window 3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every grid point, fetched there or not (`Y` whole is fetched once:
    its block index never moves). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole staging buffers as rectangles. -/
abbrev r1_a : Rect S512x12288 := Rect.unit (s := S512x12288) ![0, 0] S512x12288.size inb_S512x12288_S512x12288_0_0
abbrev r1_y : Rect S12288x64 := Rect.unit (s := S12288x64) ![0, 0] S12288x64.size inb_S12288x64_S12288x64_0_0
abbrev r1_d : Rect S512x1 := Rect.unit (s := S512x1) ![0, 0] S512x1.size inb_S512x1_S512x1_0_0
abbrev r1_o : Rect S512x64 := Rect.unit (s := S512x64) ![0, 0] S512x64.size inb_S512x64_S512x64_0_0

/-- What one grid point leaves in the result's staging buffer, from the four input blocks. -/
def out1_4 (x0 : Vec F S512x12288 .f32) (x1 : Vec F S12288x64 .f32) (x2 : Vec F S512x64 .f32) (x3 : Vec F S512x1 .f32) : Vec F S512x64 .f32 :=
  View.canon [⟨r1_o, k1_pay1 (View.ld x0 r1_a) (View.ld x1 r1_y) (View.ld x3 r1_d) (View.ld x2 r1_o)⟩]

/-- The one store covers the whole block. -/
theorem cover1_4 (p0 : Vec F S512x64 .f32) (y : S512x64.Idx) :
    ∃ pc ∈ ([⟨r1_o, p0⟩] : List (View.Piece (Elt F) S512x64 .f32)), y ∈ pc.1.set :=
  View.cover_of_tiled [⟨r1_o, p0⟩] S512x64.size (by rfl) y

set_option maxHeartbeats 1000000 in
/-- The body on whole staging buffers: the four inputs are read and left as they were, the result ends at `out1_4`. -/
theorem sound_kernel1 (c : Dev nD) (E : Set ℕ) (i : grid1.Coords)
    (arg1 : Memref sig .tc .vmem S512x12288 .f32) (harg1 : arg1.IsWhole) (arg2 : Memref sig .tc .vmem S12288x64 .f32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole)
    (x0 : Vec F S512x12288 .f32) (x1 : Vec F S12288x64 .f32) (x2 : Vec F S512x64 .f32) (x3 : Vec F S512x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__propagate_kernel i arg1 harg1 arg2 harg2 arg3 harg3 arg4 harg4 arg5 harg5) K := by
  simp only [cc1__propagate_kernel_eq_skeleton]; unfold cc1__propagate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- Half of a buffer's ownership: the two windows that read `Y` each hold one. -/
abbrev halfL : PosShare TreeShare := fullShare.left
abbrev halfR : PosShare TreeShare := fullShare.right

/-- The two halves make the whole. -/
theorem half_mem : fullShare ∈ PCS.op halfL halfR := PosShare.mem_left_op_right fullShare

/-- The proof data of the propagation call on core `c`: the arrays as found; after the body at point `t` each input
    block in place and the result at `out1_4` of the input blocks; nothing owed; the array of `Y`, read through two
    windows, held half by each, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨1, _⟩ => halfL
    | ⟨2, _⟩ => halfR
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of the propagation call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rgn

end
-- ==== Proof.PropArraysIdeal.lean ====
import proofs.«141531_j54073638257182_2_alg».proof.Proof.PropRegionIdeal

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The propagation call's five windows sit on four buffers. -/
theorem arr_image1 : Finset.univ.image (Pipeline.arrRef spec1) = ([main_arg5, main_v6, main_v4, main_v7] : List (Ref sig .tc)).toFinset := by decide

/-- A sum over those four buffers, one by one. -/
theorem bigSep_arr1 (Φ : Ref sig .tc → sProp 𝕄) :
    bigSep (Finset.univ.image (Pipeline.arrRef spec1)) Φ = iprop(Φ main_arg5 ∗ Φ main_v6 ∗ Φ main_v4 ∗ Φ main_v7) :=
  bigSep_eq_bigSepL_of_eq [main_arg5, main_v6, main_v4, main_v7] arr_image1 (by decide) Φ

/-- The call's arrays, window by window, each a whole buffer at its window's share. -/
theorem arrays_eq1 (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Pipeline.Dat.arrays
  exact bigSep_congr fun w _ => by rw [(arr_whole1 w).set_eq_univ]

/-- The unscoped buffers are the four buffers behind the call's windows and the rest. -/
theorem split1 (c : Dev nD) (Vc : (b : Ref sig .tc) → Buf (Elt F) ((c : Thread nD τ).loc b)) :
    (unscopedBufs c Vc : sProp 𝕄) = iprop((Pipeline.arrBufs spec1 c Vc : sProp 𝕄) ∗ Pipeline.unscopedRest spec1 c Vc) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]; rfl

/-- ENTRY: the unscoped buffers at the entry contents are the call's arrays — the array of `Y` halved between its two
    windows — and the rest. -/
theorem arrays_in1' (c : Dev nD) :
    (unscopedBufs c (V c) : sProp 𝕄)
      ⊢ iprop((dat1 V c).arrays ((dat1 V c).arrAt · 0) ∗ Pipeline.unscopedRest spec1 c (V c)) := by
  rw [split1]
  refine sep_mono ?_ .rfl
  rw [arrays_eq1]
  unfold Pipeline.arrBufs
  rw [bigSep_W1, bigSep_arr1]
  iintro ⟨H5, H6, H4, H7⟩
  ihave H6' := (pointsTo_share half_mem).1 $$ H6
  icases H6' with ⟨H6a, H6b⟩
  isplitl [H5]; · iexact H5
  isplitl [H6a]; · iexact H6a
  isplitl [H6b]; · iexact H6b
  isplitl [H4]; · iexact H4
  iexact H7

/-- EXIT: the call's arrays at what it leaves — the four inputs as entered, the two halves of `Y` joined again, the
    result at its final contents — and the rest are the unscoped buffers at contents that differ from the entry's at the
    result's buffer only. -/
theorem arrays_out1' (V' : (c : Dev nD) → (b : Ref sig .tc) → Buf (Elt F) ((c : Thread nD τ).loc b)) (c : Dev nD)
    (hout : V' c main_v7 = (dat1 V c).arrAt 4 cfg1.N) (hne : ∀ b : Ref sig .tc, b ≠ main_v7 → V' c b = V c b) :
    iprop((dat1 V c).arrays ((dat1 V c).arrAt · cfg1.N) ∗ Pipeline.unscopedRest spec1 c (V c))
      ⊢ (unscopedBufs c (V' c) : sProp 𝕄) := by
  rw [split1]
  refine sep_mono ?_ (Entails.of_eq ?_)
  · rw [arrays_eq1]
    unfold Pipeline.arrBufs
    rw [bigSep_W1, bigSep_arr1]
    rw [hne main_arg5 (by decide), hne main_v6 (by decide), hne main_v4 (by decide), hout,
      (dat1 V c).arrAt_in 0 rfl cfg1.N, (dat1 V c).arrAt_in 1 rfl cfg1.N, (dat1 V c).arrAt_in 2 rfl cfg1.N, (dat1 V c).arrAt_in 3 rfl cfg1.N]
    iintro ⟨H0, H1, H2, H3, H4⟩
    isplitl [H0]; · iexact H0
    isplitl [H1 H2]
    · iapply (pointsTo_share half_mem).2
      isplitl [H1]; · iexact H1
      iexact H2
    isplitl [H3]; · iexact H3
    iexact H4
  · unfold Pipeline.unscopedRest
    exact bigSep_congr fun b hb => by
      rw [hne b fun e => (Finset.mem_sdiff.mp hb).2 (e ▸ Finset.mem_image.mpr ⟨4, Finset.mem_univ _, rfl⟩)]

end Cert.KernelIdeal.Rgn

end
-- ==== Proof.KernelRunIdeal.lean ====
import proofs.«141531_j54073638257182_2_alg».proof.Proof.DegreeRegionIdeal
import proofs.«141531_j54073638257182_2_alg».proof.Proof.PropArraysIdeal
import proofs.«141531_j54073638257182_2_alg».proof.Proof.Gen.KernelIdeal.Regions

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between the items of @main: a fold from the launch memory

`B0` at launch; `B1` after the dense layer `H·W + b`; `B2` after the degree call (its result array at what the call
leaves); `B3` after `Y = d · X`; `B4` after the propagation call; `B5 … B8` after the four stretches of the
normalisation and the leaky rectifier. -/

abbrev B0 : Dev nD → Valuation τ sig (Elt F) := fun c b => (s₀ m ρ).mem ((c : Dev nD), b)
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b

/-- After the degree call: its arrays at what the pipeline leaves, every other buffer as entered. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

abbrev B3 : Dev nD → Valuation τ sig (Elt F) := fun c => StableHlo.after hostOps1 (B2 m ρ c)
abbrev U3 : (c : Dev nD) → (b : Ref sig .tc) → Buf (Elt F) ((c : Thread nD τ).loc b) := fun c b => B3 m ρ c b

/-- After the propagation call: its result array at what the pipeline leaves, every other buffer as entered (its four
    inputs — the matrix, `Y` through two windows, the degree column — are read only). -/
def B4 (c : Dev nD) : Valuation τ sig (Elt F) :=
  Function.update (B3 m ρ c) main_v7 ((dat1 (U3 m ρ) c).arrAt 4 cfg1.N)
abbrev U4 : (c : Dev nD) → (b : Ref sig .tc) → Buf (Elt F) ((c : Thread nD τ).loc b) := fun c b => B4 m ρ c b
theorem B4_out (c : Dev nD) : U4 m ρ c main_v7 = (dat1 (U3 m ρ) c).arrAt 4 cfg1.N := by
  show B4 m ρ c main_v7 = _
  unfold B4; exact Function.update_self _ _ _
theorem B4_of_ne (c : Dev nD) (b : Ref sig .tc) (hb : b ≠ main_v7) : U4 m ρ c b = U3 m ρ c b := by
  show B4 m ρ c b = B3 m ρ c b
  unfold B4; exact Function.update_of_ne (StableHlo.devRef_ne_of_ne hb) _ _

abbrev B5 : Dev nD → Valuation τ sig (Elt F) := fun c => StableHlo.after hostOps2 (B4 m ρ c)
abbrev B6 : Dev nD → Valuation τ sig (Elt F) := fun c => StableHlo.after hostOps2_1 (B5 m ρ c)
abbrev B7 : Dev nD → Valuation τ sig (Elt F) := fun c => StableHlo.after hostOps2_2 (B6 m ρ c)
abbrev B8 : Dev nD → Valuation τ sig (Elt F) := fun c => StableHlo.after hostOps2_3 (B7 m ρ c)

/-! ## The proof data family and the thread state -/

abbrev admK : (p : Fin 2) → (pcfgs (F := F) p).Adm := fun p => (cfgs p).toPCfg_adm
/-- Each call's proof data at its own entry contents. -/
def pdatsK : (p : Fin 2) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
abbrev 𝒱K : Variants := Variants.none
abbrev LK : GSem nD τ sig → Finset Unit := fun _ => ∅
abbrev lvK : GSem nD τ sig → Unit → ℕ := fun _ _ => 0
/-- What rides beside the buffers through every item: the generator register and the core owing nothing. -/
abbrev RK (c : Dev nD) : sProp 𝕄 := iprop((∃ r, prngReg c r) ∗ ∃ W, owes (c : Thread nD τ) (0 : CellTallies nD τ sig Unit) W)
abbrev hsegK (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnK (c : Dev nD) : sProp 𝕄 := iprop(StableHlo.held (c : Thread nD τ) (Pipeline.ucRefs τ sig) (B8 m ρ c) ∗ ∃ r, prngReg c r)

/-! ## The propagation call's arrays in and out of the unscoped buffers

Its five windows sit on FOUR buffers: the array of `Y` is read through two windows, each holding half of it. -/

/-- ENTRY: the unscoped buffers at the entry contents are the call's arrays — the array of `Y` halved between its two
    windows — and the rest. -/
theorem arrays_in1 (c : Dev nD) :
    (unscopedBufs c (U3 m ρ c) : sProp 𝕄)
      ⊢ iprop((pdatsK m ρ 1 c).arrays ((pdatsK m ρ 1 c).arrAt · 0) ∗ Pipeline.unscopedRest spec1 c (U3 m ρ c)) :=
  arrays_in1' (U3 m ρ) c

/-- EXIT: the call's arrays at what it leaves — the inputs as entered, the two halves of `Y` joined again — and the
    rest are the unscoped buffers at the exit contents. -/
theorem arrays_out1 (c : Dev nD) :
    iprop((pdatsK m ρ 1 c).arrays ((pdatsK m ρ 1 c).arrAt · cfg1.N) ∗ Pipeline.unscopedRest spec1 c (U3 m ρ c))
      ⊢ (unscopedBufs c (U4 m ρ c) : sProp 𝕄) :=
  arrays_out1' (U3 m ρ) (U4 m ρ) c (B4_out m ρ c) (fun b hb => B4_of_ne m ρ c b hb)

/-! ## The two calls as items -/

set_option backward.isDefEq.respectTransparency.types false in
/-- The degree call over the thread state: entered from every unscoped buffer at `B1`, left at `B2`. -/
def reg0 : Pipeline.RegionSeg (pcfgs (F := F)) admK (pdatsK m ρ) () defs₀ 𝒱K LK lvK 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ LK lvK 0 fun _ _ => rfl
  pre c := iprop(StableHlo.held (c : Thread nD τ) (Pipeline.ucRefs τ sig) (B1 m ρ c) ∗ RK c)
  post c := iprop(StableHlo.held (c : Thread nD τ) (Pipeline.ucRefs τ sig) (B2 m ρ c) ∗ RK c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (U1 m ρ c) (U2 m ρ c) ((pdatsK m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation call over the thread state: entered from every unscoped buffer at `B3`, left at `B4`. -/
def reg1 : Pipeline.RegionSeg (pcfgs (F := F)) admK (pdatsK m ρ) () defs₀ 𝒱K LK lvK 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ LK lvK 1 fun _ _ => rfl
  pre c := iprop(StableHlo.held (c : Thread nD τ) (Pipeline.ucRefs τ sig) (B3 m ρ c) ∗ RK c)
  post c := iprop(StableHlo.held (c : Thread nD τ) (Pipeline.ucRefs τ sig) (B4 m ρ c) ∗ RK c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := arrays_in1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays_out1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segsK : List (Pipeline.Seg (pcfgs (F := F)) admK (pdatsK m ρ) () defs₀ 𝒱K LK lvK) :=
  [ .host (hsegK hostOps0 hostOps0_sub hostOps0_fresh (B0 m ρ)),
    .region (reg0 m ρ),
    .host (hsegK hostOps1 hostOps1_sub hostOps1_fresh (B2 m ρ)),
    .region (reg1 m ρ),
    .host (hsegK hostOps2 hostOps2_sub hostOps2_fresh (B4 m ρ)),
    .host (hsegK hostOps2_1 hostOps2_1_sub hostOps2_1_fresh (B5 m ρ)),
    .host (hsegK hostOps2_2 hostOps2_2_sub hostOps2_2_fresh (B6 m ρ)),
    .host (hsegK hostOps2_3 hostOps2_3_sub hostOps2_3_fresh (B7 m ρ)) ]

set_option backward.isDefEq.respectTransparency.types false in
/-- THE RUN: from any memory with zero counters every weakly fair execution of @main terminates, nothing faulting, and
    every final memory holds every unscoped buffer at the last fold `B8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admK (pdatsK m ρ) () cellOf_inj emb₁ defs₀ 𝒱K LK lvK m ρ main (segsK m ρ)
    (fun c Q => by
      rewrite [main_chain c, Pipeline.Seg.run_eq_chain,
        show (segsK m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3 ] from rfl]
      exact .rfl)
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RK c)) (Tₙ := TnK m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B8 m ρ c) ∗ RK c)
          ⊢ iprop(TnK m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LK lvK fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

/-! ## The arguments end as launched, and the frame -/

/-- A buffer that no host operation writes, that is not the degree call's result and not the propagation call's
    result, holds at the end what it held at launch. -/
theorem B8_keep (c : Dev nD) (r : Ref sig .tc) (h0 : r ∉ hostOps0_W) (h1 : r ∉ hostOps1_W) (h2 : r ∉ hostOps2_W)
    (h21 : r ∉ hostOps2_1_W) (h22 : r ∉ hostOps2_2_W) (h23 : r ∉ hostOps2_3_W) (h7 : r ≠ main_v7)
    (h12 : B2 m ρ c (Proc.devRef .tc r) = B1 m ρ c (Proc.devRef .tc r)) :
    B8 m ρ c r = m ((c : Thread nD τ).loc r) :=
  calc B8 m ρ c r
    _ = B7 m ρ c r := StableHlo.after_of_writes_sub hostOps2_3 _ hostOps2_3_writes h23
    _ = B6 m ρ c r := StableHlo.after_of_writes_sub hostOps2_2 _ hostOps2_2_writes h22
    _ = B5 m ρ c r := StableHlo.after_of_writes_sub hostOps2_1 _ hostOps2_1_writes h21
    _ = B4 m ρ c r := StableHlo.after_of_writes_sub hostOps2 _ hostOps2_writes h2
    _ = B3 m ρ c r := B4_of_ne m ρ c r h7
    _ = B2 m ρ c r := StableHlo.after_of_writes_sub hostOps1 _ hostOps1_writes h1
    _ = B1 m ρ c r := h12
    _ = B0 m ρ c r := StableHlo.after_of_writes_sub hostOps0 _ hostOps0_writes h0
    _ = m ((c : Thread nD τ).loc r) := rfl

theorem B8_main_arg0 (c : Dev nD) : B8 m ρ c main_arg0 = m ((c : Thread nD τ).loc main_arg0) :=
  B8_keep m ρ c main_arg0 (by decide) (by decide) (by decide) (by decide) (by decide) (by decide) (by decide) (B2_of_ne m ρ c main_arg0 (by decide))
theorem B8_main_arg1 (c : Dev nD) : B8 m ρ c main_arg1 = m ((c : Thread nD τ).loc main_arg1) :=
  B8_keep m ρ c main_arg1 (by decide) (by decide) (by decide) (by decide) (by decide) (by decide) (by decide) (B2_of_ne m ρ c main_arg1 (by decide))
theorem B8_main_arg2 (c : Dev nD) : B8 m ρ c main_arg2 = m ((c : Thread nD τ).loc main_arg2) :=
  B8_keep m ρ c main_arg2 (by decide) (by decide) (by decide) (by decide) (by decide) (by decide) (by decide) (B2_of_ne m ρ c main_arg2 (by decide))
theorem B8_main_arg3 (c : Dev nD) : B8 m ρ c main_arg3 = m ((c : Thread nD τ).loc main_arg3) :=
  B8_keep m ρ c main_arg3 (by decide) (by decide) (by decide) (by decide) (by decide) (by decide) (by decide) (B2_of_ne m ρ c main_arg3 (by decide))
theorem B8_main_arg4 (c : Dev nD) : B8 m ρ c main_arg4 = m ((c : Thread nD τ).loc main_arg4) :=
  B8_keep m ρ c main_arg4 (by decide) (by decide) (by decide) (by decide) (by decide) (by decide) (by decide) (B2_of_ne m ρ c main_arg4 (by decide))
/-- The adjacency matrix is the degree call's input array: the call leaves an input array as it found it. -/
theorem B8_main_arg5 (c : Dev nD) : B8 m ρ c main_arg5 = m ((c : Thread nD τ).loc main_arg5) :=
  B8_keep m ρ c main_arg5 (by decide) (by decide) (by decide) (by decide) (by decide) (by decide) (by decide)
    ((B2_arr m ρ c 0).trans (((dat0 (U1 m ρ) c).arrAt_in 0 rfl _).trans (A_eq0 (U1 m ρ) c 0)))

/-- THE RUN WITH THE RESULT NAMED: every weakly fair execution terminates, nothing faulting; the result's buffer ends at
    the last fold's contents, and the six argument arrays end as launched. -/
theorem run_value : θ_run defs (onTc (τ := τ) (main (F := F))) ⟨m, fun _ => 0, ρ⟩ (fun r => ∀ c : Dev nD,
      r.2.mem ((c.tc : Thread nD τ).loc main_v27) = B8 m ρ c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v27 (by decide)),
      (h c _ (mem_uc main_arg0 (by decide))).trans (B8_main_arg0 m ρ c),
      (h c _ (mem_uc main_arg1 (by decide))).trans (B8_main_arg1 m ρ c),
      (h c _ (mem_uc main_arg2 (by decide))).trans (B8_main_arg2 m ρ c),
      (h c _ (mem_uc main_arg3 (by decide))).trans (B8_main_arg3 m ρ c),
      (h c _ (mem_uc main_arg4 (by decide))).trans (B8_main_arg4 m ρ c),
      (h c _ (mem_uc main_arg5 (by decide))).trans (B8_main_arg5 m ρ c)⟩) (run_all m ρ)

/-- THE FRAME: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Rgn

end
-- ==== Proof.RefTerm.lean ====
import proofs.«141531_j54073638257182_2_alg».proof.ReferenceIdeal
import proofs.«141531_j54073638257182_2_alg».proof.Proof.Gen.ReferenceIdeal
import Idealize.ShloMosaic.PureOps.Ideal

/-!
# The reference's stages as functions of the argument arrays

Each definition is one stage of the reference function at the ideal instance (a float an extended real): the printed
operation's function applied to the earlier stages, in the function's order.

* `idx`: the table whose row `i` is `[i, i]` (the positions of the diagonal).
* `adj`: the adjacency matrix with one added at every diagonal position.
* `degv`: the reciprocal square root of each row sum of `adj`.
* `ahat`: `adj` scaled by `degv` along its rows and along its columns.
* `x`: the dense layer.
* `prop`: the product of `ahat` and `x`.
* `tailR`: everything after the product — the per-feature mean and variance over the nodes, the normalisation, the
  scale and shift, and the leaky rectifier — as one function of the product.
-/

noncomputable section

namespace Cert.ReferenceIdeal.Hand

open Cert.ReferenceIdeal
open Idealize.ShloMosaic Idealize.SL.Sem
open Cert.ReferenceIdeal.Facts₀ Cert.ReferenceIdeal.Facts

/-! ## The diagonal index table -/

/-- `0, 1, …, 12287`. -/
def iota : IVec S12288 32 := iotaInDim S12288 32 0

/-- One column of the table: the index, with 12288 added where it is negative (nowhere). -/
def idxCol : IVec S12288 32 :=
  select (cmpi .slt iota (broadcastInDim S12288 ![] bcast_S_S12288 (constantI S_ 32 0#32)))
    (addi iota (broadcastInDim S12288 ![] bcast_S_S12288 (constantI S_ 32 12288#32))) iota

/-- The table: the two columns side by side. -/
def idx : IVec S12288x2 32 :=
  concatenate S12288x2 1
    [⟨S12288x1, broadcastInDim S12288x1 ![0] bcast_S12288_S12288x1_0 idxCol⟩,
     ⟨S12288x1, broadcastInDim S12288x1 ![0] bcast_S12288_S12288x1_0 idxCol⟩]
    concatenates_S12288x1_S12288x1_S12288x2_d1

/-! ## The normalised adjacency matrix -/

/-- The vector of ones added along the diagonal. -/
def ones : FVec Ideal S12288 .f32 :=
  broadcastInDim S12288 ![] bcast_S_S12288 (constant (F := Ideal) S_ .f32 0x3F800000#32)

/-- The adjacency matrix with the ones added at the table's positions. -/
def adj (a5 : FVec Ideal S12288x12288 .f32) : FVec Ideal S12288x12288 .f32 :=
  Host.scatterAdd (F := Ideal) scatter_S12288x12288_S12288x2_S12288_n_01_01_1 a5 idx ones

/-- The row sums. -/
def rowsumv (a5 : FVec Ideal S12288x12288 .f32) : FVec Ideal S12288 .f32 :=
  Host.reduceAdd (F := Ideal) (adj a5) (constant (F := Ideal) S_ .f32 0x00000000#32) reducesTo_S12288x12288_S12288_d1 h_S_

/-- Their reciprocal square roots. -/
def degv (a5 : FVec Ideal S12288x12288 .f32) : FVec Ideal S12288 .f32 :=
  Host.rsqrt (F := Ideal) (rowsumv a5)

/-- The degrees down the rows. -/
def degRows (a5 : FVec Ideal S12288x12288 .f32) : FVec Ideal S12288x12288 .f32 :=
  broadcastInDim S12288x12288 ![0, 1] bcast_S12288x1_S12288x12288_0_1
    (broadcastInDim S12288x1 ![0] bcast_S12288_S12288x1_0 (degv a5))

/-- The degrees along the columns. -/
def degCols (a5 : FVec Ideal S12288x12288 .f32) : FVec Ideal S12288x12288 .f32 :=
  broadcastInDim S12288x12288 ![0, 1] bcast_S1x12288_S12288x12288_0_1
    (broadcastInDim S1x12288 ![1] bcast_S12288_S1x12288_1 (degv a5))

/-- The normalised matrix. -/
def ahat (a5 : FVec Ideal S12288x12288 .f32) : FVec Ideal S12288x12288 .f32 :=
  mulf (mulf (degRows a5) (adj a5)) (degCols a5)

/-! ## The dense layer and the propagation -/

/-- The dense layer. -/
def x (a0 : FVec Ideal S12288x64 .f32) (a1 : FVec Ideal S64x64 .f32) (a2 : FVec Ideal S64 .f32) :
    FVec Ideal S12288x64 .f32 :=
  addf (Host.dotGeneral (F := Ideal) dot_S12288x64_S64x64_S12288x64_1_0_0_1_n_n none a0 a1)
    (broadcastInDim S12288x64 ![0, 1] bcast_S1x64_S12288x64_0_1 (broadcastInDim S1x64 ![1] bcast_S64_S1x64_1 a2))

/-- The propagation. -/
def prop (a0 : FVec Ideal S12288x64 .f32) (a1 : FVec Ideal S64x64 .f32) (a2 : FVec Ideal S64 .f32)
    (a5 : FVec Ideal S12288x12288 .f32) : FVec Ideal S12288x64 .f32 :=
  Host.dotGeneral (F := Ideal) dot_S12288x12288_S12288x64_S12288x64_1_0_0_1_n_n none (ahat a5) (x a0 a1 a2)

/-! ## After the propagation -/

/-- The per-feature mean over the nodes. -/
def meanR (out : FVec Ideal S12288x64 .f32) : FVec Ideal S64 .f32 :=
  Host.divf (F := Ideal)
    (Host.reduceAdd (F := Ideal) out (constant (F := Ideal) S_ .f32 0x00000000#32) reducesTo_S12288x64_S64_d0 h_S_)
    (broadcastInDim S64 ![] bcast_S_S64 (constant (F := Ideal) S_ .f32 0x46400000#32))

/-- The deviations from the mean inside the variance. -/
def varDev (out : FVec Ideal S12288x64 .f32) : FVec Ideal S12288x64 .f32 :=
  subf out
    (broadcastInDim S12288x64 ![0, 1] bcast_S1x64_S12288x64_0_1
      (Host.divf (F := Ideal)
        (broadcastInDim S1x64 ![1] bcast_S64_S1x64_1
          (Host.reduceAdd (F := Ideal) out (constant (F := Ideal) S_ .f32 0x00000000#32) reducesTo_S12288x64_S64_d0 h_S_))
        (broadcastInDim S1x64 ![] bcast_S_S1x64 (constant (F := Ideal) S_ .f32 0x46400000#32))))

/-- The divisor of the variance: the number of nodes less the correction (zero). -/
def varDen : FVec Ideal S_ .f32 :=
  subf (constant (F := Ideal) S_ .f32 0x46400000#32) (sitofp (F := Ideal) .f32 (constantI S_ 32 0#32))

/-- The per-feature variance over the nodes. -/
def varR (out : FVec Ideal S12288x64 .f32) : FVec Ideal S64 .f32 :=
  select
    (broadcastInDim S64 ![] bcast_S_S64
      (cmpf (F := Ideal) .ogt varDen (constant (F := Ideal) S_ .f32 0x00000000#32)))
    (Host.divf (F := Ideal)
      (Host.reduceAdd (F := Ideal) (mulf (varDev out) (varDev out)) (constant (F := Ideal) S_ .f32 0x00000000#32)
        reducesTo_S12288x64_S64_d0 h_S_)
      (broadcastInDim S64 ![] bcast_S_S64 varDen))
    (broadcastInDim S64 ![] bcast_S_S64 (id (constant (F := Ideal) S_ .f32 0x7FC00000#32)))

/-- The normalised, scaled and shifted array. -/
def normR (γ β : FVec Ideal S64 .f32) (out : FVec Ideal S12288x64 .f32) : FVec Ideal S12288x64 .f32 :=
  addf
    (mulf
      (mulf
        (subf out
          (broadcastInDim S12288x64 ![0, 1] bcast_S1x64_S12288x64_0_1
            (broadcastInDim S1x64 ![1] bcast_S64_S1x64_1 (meanR out))))
        (broadcastInDim S12288x64 ![0, 1] bcast_S1x64_S12288x64_0_1
          (broadcastInDim S1x64 ![1] bcast_S64_S1x64_1
            (Host.rsqrt (F := Ideal)
              (addf (varR out) (broadcastInDim S64 ![] bcast_S_S64 (constant (F := Ideal) S_ .f32 0x3727C5AC#32)))))))
      (broadcastInDim S12288x64 ![0, 1] bcast_S1x64_S12288x64_0_1 (broadcastInDim S1x64 ![1] bcast_S64_S1x64_1 γ)))
    (broadcastInDim S12288x64 ![0, 1] bcast_S1x64_S12288x64_0_1 (broadcastInDim S1x64 ![1] bcast_S64_S1x64_1 β))

/-- The leaky rectifier. -/
def leakyR (y : FVec Ideal S12288x64 .f32) : FVec Ideal S12288x64 .f32 :=
  select
    (cmpf (F := Ideal) .oge y (broadcastInDim S12288x64 ![] bcast_S_S12288x64 (constant (F := Ideal) S_ .f32 0x00000000#32)))
    y
    (mulf (broadcastInDim S12288x64 ![] bcast_S_S12288x64 (id (constant (F := Ideal) S_ .f32 0x3C23D70A#32))) y)

/-- Everything after the propagation, as one function of it. -/
def tailR (γ β : FVec Ideal S64 .f32) (out : FVec Ideal S12288x64 .f32) : FVec Ideal S12288x64 .f32 :=
  leakyR (normR γ β out)

/-- The reference's result. -/
def refOut (a0 : FVec Ideal S12288x64 .f32) (a1 : FVec Ideal S64x64 .f32) (a2 a3 a4 : FVec Ideal S64 .f32)
    (a5 : FVec Ideal S12288x12288 .f32) : FVec Ideal S12288x64 .f32 :=
  tailR a3 a4 (prop a0 a1 a2 a5)

end Cert.ReferenceIdeal.Hand

end
-- ==== Proof.KernelFoldIdeal.lean ====
import proofs.«141531_j54073638257182_2_alg».proof.Proof.KernelRunIdeal
import proofs.«141531_j54073638257182_2_alg».proof.Proof.RefTerm

/-!
# The kernel program's buffers after its host operations

Each stretch of host operations rewrites the buffers it names and leaves the rest. Read at its result buffer, a stretch
is its operations' functions applied to what the buffers held before it:

* the dense layer `H·W + b` (the first stretch), from the launch contents;
* `Y = d · X` (the second stretch), from the degree column the first call leaves and the dense layer;
* the tail (the last four stretches: the per-feature mean and variance over the nodes, the normalisation, scale and
  shift, and the leaky rectifier), from the propagation call's result and the two parameter vectors, which nothing
  writes. Its operations are the reference's own, so the result is the reference's tail function of the propagation
  result.
-/

set_option maxRecDepth 16384

noncomputable section

namespace Cert.KernelIdeal.Rgn

open Cert.KernelIdeal Cert.KernelIdeal.Gen
open Idealize.ShloMosaic Idealize.ShloMosaic.TcCoe
open Idealize.SL.Sem
open Idealize.ShloMosaic.Pipeline (Dat Cfg Window)
open Cert.ReferenceIdeal.Hand (tailR meanR varR normR leakyR)

/-! ## The four stretches of the tail, each from any contents -/

/-- The first stretch leaves the per-feature mean of the propagation result … -/
theorem tail_mean (V : Valuation τ sig (Elt Ideal)) :
    StableHlo.after (hostOps2 (F := Ideal)) V main_v10 = meanR (V main_v7) := by
  show StableHlo.after (hostOps2 (F := Ideal)) V (Proc.devRef .tc main_v10) = _
  after_results
  rfl

/-- … and the integer zero the variance's divisor subtracts. -/
theorem tail_zero (V : Valuation τ sig (Elt Ideal)) :
    StableHlo.after (hostOps2 (F := Ideal)) V main_c = constantI Cert.KernelIdeal.S_ 32 0#32 := by
  show StableHlo.after (hostOps2 (F := Ideal)) V (Proc.devRef .tc main_c) = _
  after_results

/-- The second stretch leaves the per-feature variance. -/
theorem tail_var (V : Valuation τ sig (Elt Ideal)) (hc : V main_c = constantI Cert.KernelIdeal.S_ 32 0#32) :
    StableHlo.after (hostOps2_1 (F := Ideal)) V main_v11 = varR (V main_v7) := by
  show StableHlo.after (hostOps2_1 (F := Ideal)) V (Proc.devRef .tc main_v11) = _
  after_results_simp
  rw [show V (Proc.devRef .tc main_c) = constantI Cert.KernelIdeal.S_ 32 0#32 from hc]
  rfl

/-- The third stretch leaves the normalised, scaled and shifted array … -/
theorem tail_norm (V : Valuation τ sig (Elt Ideal)) (γ β : FVec Ideal Cert.KernelIdeal.S64 .f32)
    (out : FVec Ideal Cert.KernelIdeal.S12288x64 .f32)
    (h10 : V main_v10 = meanR out) (h11 : V main_v11 = varR out) (h7 : V main_v7 = out)
    (h3 : V main_arg3 = γ) (h4 : V main_arg4 = β) :
    StableHlo.after (hostOps2_2 (F := Ideal)) V main_v26 = normR γ β out := by
  show StableHlo.after (hostOps2_2 (F := Ideal)) V (Proc.devRef .tc main_v26) = _
  after_results_simp
  rw [show V (Proc.devRef .tc main_v10) = meanR out from h10, show V (Proc.devRef .tc main_v11) = varR out from h11,
    show V (Proc.devRef .tc main_v7) = out from h7, show V (Proc.devRef .tc main_arg3) = γ from h3,
    show V (Proc.devRef .tc main_arg4) = β from h4]
  rfl

/-- … and the rectifier's slope. -/
theorem tail_slope (V : Valuation τ sig (Elt Ideal)) :
    StableHlo.after (hostOps2_2 (F := Ideal)) V main_cst_2
      = constant (F := Ideal) Cert.KernelIdeal.S_ .f32 0x3C23D70A#32 := by
  show StableHlo.after (hostOps2_2 (F := Ideal)) V (Proc.devRef .tc main_cst_2) = _
  after_results_simp

/-- The fourth stretch leaves the leaky rectifier of the third's result. -/
theorem tail_leaky (V : Valuation τ sig (Elt Ideal)) (y : FVec Ideal Cert.KernelIdeal.S12288x64 .f32)
    (h26 : V main_v26 = y) (hs : V main_cst_2 = constant (F := Ideal) Cert.KernelIdeal.S_ .f32 0x3C23D70A#32) :
    StableHlo.after (hostOps2_3 (F := Ideal)) V main_v27 = leakyR y := by
  show StableHlo.after (hostOps2_3 (F := Ideal)) V (Proc.devRef .tc main_v27) = _
  after_results
  rw [show V (Proc.devRef .tc main_v26) = y from h26,
    show V (Proc.devRef .tc main_cst_2) = constant (F := Ideal) Cert.KernelIdeal.S_ .f32 0x3C23D70A#32 from hs]
  rfl

/-- The four stretches in a row, from any contents `W`: the reference's tail function of what `W` holds at the
    propagation result, with the scale and shift vectors `W` holds (no stretch writes those three). -/
theorem tail_of (W : Valuation τ sig (Elt Ideal)) :
    StableHlo.after (hostOps2_3 (F := Ideal)) (StableHlo.after (hostOps2_2 (F := Ideal))
        (StableHlo.after (hostOps2_1 (F := Ideal)) (StableHlo.after (hostOps2 (F := Ideal)) W))) main_v27
      = tailR (W main_arg3) (W main_arg4) (W main_v7) := by
  -- what the first two stretches leave alone
  have k5 : ∀ r : Ref sig .tc, r ∉ hostOps2_W →
      StableHlo.after (hostOps2 (F := Ideal)) W (Proc.devRef .tc r) = W (Proc.devRef .tc r) :=
    fun r h => StableHlo.after_of_writes_sub hostOps2 _ hostOps2_writes h
  have k6 : ∀ (V : Valuation τ sig (Elt Ideal)) (r : Ref sig .tc), r ∉ hostOps2_1_W →
      StableHlo.after (hostOps2_1 (F := Ideal)) V (Proc.devRef .tc r) = V (Proc.devRef .tc r) :=
    fun V r h => StableHlo.after_of_writes_sub hostOps2_1 _ hostOps2_1_writes h
  generalize h5 : StableHlo.after (hostOps2 (F := Ideal)) W = V5 at k5
  have m5 : V5 main_v10 = meanR (W main_v7) := h5 ▸ tail_mean W
  have c5 : V5 main_c = constantI Cert.KernelIdeal.S_ 32 0#32 := h5 ▸ tail_zero W
  have v6 : StableHlo.after (hostOps2_1 (F := Ideal)) V5 main_v11 = varR (W main_v7) :=
    (tail_var V5 c5).trans (congrArg varR (k5 main_v7 (by decide)))
  have k6' := k6 V5
  generalize h6 : StableHlo.after (hostOps2_1 (F := Ideal)) V5 = V6 at v6 k6'
  have n7 : StableHlo.after (hostOps2_2 (F := Ideal)) V6 main_v26 = normR (W main_arg3) (W main_arg4) (W main_v7) :=
    tail_norm V6 _ _ _ ((k6' main_v10 (by decide)).trans m5) v6
      ((k6' main_v7 (by decide)).trans (k5 main_v7 (by decide)))
      ((k6' main_arg3 (by decide)).trans (k5 main_arg3 (by decide)))
      ((k6' main_arg4 (by decide)).trans (k5 main_arg4 (by decide)))
  exact tail_leaky _ _ n7 (tail_slope V6)

/-! ## The first two stretches, each from any contents -/

/-- The first stretch leaves the dense layer `H·W + b` of the three buffers it reads. -/
theorem x_of (W : Valuation τ sig (Elt Ideal)) :
    (StableHlo.after (hostOps0 (F := Ideal)) W main_v3 : FVec Ideal S12288x64 .f32)
      = addf (F := Ideal) (φ := .f32)
          (Host.dotGeneral (F := Ideal) (φ₁ := .f32) (φ₂ := .f32) dot_S12288x64_S64x64_S12288x64_1_0_0_1_n_n none
            (W main_arg0 : FVec Ideal S12288x64 .f32) (W main_arg1 : FVec Ideal S64x64 .f32))
          (broadcastInDim S12288x64 ![0, 1] bcast_S1x64_S12288x64_0_1
            (broadcastInDim S1x64 ![1] bcast_S64_S1x64_1 (W main_arg2 : FVec Ideal S64 .f32))) := by
  show StableHlo.after (hostOps0 (F := Ideal)) W (Proc.devRef .tc main_v3) = _
  after_results

/-- The second stretch leaves the degree column, laid out over the features, times the dense layer. -/
theorem y_of (W : Valuation τ sig (Elt Ideal)) :
    (StableHlo.after (hostOps1 (F := Ideal)) W main_v6 : FVec Ideal S12288x64 .f32)
      = mulf (F := Ideal) (φ := .f32)
          (broadcastInDim S12288x64 ![0, 1] bcast_S12288x1_S12288x64_0_1 (W main_v4 : FVec Ideal S12288x1 .f32))
          (W main_v3 : FVec Ideal S12288x64 .f32) := by
  show StableHlo.after (hostOps1 (F := Ideal)) W (Proc.devRef .tc main_v6) = _
  after_results

/-! ## The fold's buffers read -/

variable (m : (ℓ : Loc nD τ sig) → Buf (Elt Ideal) ℓ) (ρ : Dev nD → PrngReg)

/-- A buffer that the first two stretches do not write, that is not the degree call's result and not the propagation
    call's result, holds after the propagation call what it held at launch. -/
theorem B4_keep (c : Dev nD) (r : Ref sig .tc) (h0 : r ∉ hostOps0_W) (h1 : r ∉ hostOps1_W) (h7 : r ≠ main_v7)
    (h12 : B2 m ρ c (Proc.devRef .tc r) = B1 m ρ c (Proc.devRef .tc r)) :
    B4 m ρ c r = m ((c : Thread nD τ).loc r) :=
  calc B4 m ρ c r
    _ = B3 m ρ c r := B4_of_ne m ρ c r h7
    _ = B2 m ρ c r := StableHlo.after_of_writes_sub hostOps1 _ hostOps1_writes h1
    _ = B1 m ρ c r := h12
    _ = B0 m ρ c r := StableHlo.after_of_writes_sub hostOps0 _ hostOps0_writes h0
    _ = m ((c : Thread nD τ).loc r) := rfl

/-- THE TAIL: the result buffer holds the reference's tail function of the propagation call's result, with the scale
    and shift vectors as launched. -/
theorem tail_read (c : Dev nD) :
    B8 m ρ c main_v27
      = tailR (m ((c : Thread nD τ).loc main_arg3)) (m ((c : Thread nD τ).loc main_arg4)) (U4 m ρ c main_v7) := by
  have h3 : B4 m ρ c main_arg3 = m ((c : Thread nD τ).loc main_arg3) :=
    B4_keep m ρ c main_arg3 (by decide) (by decide) (by decide) (B2_of_ne m ρ c main_arg3 (by decide))
  have h4 : B4 m ρ c main_arg4 = m ((c : Thread nD τ).loc main_arg4) :=
    B4_keep m ρ c main_arg4 (by decide) (by decide) (by decide) (B2_of_ne m ρ c main_arg4 (by decide))
  refine (tail_of (B4 m ρ c)).trans ?_
  rw [h3, h4]

/-- `Y`: the degree column the first call leaves, laid out over the features, times the dense layer. -/
theorem y_read (c : Dev nD) :
    (U3 m ρ c main_v6 : FVec Ideal S12288x64 .f32)
      = mulf (F := Ideal) (φ := .f32)
          (broadcastInDim S12288x64 ![0, 1] bcast_S12288x1_S12288x64_0_1 (U2 m ρ c main_v4 : FVec Ideal S12288x1 .f32))
          (U1 m ρ c main_v3 : FVec Ideal S12288x64 .f32) :=
  (y_of (B2 m ρ c)).trans
    (congrArg
      (mulf (F := Ideal) (φ := .f32)
        (broadcastInDim S12288x64 ![0, 1] bcast_S12288x1_S12288x64_0_1 (U2 m ρ c main_v4 : FVec Ideal S12288x1 .f32)))
      (B2_of_ne m ρ c main_v3 (by decide)))

/-- The dense layer of the launch contents. -/
theorem x_read (c : Dev nD) :
    (U1 m ρ c main_v3 : FVec Ideal S12288x64 .f32)
      = addf (F := Ideal) (φ := .f32)
          (Host.dotGeneral (F := Ideal) (φ₁ := .f32) (φ₂ := .f32) dot_S12288x64_S64x64_S12288x64_1_0_0_1_n_n none
            (m ((c : Thread nD τ).loc main_arg0) : FVec Ideal S12288x64 .f32)
            (m ((c : Thread nD τ).loc main_arg1) : FVec Ideal S64x64 .f32))
          (broadcastInDim S12288x64 ![0, 1] bcast_S1x64_S12288x64_0_1
            (broadcastInDim S1x64 ![1] bcast_S64_S1x64_1 (m ((c : Thread nD τ).loc main_arg2) : FVec Ideal S64 .f32))) :=
  x_of (B0 m ρ c)

/-! ## The reads that stay -/

/-- The adjacency matrix as the dense layer's stretch leaves it: as launched. -/
theorem U1_main_arg5 (c : Dev nD) : U1 m ρ c main_arg5 = m ((c : Thread nD τ).loc main_arg5) :=
  StableHlo.after_of_writes_sub hostOps0 _ hostOps0_writes (by decide)

/-- The adjacency matrix when the propagation call starts: as launched (the degree call reads it only). -/
theorem U3_main_arg5 (c : Dev nD) : U3 m ρ c main_arg5 = m ((c : Thread nD τ).loc main_arg5) :=
  calc U3 m ρ c main_arg5
    _ = B2 m ρ c main_arg5 := StableHlo.after_of_writes_sub hostOps1 _ hostOps1_writes (by decide)
    _ = B1 m ρ c main_arg5 :=
        (B2_arr m ρ c 0).trans (((dat0 (U1 m ρ) c).arrAt_in 0 rfl _).trans (A_eq0 (U1 m ρ) c 0))
    _ = m ((c : Thread nD τ).loc main_arg5) := U1_main_arg5 m ρ c

/-- The degree column when the propagation call starts: what the degree call left. -/
theorem U3_main_v4 (c : Dev nD) : U3 m ρ c main_v4 = U2 m ρ c main_v4 :=
  StableHlo.after_of_writes_sub hostOps1 _ hostOps1_writes (by decide)

/-- The degree column the degree call leaves: its result window's array at the end of the call. -/
theorem U2_main_v4 (c : Dev nD) : U2 m ρ c main_v4 = (dat0 (U1 m ρ) c).arrAt 1 cfg0.N :=
  B2_arr m ρ c 1

end Cert.KernelIdeal.Rgn

end
-- ==== Proof.KernelArraysIdeal.lean ====
import proofs.«141531_j54073638257182_2_alg».proof.KernelIdeal
import Idealize.ShloMosaic.PureOps.Ideal
import Idealize.ShloMosaic.Lib.ValueIdx

/-!
# The two calls' output arrays as whole-array functions, at the ideal instance

`G0 A`: the degree column, `rsqrt (row sum of A, plus one)` at every row.
`G1 A Y d`: the propagation, `d p · (∑ⱼ A p j · Y j e + Y p e)` at every entry.
-/

noncomputable section

namespace Cert.KernelIdeal.Rgn

open Cert.KernelIdeal Idealize.ShloMosaic

/-- The degree column as a function of the adjacency matrix. -/
def G0 (A : S12288x12288.Idx → EReal) : S12288x1.Idx → EReal :=
  fun i => Ideal.rsqrt ((∑ j : Fin 12288, A (ValueIdx.ix2 (i 0) j)) + 1)

/-- The propagation's result as a function of the matrix, of `Y` and of the degree column. -/
def G1 (A : S12288x12288.Idx → EReal) (Y : S12288x64.Idx → EReal) (d : S12288x1.Idx → EReal) : S12288x64.Idx → EReal :=
  fun i => d (ValueIdx.ix2 (i 0) 0) * ((∑ j : Fin 12288, A (ValueIdx.ix2 (i 0) j) * Y (ValueIdx.ix2 j (i 1))) + Y i)

end Cert.KernelIdeal.Rgn

end
-- ==== Proof.Spec.lean ====
import Idealize.ShloMosaic.PureOps.Ideal
import Idealize.ShloMosaic.Lib.ValueIdx
import Mathlib.Algebra.BigOperators.Fin

/-!
# One graph-convolution layer, as functions of the argument arrays

Nodes `p, j : Fin 12288`, features `k, e : Fin 64`, everything an extended real.

* `lin`: the dense layer `H·W + b`.
* `deg`: the normalising degree `rsqrt (row sum of A, plus one)` — the row sum of `A + I`.
* `propK`: the propagation as the two passes over `A` compute it,
  `deg p · (∑ⱼ A p j · (deg j · lin j e) + deg p · lin p e)`.
* `propR`: the propagation through the normalised matrix,
  `∑ⱼ ((degR p · (A + I) p j) · degR j) · lin j e`.

The two agree when every entry is a real number and every row sum of `A + I` is positive: then every degree is a
positive real and the sums distribute. With a zero or negative row sum a degree is infinite and they do not.
-/

noncomputable section

namespace Cert.Spec

open Idealize.ShloMosaic

variable (H : Fin 12288 → Fin 64 → EReal) (W : Fin 64 → Fin 64 → EReal) (b : Fin 64 → EReal)
variable (A : Fin 12288 → Fin 12288 → EReal)

/-- The dense layer at node `p`, feature `e`. -/
def lin (p : Fin 12288) (e : Fin 64) : EReal := (∑ k : Fin 64, H p k * W k e) + b e

/-- The sum of row `p` of the adjacency matrix. -/
def rowsum (p : Fin 12288) : EReal := ∑ j : Fin 12288, A p j

/-- The degree the two passes use: `rsqrt (row sum + 1)`. -/
def deg (p : Fin 12288) : EReal := Ideal.rsqrt (rowsum A p + 1)

/-- The propagation as the two passes compute it. -/
def propK (p : Fin 12288) (e : Fin 64) : EReal :=
  deg A p * ((∑ j : Fin 12288, A p j * (deg A j * lin H W b j e)) + deg A p * lin H W b p e)

/-- `A + I`: one added on the diagonal. -/
def adjI (p j : Fin 12288) : EReal := A p j + (if p = j then (1 : EReal) else 0)

/-- The degree through `A + I`: `rsqrt` of its row sum. -/
def degR (p : Fin 12288) : EReal := Ideal.rsqrt (∑ j : Fin 12288, adjI A p j)

/-- The propagation through the normalised matrix `D^(-1/2) (A + I) D^(-1/2)`. -/
def propR (p : Fin 12288) (e : Fin 64) : EReal :=
  ∑ j : Fin 12288, ((degR A p * adjI A p j) * degR A j) * lin H W b j e

/-- A matrix array read at its two coordinates; a vector array read at its coordinate; a function of two coordinates
    as a matrix array. -/
def mat {m n : ℕ} (X : (⟨2, ![m, n]⟩ : Shape).Idx → EReal) (p : Fin m) (q : Fin n) : EReal := X (ValueIdx.ix2 p q)
def vec {n : ℕ} (x : (⟨1, ![n]⟩ : Shape).Idx → EReal) (q : Fin n) : EReal := x (ValueIdx.ix1 q)
def arr2 {m n : ℕ} (f : Fin m → Fin n → EReal) : (⟨2, ![m, n]⟩ : Shape).Idx → EReal := fun i => f (i 0) (i 1)

/-- Every entry a real number. -/
def Real2 {m n : ℕ} (X : Fin m → Fin n → EReal) : Prop := ∀ p q, ∃ r : ℝ, X p q = (r : EReal)
def Real1 {n : ℕ} (x : Fin n → EReal) : Prop := ∀ q, ∃ r : ℝ, x q = (r : EReal)

/-- Every row sum of `A + I` positive. -/
def RowsPositive : Prop := ∀ p, (0 : EReal) < rowsum A p + 1

end Cert.Spec

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.LibGatherScale.lean ====
/-
  A ROW GATHER COMMUTES WITH A PER-ROW SCALE, for every size of the arrays.

  An operand `x : [N, C]`, a column of per-row factors `n : [N, 1]` and a column of start words `idx : [M, 1]`.
  The host's row gather (result row `e` is operand row `idx[e, 0]`, the word read signed and clamped into
  `[0, N − 1]`) reads ONE operand row per result row, the same row whatever the operand's width. So gathering the
  rows of `x` scaled row by row,
      (x · n)[idx],
  is gathering the rows of `x` and the entries of `n` separately and multiplying afterwards,
      x[idx] · n[idx]
  (`gather_scaled_rows`): entry `(e, f)` of either is `x (r, f) · n (r, 0)` at the one clamped row `r` of `e`.
  Scaling twice before the gather is scaling once afterwards by the square of the gathered factor
  (`gather_twice_scaled_rows`): `(x (r, f) · n (r, 0)) · n (r, 0) = x (r, f) · (n (r, 0) · n (r, 0))`, associativity of the
  product of extended reals, which holds at the infinities too; no entry has to be finite.

  The per-row factor is laid out over the columns by a broadcast along axis 1 (`colBroadcast_apply`).
-/
import Idealize.ShloMosaic.PureOps.Ideal
import Idealize.ShloMosaic.Lib.ValueIdx
import Idealize.ShloMosaic.Lib.Pipeline.Value
import proofs.«141531_j54073638257182_2_alg».proof.Proof.LibScatterGather

noncomputable section

namespace Cert.Lib.GatherScale

open Idealize.ShloMosaic Idealize.ShloMosaic.ValueIdx Cert.Lib.ScatterGather

/-- A column `[A, 1]` laid out over `B` columns (a broadcast that keeps both axes in place), read at `(p, q)`: the
    column's entry of row `p`. -/
theorem colBroadcast_apply {α : Type} {A B : Nat}
    (h : (⟨2, ![A, 1]⟩ : Shape).BroadcastsInDim ⟨2, ![A, B]⟩ (![0, 1] : Fin 2 → Fin 2))
    (n : (⟨2, ![A, 1]⟩ : Shape).Idx → α) (p : Fin A) (q : Fin B) :
    broadcastInDim ⟨2, ![A, B]⟩ ![0, 1] h n (ix2 p q) = n (ix2 p (0 : Fin 1)) := by
  refine broadcastInDim_apply _ h n (ix2 p q) (ix2 p (0 : Fin 1)) (fun a => ?_)
  match a with
  | ⟨0, _⟩ =>
    show p.val = if A = 1 then 0 else p.val
    split
    · have := p.isLt; omega
    · rfl
  | ⟨1, _⟩ =>
    show 0 = if (1 : Nat) = 1 then 0 else q.val
    rw [if_pos rfl]

section
variable {N M C w : Nat} {φ : FTy}
  (wfC : GatherDims.WF ⟨2, ![N, C]⟩ ⟨2, ![M, 1]⟩ ⟨2, ![M, C]⟩ [1] [0] [] [0] [] 1 ![1, C])
  (wf1 : GatherDims.WF ⟨2, ![N, 1]⟩ ⟨2, ![M, 1]⟩ ⟨2, ![M, 1]⟩ [1] [0] [] [0] [] 1 ![1, 1])
  (hbM : (⟨2, ![M, 1]⟩ : Shape).BroadcastsInDim ⟨2, ![M, C]⟩ (![0, 1] : Fin 2 → Fin 2))

/-- GATHERING SCALED ROWS: the rows of `x · n` named by `idx` are the rows of `x` named by `idx`, each times the
    entry of `n` named by the same start word. -/
theorem gather_scaled_rows (hN : 0 < N)
    (hbN : (⟨2, ![N, 1]⟩ : Shape).BroadcastsInDim ⟨2, ![N, C]⟩ (![0, 1] : Fin 2 → Fin 2))
    (x : FVec Ideal ⟨2, ![N, C]⟩ φ) (n : FVec Ideal ⟨2, ![N, 1]⟩ φ) (idx : IVec ⟨2, ![M, 1]⟩ w) :
    Host.gather (rowGatherDims N M C wfC) (mulf x (broadcastInDim ⟨2, ![N, C]⟩ ![0, 1] hbN n)) idx
      = mulf (Host.gather (rowGatherDims N M C wfC) x idx)
          (broadcastInDim ⟨2, ![M, C]⟩ ![0, 1] hbM (Host.gather (rowGatherDims N M 1 wf1) n idx)) := by
  funext j
  obtain ⟨e, f, rfl⟩ : ∃ (e : Fin M) (f : Fin C), j = ix2 e f := ⟨j 0, j 1, eq_ix2 j⟩
  rw [gather_rows_apply hN wfC, mulf_apply, mulf_apply, colBroadcast_apply, colBroadcast_apply,
    gather_rows_apply hN wfC, gather_rows_apply hN wf1]

/-- GATHERING ROWS SCALED TWICE: the rows of `(x · n) · n` named by `idx` are the rows of `x` named by `idx`, each
    times the square of the entry of `n` named by the same start word (the product of extended reals is associative). -/
theorem gather_twice_scaled_rows (hN : 0 < N)
    (hbN hbN' : (⟨2, ![N, 1]⟩ : Shape).BroadcastsInDim ⟨2, ![N, C]⟩ (![0, 1] : Fin 2 → Fin 2))
    (x : FVec Ideal ⟨2, ![N, C]⟩ φ) (n : FVec Ideal ⟨2, ![N, 1]⟩ φ) (idx : IVec ⟨2, ![M, 1]⟩ w) :
    Host.gather (rowGatherDims N M C wfC)
        (mulf (mulf x (broadcastInDim ⟨2, ![N, C]⟩ ![0, 1] hbN n)) (broadcastInDim ⟨2, ![N, C]⟩ ![0, 1] hbN' n)) idx
      = mulf (Host.gather (rowGatherDims N M C wfC) x idx)
          (broadcastInDim ⟨2, ![M, C]⟩ ![0, 1] hbM
            (mulf (Host.gather (rowGatherDims N M 1 wf1) n idx) (Host.gather (rowGatherDims N M 1 wf1) n idx))) := by
  funext j
  obtain ⟨e, f, rfl⟩ : ∃ (e : Fin M) (f : Fin C), j = ix2 e f := ⟨j 0, j 1, eq_ix2 j⟩
  rw [gather_rows_apply hN wfC, mulf_apply, mulf_apply, mulf_apply, colBroadcast_apply, colBroadcast_apply,
    mulf_apply, gather_rows_apply hN wfC, gather_rows_apply hN wf1]
  exact mul_assoc _ _ _

end

end Cert.Lib.GatherScale

end
-- ==== Proof.KernelRead.lean ====
import proofs.«141531_j54073638257182_2_alg».proof.Proof.Gen.KernelIdeal.Skeleton
import proofs.«141531_j54073638257182_2_alg».proof.Proof.Gen.KernelIdeal.Launch
import proofs.«141531_j54073638257182_2_alg».proof.Proof.Spec
import proofs.«141531_j54073638257182_2_alg».proof.Proof.LibDotSum
import proofs.«141531_j54073638257182_2_alg».proof.Proof.LibOuterSum
import proofs.«141531_j54073638257182_2_alg».proof.Proof.LibGatherScale
import Idealize.ShloMosaic.PureOps.Ideal.Laws
import Idealize.ShloMosaic.Lib.ValueIdx
import Idealize.ShloMosaic.Lib.Pipeline.Value
import Idealize.ShloMosaic.Lib.ValueLayout

/-!
# The kernel's two payloads and its host operations, read at an index

At the extended reals:

* the first payload at `(r, u)` is `rsqrt` of the sum of row `r` of its block, plus one: the sum over the second
  axis from the zero word, laid out as a column, plus the constant one;
* the second payload at `(r, e)` is the degree of row `r` times (the sum over `j` of `A (r, j) · Y (j, e)`, plus
  `Y`'s own strip at `(r, e)`): a matrix product accumulated into zero, an addition, and a column laid out over the
  64 features;
* the dense layer at `(p, e)` is `∑ₖ H (p, k) · W (k, e) + b e`: a contraction over the shared axis and a bias row
  repeated over the nodes;
* the scaling at `(p, e)` is `d (p, 0) · x (p, e)`: a column laid out over the features, times `x`.
-/

noncomputable section

namespace Cert.KernelIdeal.Read

open Idealize.ShloMosaic Idealize.ShloMosaic.ValueIdx Cert.KernelIdeal
open Cert.KernelIdeal.Facts₀ Cert.KernelIdeal.Facts

variable [Cert.KernelIdeal.Facts₀] [Cert.KernelIdeal.Facts]

/-- The first payload at `(r, u)`: `rsqrt (row sum + 1)`. -/
theorem pay0_apply (x0 : Vec Ideal S512x12288 .f32) (r : Fin 512) (u : Fin 1) :
    Cert.KernelIdeal.Gen.k0_pay1 (F := Ideal) x0 (ix2 r u) = Ideal.rsqrt ((∑ j : Fin 12288, x0 (ix2 r j)) + 1) := by
  have e1 : shapeCast S512x1
        (multiReduction (F := Ideal) .add [1] S512 x0 0x00000000#32 reduces_S512x12288_S512 (.inl rfl) rfl)
        shapeCasts_S512_S512x1 (ix2 r u)
      = ∑ j : Fin 12288, x0 (ix2 r j) := by
    refine (Cert.LibOuterSum.col_of_vec_apply _ shapeCasts_S512_S512x1 r u).trans ?_
    refine (Ideal.multiReduction_add_single x0 0x00000000#32 reduces_S512x12288_S512 (.inl rfl) rfl (ix1 r)).trans ?_
    refine Finset.sum_congr rfl fun k _ => congrArg x0 ?_
    funext d
    apply Fin.ext
    match d with
    | ⟨0, _⟩ => rfl
    | ⟨1, _⟩ => rfl
  show Ideal.rsqrt (shapeCast S512x1
        (multiReduction (F := Ideal) .add [1] S512 x0 0x00000000#32 reduces_S512x12288_S512 (.inl rfl) rfl)
        shapeCasts_S512_S512x1 (ix2 r u) + Ideal.ofBits .f32 0x3F800000#32)
      = Ideal.rsqrt ((∑ j : Fin 12288, x0 (ix2 r j)) + 1)
  rw [e1, Cert.LibDotSum.one_f32]

/-- The second payload at `(r, e)`: the degree of row `r` times (the product's entry plus the strip's entry). -/
theorem pay1_apply (x0 : Vec Ideal S512x12288 .f32) (x1 : Vec Ideal S12288x64 .f32) (xd : Vec Ideal S512x1 .f32)
    (xy : Vec Ideal S512x64 .f32) (r : Fin 512) (e : Fin 64) :
    Cert.KernelIdeal.Gen.k1_pay1 (F := Ideal) x0 x1 xd xy (ix2 r e)
      = xd (ix2 r 0) * ((∑ j : Fin 12288, x0 (ix2 r j) * x1 (ix2 j e)) + xy (ix2 r e)) := by
  show broadcastTo S512x64 (shapeCast S512x1 xd shapeCasts_S512x1_S512x1) broadcasts_S512x1_S512x64 (ix2 r e)
      * (matmul (F := Ideal) dot_S512x12288_S12288x64_S512x64_1_0_0_1_n_n (some .fp32) x0
            (shapeCast S12288x64 x1 shapeCasts_S12288x64_S12288x64)
            (constant (F := Ideal) S512x64 .f32 0x00000000#32) (ix2 r e)
          + shapeCast S512x64 xy shapeCasts_S512x64_S512x64 (ix2 r e))
      = xd (ix2 r 0) * ((∑ j : Fin 12288, x0 (ix2 r j) * x1 (ix2 j e)) + xy (ix2 r e))
  have hm : matmul (F := Ideal) (φ₁ := .f32) (φ₂ := .f32) dot_S512x12288_S12288x64_S512x64_1_0_0_1_n_n (some .fp32) x0 x1
        (constant (F := Ideal) S512x64 .f32 0x00000000#32) (ix2 r e)
      = ∑ j : Fin 12288, x0 (ix2 r j) * x1 (ix2 j e) :=
    (Ideal.matmul_constant_zero_apply (φ₁ := .f32) (φ₂ := .f32) dot_S512x12288_S12288x64_S512x64_1_0_0_1_n_n (some .fp32)
      x0 x1 (ix2 r e)).trans
      (Cert.LibDotSum.sum_dot dot_S512x12288_S12288x64_S512x64_1_0_0_1_n_n rfl rfl (fun _ _ => rfl) (fun _ _ => rfl)
        (fun _ _ => rfl) (fun _ _ => rfl) x0 x1 r e)
  rw [shapeCast_self xd, shapeCast_self x1, shapeCast_self xy,
    Cert.LibOuterSum.bcast_col_apply xd broadcasts_S512x1_S512x64 r e, hm]
  rfl

/-- The dense layer at `(p, e)`. -/
theorem lin_apply (h : FVec Ideal S12288x64 .f32) (w : FVec Ideal S64x64 .f32) (b : FVec Ideal S64 .f32)
    (p : Fin 12288) (e : Fin 64) :
    addf (Host.dotGeneral (F := Ideal) dot_S12288x64_S64x64_S12288x64_1_0_0_1_n_n none h w)
        (broadcastInDim S12288x64 ![0, 1] bcast_S1x64_S12288x64_0_1 (broadcastInDim S1x64 ![1] bcast_S64_S1x64_1 b))
        (ix2 p e)
      = Cert.Spec.lin (Cert.Spec.mat h) (Cert.Spec.mat w) (Cert.Spec.vec b) p e := by
  show Host.dotGeneral (F := Ideal) dot_S12288x64_S64x64_S12288x64_1_0_0_1_n_n none h w (ix2 p e)
      + broadcastInDim S12288x64 ![0, 1] bcast_S1x64_S12288x64_0_1 (broadcastInDim S1x64 ![1] bcast_S64_S1x64_1 b)
          (ix2 p e)
      = (∑ k : Fin 64, h (ix2 p k) * w (ix2 k e)) + b (ix1 e)
  rw [Cert.LibDotSum.bias_apply b bcast_S64_S1x64_1 bcast_S1x64_S12288x64_0_1 p e]
  refine congrArg (· + b (ix1 e)) ?_
  refine (Ideal.dotGeneral_apply dot_S12288x64_S64x64_S12288x64_1_0_0_1_n_n none _ h w (ix2 p e)).trans ?_
  exact Cert.LibDotSum.sum_dot dot_S12288x64_S64x64_S12288x64_1_0_0_1_n_n rfl rfl (fun _ _ => rfl) (fun _ _ => rfl)
    (fun _ _ => rfl) (fun _ _ => rfl) h w p e

/-- The scaling by a degree column at `(p, e)`. -/
theorem y_apply (d : FVec Ideal S12288x1 .f32) (x : FVec Ideal S12288x64 .f32) (p : Fin 12288) (e : Fin 64) :
    mulf (broadcastInDim S12288x64 ![0, 1] bcast_S12288x1_S12288x64_0_1 d) x (ix2 p e)
      = d (ix2 p 0) * x (ix2 p e) := by
  show broadcastInDim S12288x64 ![0, 1] bcast_S12288x1_S12288x64_0_1 d (ix2 p e) * x (ix2 p e)
      = d (ix2 p 0) * x (ix2 p e)
  rw [Cert.Lib.GatherScale.colBroadcast_apply bcast_S12288x1_S12288x64_0_1 d p e]

end Cert.KernelIdeal.Read

end
-- ==== Proof.KernelBlocks0Ideal.lean ====
import proofs.«141531_j54073638257182_2_alg».proof.Proof.DegreeRegionIdeal
import proofs.«141531_j54073638257182_2_alg».proof.Proof.KernelArraysIdeal
import proofs.«141531_j54073638257182_2_alg».proof.Proof.KernelRead
import Idealize.ShloMosaic.Lib.Pipeline.Value
import Idealize.ShloMosaic.Lib.ValueIdx

/-!
# From blocks to the array: the degree call's result column as a function of the matrix

The call runs over 24 strips of 512 rows. At strip `t` the result block is the payload of the matrix's strip, every
result block is written back, and the 24 result blocks tile the column; so the column ends holding, at row `p`,
`rsqrt (∑ⱼ A (p, j) + 1)` (`G0`, `final0`).

A block's coordinate in its array is always the block index times the block size plus the coordinate inside the
block; the block indices are decided once over the grid (`idx_facts0`).
-/

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The block indices of the degree call, decided over the grid: strip `t` of the matrix, strip `t` of the column. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `G0` of the matrix as the call finds it. -/
theorem flushed0_eq (c : Dev nD) (t : Fin cfg0.N) :
    (dat0 V c).flushed 1 t = ((cfg0.win 1).blk t).view.read (Elt Ideal) (G0 (V c main_arg5)) := by
  show (cfg0.win 1).cut (grid0.coords t) ((dat0 V c).after 1 t) = _
  rw [after0_1]
  unfold out0_1
  rw [View.canon_unit_zero hz0]
  simp only [View.ld_unit_zero (S := S512x12288) hz0]
  obtain ⟨e0, e1, e2, e3⟩ := idx_facts0 t
  refine funext fun (y : S512x1.Idx) => ?_
  obtain ⟨r, u, rfl⟩ : ∃ (r : Fin 512) (u : Fin 1), y = ix2 r u := ⟨y 0, y 1, eq_ix2 y⟩
  refine (Cert.KernelIdeal.Read.pay0_apply _ r u).trans ?_
  rw [View.read_apply]
  unfold G0
  refine congrArg (fun s : EReal => Ideal.rsqrt (s + 1)) (Finset.sum_congr rfl fun j _ => ?_)
  show V c main_arg5 (((cfg0.win 0).blk t).view.emb (ix2 r j))
    = V c main_arg5 (ix2 ((((cfg0.win 1).blk t).view.emb (ix2 r u)) 0) j)
  refine congrArg (V c main_arg5) ?_
  funext a
  apply Fin.ext
  match a with
  | ⟨0, _⟩ =>
    show win0_0.index t (0 : Fin 2) * 512 + 1 * r.val = win0_1.index t (0 : Fin 2) * 512 + 1 * r.val
    omega
  | ⟨1, _⟩ =>
    show win0_0.index t (1 : Fin 2) * 12288 + 1 * j.val = j.val
    omega

/-- An index of the column is in point `t`'s block iff each coordinate is in the block's range on its axis. -/
theorem mem_blk0 (t : Fin cfg0.N) (i : S12288x1.Idx) :
    i ∈ ((cfg0.win 1).blk t).view.set ↔ ∀ a : Fin 2, win0_1.index t a * S512x1.size a ≤ (i a).val
      ∧ (i a).val < win0_1.index t a * S512x1.size a + S512x1.size a := by
  show i ∈ ((View.whole main_v4).slice (win0_1.rect t)).set ↔ _
  rw [View.set_slice_whole, Rect.mem_set_unit]
  exact Iff.rfl

/-- The 24 blocks tile the column: row `p` is in the block of point `p / 512`. -/
theorem cover0 (i : S12288x1.Idx) :
    ∃ t : Fin cfg0.N, (cfg0.win 1).flush t = true ∧ i ∈ ((cfg0.win 1).blk t).view.set := by
  have hi0 : (i 0).val < 12288 := (i 0).isLt
  have hi1 : (i 1).val < 1 := (i 1).isLt
  have ht : (i 0).val / 512 < cfg0.N := by show _ < 24; omega
  obtain ⟨e0, e1, e2, e3⟩ := idx_facts0 ⟨(i 0).val / 512, ht⟩
  refine ⟨⟨(i 0).val / 512, ht⟩, flush0_1 _, ?_⟩
  rw [mem_blk0]
  intro a
  match a with
  | ⟨0, _⟩ =>
    show win0_1.index ⟨(i 0).val / 512, ht⟩ (0 : Fin 2) * 512 ≤ (i 0).val
      ∧ (i 0).val < win0_1.index ⟨(i 0).val / 512, ht⟩ (0 : Fin 2) * 512 + 512
    rw [e2]; show (i 0).val / 512 * 512 ≤ (i 0).val ∧ (i 0).val < (i 0).val / 512 * 512 + 512
    omega
  | ⟨1, _⟩ =>
    show win0_1.index ⟨(i 0).val / 512, ht⟩ (1 : Fin 2) * 1 ≤ (i 1).val
      ∧ (i 1).val < win0_1.index ⟨(i 0).val / 512, ht⟩ (1 : Fin 2) * 1 + 1
    rw [e3]; omega

/-- THE DEGREE COLUMN after the call: `G0` of the matrix. -/
theorem final0 (c : Dev nD) : (dat0 (F := Ideal) V c).arrAt 1 cfg0.N = G0 (V c main_arg5) :=
  (dat0 V c).arrAt_eq_of_cover 1 (G0 (V c main_arg5)) (fun t _ => flushed0_eq V c t) cover0

end Cert.KernelIdeal.Rgn

end
-- ==== Proof.KernelBlocks1Ideal.lean ====
import proofs.«141531_j54073638257182_2_alg».proof.Proof.PropRegionIdeal
import proofs.«141531_j54073638257182_2_alg».proof.Proof.KernelArraysIdeal
import proofs.«141531_j54073638257182_2_alg».proof.Proof.KernelRead
import Idealize.ShloMosaic.Lib.Pipeline.Value
import Idealize.ShloMosaic.Lib.ValueIdx

/-!
# From blocks to the array: the propagation call's result array as a function of the arrays it reads

The call runs over 24 strips of 512 rows. At strip `t` the result block is the payload of the four input blocks — the
strip of the matrix, all of `Y`, the strip of `Y`, the strip of the degree column —, every result block is written back,
and the 24 result blocks tile the result array. So the array ends holding one function of the input arrays: at `(p, e)`,
`d (p, 0) · (∑ⱼ A (p, j) · Y (j, e) + Y (p, e))`.

A block's coordinate in its array is always the block index times the block size plus the coordinate inside the
block; the block indices are decided once over the grid.
-/

set_option maxRecDepth 16384

noncomputable section

namespace Cert.KernelIdeal.Rgn

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

-- the TensorCore's buffer contents when the region is entered
variable (V : (c : Dev nD) → (b : Ref sig .tc) → Buf (Elt Ideal) ((c : Thread nD τ).loc b))

/-- The origin of a rank-two array, coordinate by coordinate. -/
theorem hz_prop : (![0, 0] : Fin 2 → Nat) = fun _ => 0 := funext fun a => by fin_cases a <;> rfl

/-- The arrays the call reads, as it finds them, each at its literal type: the matrix, `Y`, the degree column. -/
abbrev prop_arrA (c : Dev nD) : S12288x12288.Idx → EReal := V c main_arg5
abbrev prop_arrY (c : Dev nD) : S12288x64.Idx → EReal := V c main_v6
abbrev prop_arrD (c : Dev nD) : S12288x1.Idx → EReal := V c main_v4

/-- The block indices of the propagation call, decided over the grid: strip `t` of the matrix, of `Y`, of the degree
    column and of the result; the one block of `Y` whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `G1` of the arrays as the call finds them. -/
theorem flushed1_eq (c : Dev nD) (t : Fin cfg1.N) :
    (dat1 V c).flushed 4 t
      = ((cfg1.win 4).blk t).view.read (Elt Ideal) (G1 (V c main_arg5) (V c main_v6) (V c main_v4)) := by
  show (cfg1.win 4).cut (grid1.coords t) ((dat1 V c).after 4 t) = _
  rw [after1_4]
  unfold out1_4
  rw [View.canon_unit_zero hz_prop]
  simp only [View.ld_unit_zero (S := S512x12288) hz_prop, View.ld_unit_zero (S := S12288x64) hz_prop,
    View.ld_unit_zero (S := S512x1) hz_prop, View.ld_unit_zero (S := S512x64) hz_prop]
  obtain ⟨a0, a1, y0, y1, s0, s1, d0, d1, o0, o1⟩ := idx_facts1 t
  refine funext fun (y : S512x64.Idx) => ?_
  obtain ⟨r, e, rfl⟩ : ∃ (r : Fin 512) (e : Fin 64), y = ix2 r e := ⟨y 0, y 1, eq_ix2 y⟩
  refine (Cert.KernelIdeal.Read.pay1_apply _ _ _ _ r e).trans ?_
  show prop_arrD V c (((cfg1.win 3).blk t).view.emb (ix2 r (0 : Fin 1)))
      * ((∑ j : Fin 12288, prop_arrA V c (((cfg1.win 0).blk t).view.emb (ix2 r j))
            * prop_arrY V c (((cfg1.win 1).blk t).view.emb (ix2 j e)))
          + prop_arrY V c (((cfg1.win 2).blk t).view.emb (ix2 r e)))
    = prop_arrD V c (ix2 ((((cfg1.win 4).blk t).view.emb (ix2 r e)) 0) (0 : Fin 1))
      * ((∑ j : Fin 12288, prop_arrA V c (ix2 ((((cfg1.win 4).blk t).view.emb (ix2 r e)) 0) j)
            * prop_arrY V c (ix2 j ((((cfg1.win 4).blk t).view.emb (ix2 r e)) 1)))
          + prop_arrY V c (((cfg1.win 4).blk t).view.emb (ix2 r e)))
  have hd : ((cfg1.win 3).blk t).view.emb (ix2 r (0 : Fin 1))
      = ix2 ((((cfg1.win 4).blk t).view.emb (ix2 r e)) 0) (0 : Fin 1) := by
    funext a; apply Fin.ext
    match a with
    | ⟨0, _⟩ =>
      show win1_3.index t (0 : Fin 2) * 512 + 1 * r.val = win1_4.index t (0 : Fin 2) * 512 + 1 * r.val
      omega
    | ⟨1, _⟩ =>
      show win1_3.index t (1 : Fin 2) * 1 + 1 * 0 = 0
      omega
  have hA : ∀ j : Fin 12288, ((cfg1.win 0).blk t).view.emb (ix2 r j)
      = ix2 ((((cfg1.win 4).blk t).view.emb (ix2 r e)) 0) j := fun j => by
    funext a; apply Fin.ext
    match a with
    | ⟨0, _⟩ =>
      show win1_0.index t (0 : Fin 2) * 512 + 1 * r.val = win1_4.index t (0 : Fin 2) * 512 + 1 * r.val
      omega
    | ⟨1, _⟩ =>
      show win1_0.index t (1 : Fin 2) * 12288 + 1 * j.val = j.val
      omega
  have hY : ∀ j : Fin 12288, ((cfg1.win 1).blk t).view.emb (ix2 j e)
      = ix2 j ((((cfg1.win 4).blk t).view.emb (ix2 r e)) 1) := fun j => by
    funext a; apply Fin.ext
    match a with
    | ⟨0, _⟩ =>
      show win1_1.index t (0 : Fin 2) * 12288 + 1 * j.val = j.val
      omega
    | ⟨1, _⟩ =>
      show win1_1.index t (1 : Fin 2) * 64 + 1 * e.val = win1_4.index t (1 : Fin 2) * 64 + 1 * e.val
      omega
  have hS : ((cfg1.win 2).blk t).view.emb (ix2 r e) = ((cfg1.win 4).blk t).view.emb (ix2 r e) := by
    funext a; apply Fin.ext
    match a with
    | ⟨0, _⟩ =>
      show win1_2.index t (0 : Fin 2) * 512 + 1 * r.val = win1_4.index t (0 : Fin 2) * 512 + 1 * r.val
      omega
    | ⟨1, _⟩ =>
      show win1_2.index t (1 : Fin 2) * 64 + 1 * e.val = win1_4.index t (1 : Fin 2) * 64 + 1 * e.val
      omega
  rw [hd, hS]
  refine congrArg (fun s => _ * (s + _)) (Finset.sum_congr rfl fun j _ => ?_)
  rw [hA j, hY j]
  rfl

/-- An index of the result is in point `t`'s block iff each coordinate is in the block's range on its axis. -/
theorem mem_blk1 (t : Fin cfg1.N) (i : S12288x64.Idx) :
    i ∈ ((cfg1.win 4).blk t).view.set ↔ ∀ a : Fin 2, win1_4.index t a * S512x64.size a ≤ (i a).val
      ∧ (i a).val < win1_4.index t a * S512x64.size a + S512x64.size a := by
  show i ∈ ((View.whole main_v7).slice (win1_4.rect t)).set ↔ _
  rw [View.set_slice_whole, Rect.mem_set_unit]
  exact Iff.rfl

/-- The 24 blocks tile the result: row `p` is in the block of point `p / 512`. -/
theorem cover1 (i : S12288x64.Idx) :
    ∃ t : Fin cfg1.N, (cfg1.win 4).flush t = true ∧ i ∈ ((cfg1.win 4).blk t).view.set := by
  have hi0 : (i 0).val < 12288 := (i 0).isLt
  have hi1 : (i 1).val < 64 := (i 1).isLt
  have ht : (i 0).val / 512 < cfg1.N := by show _ < 24; omega
  obtain ⟨a0, a1, y0, y1, s0, s1, d0, d1, o0, o1⟩ := idx_facts1 ⟨(i 0).val / 512, ht⟩
  refine ⟨⟨(i 0).val / 512, ht⟩, flush1_4 _, ?_⟩
  rw [mem_blk1]
  intro a
  match a with
  | ⟨0, _⟩ =>
    show win1_4.index ⟨(i 0).val / 512, ht⟩ (0 : Fin 2) * 512 ≤ (i 0).val
      ∧ (i 0).val < win1_4.index ⟨(i 0).val / 512, ht⟩ (0 : Fin 2) * 512 + 512
    rw [o0]; show (i 0).val / 512 * 512 ≤ (i 0).val ∧ (i 0).val < (i 0).val / 512 * 512 + 512
    omega
  | ⟨1, _⟩ =>
    show win1_4.index ⟨(i 0).val / 512, ht⟩ (1 : Fin 2) * 64 ≤ (i 1).val
      ∧ (i 1).val < win1_4.index ⟨(i 0).val / 512, ht⟩ (1 : Fin 2) * 64 + 64
    rw [o1]; omega

/-- THE PROPAGATED ARRAY after the call: `G1` of the matrix, the scaled dense layer and the degree column. -/
theorem final1 (c : Dev nD) :
    (dat1 (F := Ideal) V c).arrAt 4 cfg1.N = G1 (V c main_arg5) (V c main_v6) (V c main_v4) :=
  (dat1 V c).arrAt_eq_of_cover 4 (G1 (V c main_arg5) (V c main_v6) (V c main_v4)) (fun t _ => flushed1_eq V c t) cover1

end Cert.KernelIdeal.Rgn

end
-- ==== Proof.KernelPointwiseIdeal.lean ====
import proofs.«141531_j54073638257182_2_alg».proof.Proof.KernelArraysIdeal
import proofs.«141531_j54073638257182_2_alg».proof.Proof.KernelRead
import proofs.«141531_j54073638257182_2_alg».proof.Proof.Spec

/-!
# The propagation call's array, fed the kernel's own inputs, is the two-pass formula

With `d` the degree column of `A`, `X = H·W + b` the dense layer and `Y = d · X` (row `j` of `X` scaled by `d j`),
`d p · (∑ⱼ A p j · Y j e + Y p e) = deg p · (∑ⱼ A p j · (deg j · lin j e) + deg p · lin p e)`: entry by entry the same
expression, once the scaled rows and the dense layer are read at an index.
-/

noncomputable section

namespace Cert.KernelIdeal.Rgn

open Cert.KernelIdeal Cert.KernelIdeal.Gen Idealize.ShloMosaic

/-- The propagation's array at an entry. -/
theorem G1_apply (A : S12288x12288.Idx → EReal) (Y : S12288x64.Idx → EReal) (d : S12288x1.Idx → EReal) (p : Fin 12288) (e : Fin 64) :
    G1 A Y d (ValueIdx.ix2 p e)
      = d (ValueIdx.ix2 p 0) * ((∑ j : Fin 12288, A (ValueIdx.ix2 p j) * Y (ValueIdx.ix2 j e)) + Y (ValueIdx.ix2 p e)) := rfl

/-- The degree column at a row. -/
theorem G0_apply (A : S12288x12288.Idx → EReal) (p : Fin 12288) (u : Fin 1) :
    G0 A (ValueIdx.ix2 p u) = Ideal.rsqrt ((∑ j : Fin 12288, A (ValueIdx.ix2 p j)) + 1) := rfl

/-- With the degree column, the scaled rows and the dense layer read at an index, the propagation's array is the
    two-pass formula. -/
theorem G1_of_reads (A : S12288x12288.Idx → EReal) (d : S12288x1.Idx → EReal) (X Y : S12288x64.Idx → EReal)
    (H : Fin 12288 → Fin 64 → EReal) (W : Fin 64 → Fin 64 → EReal) (b : Fin 64 → EReal)
    (hd : ∀ p : Fin 12288, d (ValueIdx.ix2 p 0) = Cert.Spec.deg (Cert.Spec.mat A) p)
    (hY : ∀ (j : Fin 12288) (e : Fin 64), Y (ValueIdx.ix2 j e) = d (ValueIdx.ix2 j 0) * X (ValueIdx.ix2 j e))
    (hX : ∀ (j : Fin 12288) (e : Fin 64), X (ValueIdx.ix2 j e) = Cert.Spec.lin H W b j e) :
    G1 A Y d = Cert.Spec.arr2 (Cert.Spec.propK H W b (Cert.Spec.mat A)) := by
  funext i
  obtain ⟨p, e, rfl⟩ : ∃ (p : Fin 12288) (e : Fin 64), i = ValueIdx.ix2 p e := ⟨i 0, i 1, ValueIdx.eq_ix2 i⟩
  rw [G1_apply]
  simp only [hY, hX, hd]
  rfl

theorem G1_spec (H : FVec Ideal S12288x64 .f32) (W : FVec Ideal S64x64 .f32) (b : FVec Ideal S64 .f32) (A : FVec Ideal S12288x12288 .f32) :
    G1 A (mulf (broadcastInDim S12288x64 ![0, 1] bcast_S12288x1_S12288x64_0_1 (G0 A))
            (addf (Host.dotGeneral (F := Ideal) dot_S12288x64_S64x64_S12288x64_1_0_0_1_n_n none H W)
              (broadcastInDim S12288x64 ![0, 1] bcast_S1x64_S12288x64_0_1 (broadcastInDim S1x64 ![1] bcast_S64_S1x64_1 b)))) (G0 A)
      = Cert.Spec.arr2 (Cert.Spec.propK (Cert.Spec.mat H) (Cert.Spec.mat W) (Cert.Spec.vec b) (Cert.Spec.mat A)) :=
  G1_of_reads A (G0 A) _ _ _ _ _ (fun _ => rfl) (fun j e => Cert.KernelIdeal.Read.y_apply _ _ j e)
    (fun j e => Cert.KernelIdeal.Read.lin_apply H W b j e)

end Cert.KernelIdeal.Rgn

end
-- ==== Proof.KernelValueIdeal.lean ====
import proofs.«141531_j54073638257182_2_alg».proof.Proof.KernelFoldIdeal
import proofs.«141531_j54073638257182_2_alg».proof.Proof.KernelBlocks0Ideal
import proofs.«141531_j54073638257182_2_alg».proof.Proof.KernelBlocks1Ideal
import proofs.«141531_j54073638257182_2_alg».proof.Proof.KernelPointwiseIdeal

/-!
# What the kernel program computes, as one function of its arguments

Read off the run's last fold: the result is the tail (batch normalisation and leaky rectifier, one function never opened)
of the propagation call's array; that array is the whole-array function `G1` of the adjacency matrix, of `Y = d · X` and
of the degree column `d`; `d` is the degree call's array `G0` of the matrix and `X` the dense layer of `H`, `W`, `b`;
and entry by entry this is `deg p · (∑ⱼ A p j · (deg j · lin j e) + deg p · lin p e)`.
-/

noncomputable section

namespace Cert.KernelIdeal.Rgn

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The degree column the propagation call reads is `G0` of the adjacency matrix as launched. -/
theorem degree_value (c : Dev nD) :
    (U2 (F := Ideal) m ρ c main_v4 : FVec Ideal S12288x1 .f32) = G0 (m ((c : Thread nD τ).loc main_arg5)) := by
  rw [U2_main_v4, final0, U1_main_arg5]

/-- The propagation call's array, as the run leaves it, is the two-pass formula of the arguments. -/
theorem prop_value (c : Dev nD) :
    (U4 (F := Ideal) m ρ c main_v7 : FVec Ideal S12288x64 .f32)
      = Cert.Spec.arr2 (Cert.Spec.propK (Cert.Spec.mat (m ((c : Thread nD τ).loc main_arg0))) (Cert.Spec.mat (m ((c : Thread nD τ).loc main_arg1)))
          (Cert.Spec.vec (m ((c : Thread nD τ).loc main_arg2))) (Cert.Spec.mat (m ((c : Thread nD τ).loc main_arg5)))) := by
  rw [B4_out, final1, U3_main_arg5, y_read, x_read, U3_main_v4, degree_value]
  exact G1_spec _ _ _ _

/-- THE KERNEL PROGRAM'S RESULT: the tail of the two-pass propagation of its arguments. -/
theorem value (c : Dev nD) :
    B8 (F := Ideal) m ρ c main_v27
      = Cert.ReferenceIdeal.Hand.tailR (m ((c : Thread nD τ).loc main_arg3)) (m ((c : Thread nD τ).loc main_arg4))
          (Cert.Spec.arr2 (Cert.Spec.propK (Cert.Spec.mat (m ((c : Thread nD τ).loc main_arg0))) (Cert.Spec.mat (m ((c : Thread nD τ).loc main_arg1)))
            (Cert.Spec.vec (m ((c : Thread nD τ).loc main_arg2))) (Cert.Spec.mat (m ((c : Thread nD τ).loc main_arg5))))) := by
  rw [tail_read, prop_value]

end Cert.KernelIdeal.Rgn

end
-- ==== Proof.RefRunOps.lean ====
import proofs.«141531_j54073638257182_2_alg».proof.Proof.Gen.ReferenceIdeal
import Idealize.ShloMosaic.Lib.StableHlo.Run
import Idealize.ShloMosaic.Lib.Pipeline.Regions

/-!
# The reference function as one straight line of host operations

The function's body is a straight line: forty-one operations up to the propagation's mean, the twenty-two operations of
the variance (its three-operation selection inside it), seventeen operations of normalisation, scale and shift, and the
seven of the leaky rectifier. Each called function's operations are listed at the call, over that call's own buffers.
The four stretches are stated one by one and the whole line is their concatenation.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first stretch: the diagonal table, the normalised matrix, the dense layer, the propagation and its mean. -/
abbrev opsA : List (HloOp τ sig (Elt F)) :=
  [ StableHlo.nullary main_v0 (iotaInDim S12288 32 0),
    StableHlo.nullary main_c (constantI S_ 32 0#32),
    StableHlo.unary main_c main_v1 (broadcastInDim S12288 ![] bcast_S_S12288 : (⟨S_, .i32⟩ : BufTy).Contents (Elt F) → (⟨S12288, .i32⟩ : BufTy).Contents (Elt F)),
    StableHlo.binary main_v0 main_v1 main_v2 (cmpi .slt : (⟨S12288, .i32⟩ : BufTy).Contents (Elt F) → (⟨S12288, .i32⟩ : BufTy).Contents (Elt F) → (⟨S12288, .i1⟩ : BufTy).Contents (Elt F)),
    StableHlo.nullary main_c_0 (constantI S_ 32 12288#32),
    StableHlo.unary main_c_0 main_v3 (broadcastInDim S12288 ![] bcast_S_S12288 : (⟨S_, .i32⟩ : BufTy).Contents (Elt F) → (⟨S12288, .i32⟩ : BufTy).Contents (Elt F)),
    StableHlo.binary main_v0 main_v3 main_v4 (addi : (⟨S12288, .i32⟩ : BufTy).Contents (Elt F) → (⟨S12288, .i32⟩ : BufTy).Contents (Elt F) → (⟨S12288, .i32⟩ : BufTy).Contents (Elt F)),
    StableHlo.ternary main_v2 main_v4 main_v0 main_v5 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.nullary main_c_1 (constantI S_ 32 0#32),
    StableHlo.unary main_c_1 main_v6 (broadcastInDim S12288 ![] bcast_S_S12288 : (⟨S_, .i32⟩ : BufTy).Contents (Elt F) → (⟨S12288, .i32⟩ : BufTy).Contents (Elt F)),
    StableHlo.binary main_v0 main_v6 main_v7 (cmpi .slt : (⟨S12288, .i32⟩ : BufTy).Contents (Elt F) → (⟨S12288, .i32⟩ : BufTy).Contents (Elt F) → (⟨S12288, .i1⟩ : BufTy).Contents (Elt F)),
    StableHlo.nullary main_c_2 (constantI S_ 32 12288#32),
    StableHlo.unary main_c_2 main_v8 (broadcastInDim S12288 ![] bcast_S_S12288 : (⟨S_, .i32⟩ : BufTy).Contents (Elt F) → (⟨S12288, .i32⟩ : BufTy).Contents (Elt F)),
    StableHlo.binary main_v0 main_v8 main_v9 (addi : (⟨S12288, .i32⟩ : BufTy).Contents (Elt F) → (⟨S12288, .i32⟩ : BufTy).Contents (Elt F) → (⟨S12288, .i32⟩ : BufTy).Contents (Elt F)),
    StableHlo.ternary main_v7 main_v9 main_v0 main_v10 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v5 main_v11 (broadcastInDim S12288x1 ![0] bcast_S12288_S12288x1_0 : (⟨S12288, .i32⟩ : BufTy).Contents (Elt F) → (⟨S12288x1, .i32⟩ : BufTy).Contents (Elt F)),
    StableHlo.unary main_v10 main_v12 (broadcastInDim S12288x1 ![0] bcast_S12288_S12288x1_0 : (⟨S12288, .i32⟩ : BufTy).Contents (Elt F) → (⟨S12288x1, .i32⟩ : BufTy).Contents (Elt F)),
    StableHlo.binary main_v11 main_v12 main_v13 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)),
    StableHlo.nullary main_cst (constant S_ .f32 0x3F800000#32),
    StableHlo.unary main_cst main_v14 (broadcastInDim S12288 ![] bcast_S_S12288 : (⟨S_, .f32⟩ : BufTy).Contents (Elt F) → (⟨S12288, .f32⟩ : BufTy).Contents (Elt F)),
    StableHlo.ternary main_arg5 main_v13 main_v14 main_v15 ((fun x i u => Host.scatterAdd scatter_S12288x12288_S12288x2_S12288_n_01_01_1 x i u) : (⟨S12288x12288, .f32⟩ : BufTy).Contents (Elt F) → (⟨S12288x2, .i32⟩ : BufTy).Contents (Elt F) → (⟨S12288, .f32⟩ : BufTy).Contents (Elt F) → (⟨S12288x12288, .f32⟩ : BufTy).Contents (Elt F)),
    StableHlo.nullary main_cst_3 (constant S_ .f32 0x00000000#32),
    StableHlo.binary main_v15 main_cst_3 main_v16 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    StableHlo.unary main_v16 main_v17 (Host.rsqrt : (⟨S12288, .f32⟩ : BufTy).Contents (Elt F) → (⟨S12288, .f32⟩ : BufTy).Contents (Elt F)),
    StableHlo.unary main_v17 main_v18 (broadcastInDim S12288x1 ![0] bcast_S12288_S12288x1_0 : (⟨S12288, .f32⟩ : BufTy).Contents (Elt F) → (⟨S12288x1, .f32⟩ : BufTy).Contents (Elt F)),
    StableHlo.unary main_v18 main_v19 (broadcastInDim S12288x12288 ![0, 1] bcast_S12288x1_S12288x12288_0_1 : (⟨S12288x1, .f32⟩ : BufTy).Contents (Elt F) → (⟨S12288x12288, .f32⟩ : BufTy).Contents (Elt F)),
    StableHlo.binary main_v19 main_v15 main_v20 (mulf : (⟨S12288x12288, .f32⟩ : BufTy).Contents (Elt F) → (⟨S12288x12288, .f32⟩ : BufTy).Contents (Elt F) → (⟨S12288x12288, .f32⟩ : BufTy).Contents (Elt F)),
    StableHlo.unary main_v17 main_v21 (broadcastInDim S1x12288 ![1] bcast_S12288_S1x12288_1 : (⟨S12288, .f32⟩ : BufTy).Contents (Elt F) → (⟨S1x12288, .f32⟩ : BufTy).Contents (Elt F)),
    StableHlo.unary main_v21 main_v22 (broadcastInDim S12288x12288 ![0, 1] bcast_S1x12288_S12288x12288_0_1 : (⟨S1x12288, .f32⟩ : BufTy).Contents (Elt F) → (⟨S12288x12288, .f32⟩ : BufTy).Contents (Elt F)),
    StableHlo.binary main_v20 main_v22 main_v23 (mulf : (⟨S12288x12288, .f32⟩ : BufTy).Contents (Elt F) → (⟨S12288x12288, .f32⟩ : BufTy).Contents (Elt F) → (⟨S12288x12288, .f32⟩ : BufTy).Contents (Elt F)),
    StableHlo.binary main_arg0 main_arg1 main_v24 ((fun l r => Host.dotGeneral dot_S12288x64_S64x64_S12288x64_1_0_0_1_n_n none l r) : (⟨S12288x64, .f32⟩ : BufTy).Contents (Elt F) → (⟨S64x64, .f32⟩ : BufTy).Contents (Elt F) → (⟨S12288x64, .f32⟩ : BufTy).Contents (Elt F)),
    StableHlo.unary main_arg2 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S12288x64 ![0, 1] bcast_S1x64_S12288x64_0_1 : (⟨S1x64, .f32⟩ : BufTy).Contents (Elt F) → (⟨S12288x64, .f32⟩ : BufTy).Contents (Elt F)),
    StableHlo.binary main_v24 main_v26 main_v27 (addf : (⟨S12288x64, .f32⟩ : BufTy).Contents (Elt F) → (⟨S12288x64, .f32⟩ : BufTy).Contents (Elt F) → (⟨S12288x64, .f32⟩ : BufTy).Contents (Elt F)),
    StableHlo.binary main_v23 main_v27 main_v28 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)),
    StableHlo.nullary main_cst_4 (constant S_ .f32 0x00000000#32),
    StableHlo.binary main_v28 main_cst_4 main_v29 ((fun x v => Host.reduceAdd x v reducesTo_S12288x64_S64_d0 h_S_) : (⟨S12288x64, .f32⟩ : BufTy).Contents (Elt F) → (⟨S_, .f32⟩ : BufTy).Contents (Elt F) → (⟨S64, .f32⟩ : BufTy).Contents (Elt F)),
    StableHlo.nullary main_cst_5 (constant S_ .f32 0x46400000#32),
    StableHlo.unary main_cst_5 main_v30 (broadcastInDim S64 ![] bcast_S_S64 : (⟨S_, .f32⟩ : BufTy).Contents (Elt F) → (⟨S64, .f32⟩ : BufTy).Contents (Elt F)),
    StableHlo.binary main_v29 main_v30 main_v31 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32) ]

/-- The variance of the propagation over the nodes: twenty-two operations over the call's own buffers. -/
abbrev opsVar : List (HloOp τ sig (Elt F)) :=
  [ StableHlo.TRef.nullary (.of main_call0_cst : StableHlo.TRef sig ⟨S_, .f32⟩) (constant S_ .f32 0x00000000#32),
    StableHlo.TRef.binary (.of main_v28 : StableHlo.TRef sig ⟨S12288x64, .f32⟩) (.of main_call0_cst : StableHlo.TRef sig ⟨S_, .f32⟩) (.of main_call0_v0 : StableHlo.TRef sig ⟨S64, .f32⟩) (fun x v => Host.reduceAdd x v reducesTo_S12288x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x46400000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S12288x64, .f32⟩) (broadcastInDim S12288x64 ![0, 1] bcast_S1x64_S12288x64_0_1),
    StableHlo.TRef.binary (.of main_v28 : StableHlo.TRef sig ⟨S12288x64, .f32⟩) (.of main_call0_v4 : StableHlo.TRef sig ⟨S12288x64, .f32⟩) (.of main_call0_v5 : StableHlo.TRef sig ⟨S12288x64, .f32⟩) subf,
    StableHlo.TRef.binary (.of main_call0_v5 : StableHlo.TRef sig ⟨S12288x64, .f32⟩) (.of main_call0_v5 : StableHlo.TRef sig ⟨S12288x64, .f32⟩) (.of main_call0_v6 : StableHlo.TRef sig ⟨S12288x64, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46400000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S12288x64, .f32⟩) (.of main_call0_cst_2 : StableHlo.TRef sig ⟨S_, .f32⟩) (.of main_call0_v9 : StableHlo.TRef sig ⟨S64, .f32⟩) (fun x v => Host.reduceAdd x v reducesTo_S12288x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v32 : StableHlo.TRef sig ⟨S64, .f32⟩) (fun p a b => select (broadcastInDim S64 ![] bcast_S_S64 p) a b) ]

/-- The normalisation, the scale and the shift. -/
abbrev opsB : List (HloOp τ sig (Elt F)) :=
  [ StableHlo.unary main_v31 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S12288x64 ![0, 1] bcast_S1x64_S12288x64_0_1 : (⟨S1x64, .f32⟩ : BufTy).Contents (Elt F) → (⟨S12288x64, .f32⟩ : BufTy).Contents (Elt F)),
    StableHlo.binary main_v28 main_v34 main_v35 (subf : (⟨S12288x64, .f32⟩ : BufTy).Contents (Elt F) → (⟨S12288x64, .f32⟩ : BufTy).Contents (Elt F) → (⟨S12288x64, .f32⟩ : BufTy).Contents (Elt F)),
    StableHlo.nullary main_cst_7 (constant S_ .f32 0x3727C5AC#32),
    StableHlo.unary main_cst_7 main_v36 (broadcastInDim S64 ![] bcast_S_S64 : (⟨S_, .f32⟩ : BufTy).Contents (Elt F) → (⟨S64, .f32⟩ : BufTy).Contents (Elt F)),
    StableHlo.binary main_v32 main_v36 main_v37 (addf : (⟨S64, .f32⟩ : BufTy).Contents (Elt F) → (⟨S64, .f32⟩ : BufTy).Contents (Elt F) → (⟨S64, .f32⟩ : BufTy).Contents (Elt F)),
    StableHlo.unary main_v37 main_v38 (Host.rsqrt : (⟨S64, .f32⟩ : BufTy).Contents (Elt F) → (⟨S64, .f32⟩ : BufTy).Contents (Elt F)),
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S12288x64 ![0, 1] bcast_S1x64_S12288x64_0_1 : (⟨S1x64, .f32⟩ : BufTy).Contents (Elt F) → (⟨S12288x64, .f32⟩ : BufTy).Contents (Elt F)),
    StableHlo.binary main_v35 main_v40 main_v41 (mulf : (⟨S12288x64, .f32⟩ : BufTy).Contents (Elt F) → (⟨S12288x64, .f32⟩ : BufTy).Contents (Elt F) → (⟨S12288x64, .f32⟩ : BufTy).Contents (Elt F)),
    StableHlo.unary main_arg3 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S12288x64 ![0, 1] bcast_S1x64_S12288x64_0_1 : (⟨S1x64, .f32⟩ : BufTy).Contents (Elt F) → (⟨S12288x64, .f32⟩ : BufTy).Contents (Elt F)),
    StableHlo.binary main_v41 main_v43 main_v44 (mulf : (⟨S12288x64, .f32⟩ : BufTy).Contents (Elt F) → (⟨S12288x64, .f32⟩ : BufTy).Contents (Elt F) → (⟨S12288x64, .f32⟩ : BufTy).Contents (Elt F)),
    StableHlo.unary main_arg4 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S12288x64 ![0, 1] bcast_S1x64_S12288x64_0_1 : (⟨S1x64, .f32⟩ : BufTy).Contents (Elt F) → (⟨S12288x64, .f32⟩ : BufTy).Contents (Elt F)),
    StableHlo.binary main_v44 main_v46 main_v47 (addf : (⟨S12288x64, .f32⟩ : BufTy).Contents (Elt F) → (⟨S12288x64, .f32⟩ : BufTy).Contents (Elt F) → (⟨S12288x64, .f32⟩ : BufTy).Contents (Elt F)),
    StableHlo.nullary main_cst_8 (constant S_ .f32 0x3C23D70A#32) ]

/-- The leaky rectifier: seven operations over the call's own buffers. -/
abbrev opsLeaky : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S12288x64, .f32⟩) (broadcastInDim S12288x64 ![] bcast_S_S12288x64),
    StableHlo.TRef.binary (.of main_v47 : StableHlo.TRef sig ⟨S12288x64, .f32⟩) (.of main_call1_v0 : StableHlo.TRef sig ⟨S12288x64, .f32⟩) (.of main_call1_v1 : StableHlo.TRef sig ⟨S12288x64, .i1⟩) (cmpf .oge),
    StableHlo.TRef.unary (.of main_cst_8 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S12288x64, .f32⟩) (broadcastInDim S12288x64 ![] bcast_S_S12288x64),
    StableHlo.TRef.binary (.of main_call1_v3 : StableHlo.TRef sig ⟨S12288x64, .f32⟩) (.of main_v47 : StableHlo.TRef sig ⟨S12288x64, .f32⟩) (.of main_call1_v4 : StableHlo.TRef sig ⟨S12288x64, .f32⟩) mulf,
    StableHlo.TRef.ternary (.of main_call1_v1 : StableHlo.TRef sig ⟨S12288x64, .i1⟩) (.of main_v47 : StableHlo.TRef sig ⟨S12288x64, .f32⟩) (.of main_call1_v4 : StableHlo.TRef sig ⟨S12288x64, .f32⟩) (.of main_v48 : StableHlo.TRef sig ⟨S12288x64, .f32⟩) select ]

/-- The whole line. -/
abbrev ops : List (HloOp τ sig (Elt F)) := opsA ++ (opsVar ++ (opsB ++ opsLeaky))

theorem opsA_sub : (opsA : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub ..⟩
theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub ..⟩
theorem opsLeaky_sub : (opsLeaky : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsVar_sub op h,
      List.forall_iff_forall_mem.mp opsB_sub op h, List.forall_iff_forall_mem.mp opsLeaky_sub op h]

/-- The function's body is the four stretches in order: each called function's body unfolds to its operations and the
    sequencing reassociates, both by computation. -/
theorem main_chain (c : Dev nD) : main (F := F) c = (Pipeline.chain
    [seq opsA, seq opsVar, seq opsB, seq opsLeaky] :
      Prog (TpuEff nD τ sig (Elt F) (Pipeline.Sig Λ₀ (Fin 0) fun p => (pcfgs (F := F) p).Adm) .tc) PUnit) := by
  chain_rfl

/-- The function's body is the whole line. -/
theorem main_eq (c : Dev nD) : main (F := F) c = seq ops := by
  rw [main_chain c]
  simp only [ops, seq_append, Pipeline.chain_cons, Pipeline.chain_nil, bind_pure_unit]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
import proofs.«141531_j54073638257182_2_alg».proof.Proof.RefRunOps
import proofs.«141531_j54073638257182_2_alg».proof.Proof.RefTerm

/-!
# The reference function's run

The buffers' contents are followed stretch by stretch. After the first stretch the propagation, its mean and the
variance's correction constant are the stage functions of the arguments; the second stretch adds the variance, the
third the normalised, scaled and shifted array, the fourth the rectified result. A buffer a stretch does not write
keeps its contents, so the arguments come out unchanged. The run of the whole line then gives the result buffer the
reference's result as a function of the argument buffers' launch contents.
-/

noncomputable section

namespace Cert.ReferenceIdeal.Hand

open Cert.ReferenceIdeal Cert.ReferenceIdeal.Gen Idealize.ShloMosaic Idealize.ShloMosaic.TcCoe Idealize.SL.Sem Idealize.ShloMosaic.StableHlo

/-- The contents after two lines run one after the other. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-! ## What each stretch writes -/

abbrev opsA_W : List (Ref sig .tc) := [main_v0, main_c, main_v1, main_v2, main_c_0, main_v3, main_v4, main_v5, main_c_1, main_v6, main_v7, main_c_2, main_v8, main_v9, main_v10, main_v11, main_v12, main_v13, main_cst, main_v14, main_v15, main_cst_3, main_v16, main_v17, main_v18, main_v19, main_v20, main_v21, main_v22, main_v23, main_v24, main_v25, main_v26, main_v27, main_v28, main_cst_4, main_v29, main_cst_5, main_v30, main_v31, main_c_6]
abbrev opsVar_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32]
abbrev opsB_W : List (Ref sig .tc) := [main_v33, main_v34, main_v35, main_cst_7, main_v36, main_v37, main_v38, main_v39, main_v40, main_v41, main_v42, main_v43, main_v44, main_v45, main_v46, main_v47, main_cst_8]
abbrev opsLeaky_W : List (Ref sig .tc) := [main_call1_cst, main_call1_v0, main_call1_v1, main_call1_v2, main_call1_v3, main_call1_v4, main_v48]

set_option maxRecDepth 8192 in
theorem opsA_writes : (opsA : List (HloOp τ sig (Elt Ideal))).Forall fun op =>
    op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
set_option maxRecDepth 8192 in
theorem opsVar_writes : (opsVar : List (HloOp τ sig (Elt Ideal))).Forall fun op =>
    op.writes ⊆ (opsVar_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
set_option maxRecDepth 8192 in
theorem opsB_writes : (opsB : List (HloOp τ sig (Elt Ideal))).Forall fun op =>
    op.writes ⊆ (opsB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
set_option maxRecDepth 8192 in
theorem opsLeaky_writes : (opsLeaky : List (HloOp τ sig (Elt Ideal))).Forall fun op =>
    op.writes ⊆ (opsLeaky_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-! ## The contents after each stretch -/

/-- The contents after the first stretch. -/
def val1 (V : Valuation τ sig (Elt Ideal)) : Valuation τ sig (Elt Ideal) := after (opsA (F := Ideal)) V
/-- The contents after the variance. -/
def val2 (V : Valuation τ sig (Elt Ideal)) : Valuation τ sig (Elt Ideal) := after (opsVar (F := Ideal)) (val1 V)
/-- The contents after the normalisation. -/
def val3 (V : Valuation τ sig (Elt Ideal)) : Valuation τ sig (Elt Ideal) := after (opsB (F := Ideal)) (val2 V)
/-- The contents after the rectifier. -/
def val4 (V : Valuation τ sig (Elt Ideal)) : Valuation τ sig (Elt Ideal) := after (opsLeaky (F := Ideal)) (val3 V)

theorem val1_keep (V : Valuation τ sig (Elt Ideal)) (r : Ref sig .tc) (h : r ∉ opsA_W) :
    val1 V (Proc.devRef .tc r) = V (Proc.devRef .tc r) := after_of_writes_sub opsA _ opsA_writes h
theorem val2_keep (V : Valuation τ sig (Elt Ideal)) (r : Ref sig .tc) (h : r ∉ opsVar_W) :
    val2 V (Proc.devRef .tc r) = val1 V (Proc.devRef .tc r) := after_of_writes_sub opsVar _ opsVar_writes h
theorem val3_keep (V : Valuation τ sig (Elt Ideal)) (r : Ref sig .tc) (h : r ∉ opsB_W) :
    val3 V (Proc.devRef .tc r) = val2 V (Proc.devRef .tc r) := after_of_writes_sub opsB _ opsB_writes h
theorem val4_keep (V : Valuation τ sig (Elt Ideal)) (r : Ref sig .tc) (h : r ∉ opsLeaky_W) :
    val4 V (Proc.devRef .tc r) = val3 V (Proc.devRef .tc r) := after_of_writes_sub opsLeaky _ opsLeaky_writes h

/-! ### The arguments: no stretch writes them -/

theorem val1_main_arg0 (V : Valuation τ sig (Elt Ideal)) : val1 V (no_index (Proc.devRef .tc main_arg0)) = V (Proc.devRef .tc main_arg0) := val1_keep V main_arg0 (by decide)
theorem val2_main_arg0 (V : Valuation τ sig (Elt Ideal)) : val2 V (no_index (Proc.devRef .tc main_arg0)) = V (Proc.devRef .tc main_arg0) :=
  (val2_keep V main_arg0 (by decide)).trans (val1_main_arg0 V)
theorem val3_main_arg0 (V : Valuation τ sig (Elt Ideal)) : val3 V (no_index (Proc.devRef .tc main_arg0)) = V (Proc.devRef .tc main_arg0) :=
  (val3_keep V main_arg0 (by decide)).trans (val2_main_arg0 V)
theorem val4_main_arg0 (V : Valuation τ sig (Elt Ideal)) : val4 V (no_index (Proc.devRef .tc main_arg0)) = V (Proc.devRef .tc main_arg0) :=
  (val4_keep V main_arg0 (by decide)).trans (val3_main_arg0 V)
theorem val1_main_arg1 (V : Valuation τ sig (Elt Ideal)) : val1 V (no_index (Proc.devRef .tc main_arg1)) = V (Proc.devRef .tc main_arg1) := val1_keep V main_arg1 (by decide)
theorem val2_main_arg1 (V : Valuation τ sig (Elt Ideal)) : val2 V (no_index (Proc.devRef .tc main_arg1)) = V (Proc.devRef .tc main_arg1) :=
  (val2_keep V main_arg1 (by decide)).trans (val1_main_arg1 V)
theorem val3_main_arg1 (V : Valuation τ sig (Elt Ideal)) : val3 V (no_index (Proc.devRef .tc main_arg1)) = V (Proc.devRef .tc main_arg1) :=
  (val3_keep V main_arg1 (by decide)).trans (val2_main_arg1 V)
theorem val4_main_arg1 (V : Valuation τ sig (Elt Ideal)) : val4 V (no_index (Proc.devRef .tc main_arg1)) = V (Proc.devRef .tc main_arg1) :=
  (val4_keep V main_arg1 (by decide)).trans (val3_main_arg1 V)
theorem val1_main_arg2 (V : Valuation τ sig (Elt Ideal)) : val1 V (no_index (Proc.devRef .tc main_arg2)) = V (Proc.devRef .tc main_arg2) := val1_keep V main_arg2 (by decide)
theorem val2_main_arg2 (V : Valuation τ sig (Elt Ideal)) : val2 V (no_index (Proc.devRef .tc main_arg2)) = V (Proc.devRef .tc main_arg2) :=
  (val2_keep V main_arg2 (by decide)).trans (val1_main_arg2 V)
theorem val3_main_arg2 (V : Valuation τ sig (Elt Ideal)) : val3 V (no_index (Proc.devRef .tc main_arg2)) = V (Proc.devRef .tc main_arg2) :=
  (val3_keep V main_arg2 (by decide)).trans (val2_main_arg2 V)
theorem val4_main_arg2 (V : Valuation τ sig (Elt Ideal)) : val4 V (no_index (Proc.devRef .tc main_arg2)) = V (Proc.devRef .tc main_arg2) :=
  (val4_keep V main_arg2 (by decide)).trans (val3_main_arg2 V)
theorem val1_main_arg3 (V : Valuation τ sig (Elt Ideal)) : val1 V (no_index (Proc.devRef .tc main_arg3)) = V (Proc.devRef .tc main_arg3) := val1_keep V main_arg3 (by decide)
theorem val2_main_arg3 (V : Valuation τ sig (Elt Ideal)) : val2 V (no_index (Proc.devRef .tc main_arg3)) = V (Proc.devRef .tc main_arg3) :=
  (val2_keep V main_arg3 (by decide)).trans (val1_main_arg3 V)
theorem val3_main_arg3 (V : Valuation τ sig (Elt Ideal)) : val3 V (no_index (Proc.devRef .tc main_arg3)) = V (Proc.devRef .tc main_arg3) :=
  (val3_keep V main_arg3 (by decide)).trans (val2_main_arg3 V)
theorem val4_main_arg3 (V : Valuation τ sig (Elt Ideal)) : val4 V (no_index (Proc.devRef .tc main_arg3)) = V (Proc.devRef .tc main_arg3) :=
  (val4_keep V main_arg3 (by decide)).trans (val3_main_arg3 V)
theorem val1_main_arg4 (V : Valuation τ sig (Elt Ideal)) : val1 V (no_index (Proc.devRef .tc main_arg4)) = V (Proc.devRef .tc main_arg4) := val1_keep V main_arg4 (by decide)
theorem val2_main_arg4 (V : Valuation τ sig (Elt Ideal)) : val2 V (no_index (Proc.devRef .tc main_arg4)) = V (Proc.devRef .tc main_arg4) :=
  (val2_keep V main_arg4 (by decide)).trans (val1_main_arg4 V)
theorem val3_main_arg4 (V : Valuation τ sig (Elt Ideal)) : val3 V (no_index (Proc.devRef .tc main_arg4)) = V (Proc.devRef .tc main_arg4) :=
  (val3_keep V main_arg4 (by decide)).trans (val2_main_arg4 V)
theorem val4_main_arg4 (V : Valuation τ sig (Elt Ideal)) : val4 V (no_index (Proc.devRef .tc main_arg4)) = V (Proc.devRef .tc main_arg4) :=
  (val4_keep V main_arg4 (by decide)).trans (val3_main_arg4 V)
theorem val1_main_arg5 (V : Valuation τ sig (Elt Ideal)) : val1 V (no_index (Proc.devRef .tc main_arg5)) = V (Proc.devRef .tc main_arg5) := val1_keep V main_arg5 (by decide)
theorem val2_main_arg5 (V : Valuation τ sig (Elt Ideal)) : val2 V (no_index (Proc.devRef .tc main_arg5)) = V (Proc.devRef .tc main_arg5) :=
  (val2_keep V main_arg5 (by decide)).trans (val1_main_arg5 V)
theorem val3_main_arg5 (V : Valuation τ sig (Elt Ideal)) : val3 V (no_index (Proc.devRef .tc main_arg5)) = V (Proc.devRef .tc main_arg5) :=
  (val3_keep V main_arg5 (by decide)).trans (val2_main_arg5 V)
theorem val4_main_arg5 (V : Valuation τ sig (Elt Ideal)) : val4 V (no_index (Proc.devRef .tc main_arg5)) = V (Proc.devRef .tc main_arg5) :=
  (val4_keep V main_arg5 (by decide)).trans (val3_main_arg5 V)

/-! ### The first stretch -/

set_option maxRecDepth 8192 in
set_option maxHeartbeats 2000000 in
/-- The propagation. -/
theorem val1_main_v28 (V : Valuation τ sig (Elt Ideal)) : val1 V (no_index (Proc.devRef .tc main_v28)) = prop (V (Proc.devRef .tc main_arg0)) (V (Proc.devRef .tc main_arg1)) (V (Proc.devRef .tc main_arg2)) (V (Proc.devRef .tc main_arg5)) := by
  unfold val1
  simp only [opsA]
  after_results_simp
  rfl

set_option maxRecDepth 8192 in
set_option maxHeartbeats 2000000 in
/-- Its mean over the nodes. -/
theorem val1_main_v31 (V : Valuation τ sig (Elt Ideal)) : val1 V (no_index (Proc.devRef .tc main_v31)) = meanR (prop (V (Proc.devRef .tc main_arg0)) (V (Proc.devRef .tc main_arg1)) (V (Proc.devRef .tc main_arg2)) (V (Proc.devRef .tc main_arg5))) := by
  unfold val1
  simp only [opsA]
  after_results_simp
  rfl

set_option maxRecDepth 8192 in
set_option maxHeartbeats 2000000 in
/-- The variance's correction: zero. -/
theorem val1_main_c_6 (V : Valuation τ sig (Elt Ideal)) : val1 V (no_index (Proc.devRef .tc main_c_6)) = constantI S_ 32 0#32 := by
  unfold val1
  simp only [opsA]
  after_results_simp

/-! ### The variance -/

theorem val2_main_v28 (V : Valuation τ sig (Elt Ideal)) : val2 V (no_index (Proc.devRef .tc main_v28)) = prop (V (Proc.devRef .tc main_arg0)) (V (Proc.devRef .tc main_arg1)) (V (Proc.devRef .tc main_arg2)) (V (Proc.devRef .tc main_arg5)) :=
  (val2_keep V main_v28 (by decide)).trans (val1_main_v28 V)
theorem val2_main_v31 (V : Valuation τ sig (Elt Ideal)) : val2 V (no_index (Proc.devRef .tc main_v31)) = meanR (prop (V (Proc.devRef .tc main_arg0)) (V (Proc.devRef .tc main_arg1)) (V (Proc.devRef .tc main_arg2)) (V (Proc.devRef .tc main_arg5))) :=
  (val2_keep V main_v31 (by decide)).trans (val1_main_v31 V)

set_option maxRecDepth 8192 in
set_option maxHeartbeats 2000000 in
/-- The variance of the propagation over the nodes. -/
theorem val2_main_v32 (V : Valuation τ sig (Elt Ideal)) : val2 V (no_index (Proc.devRef .tc main_v32)) = varR (prop (V (Proc.devRef .tc main_arg0)) (V (Proc.devRef .tc main_arg1)) (V (Proc.devRef .tc main_arg2)) (V (Proc.devRef .tc main_arg5))) := by
  unfold val2
  simp only [opsVar]
  after_results_simp
  simp only [val1_main_v28, val1_main_c_6] <;> rfl

/-! ### The normalisation, the scale and the shift -/

set_option maxRecDepth 8192 in
set_option maxHeartbeats 2000000 in
/-- The normalised, scaled and shifted array. -/
theorem val3_main_v47 (V : Valuation τ sig (Elt Ideal)) : val3 V (no_index (Proc.devRef .tc main_v47)) = normR (V (Proc.devRef .tc main_arg3)) (V (Proc.devRef .tc main_arg4)) (prop (V (Proc.devRef .tc main_arg0)) (V (Proc.devRef .tc main_arg1)) (V (Proc.devRef .tc main_arg2)) (V (Proc.devRef .tc main_arg5))) := by
  unfold val3
  simp only [opsB]
  after_results_simp
  simp only [val2_main_v28, val2_main_v31, val2_main_v32, val2_main_arg3, val2_main_arg4] <;> rfl

set_option maxRecDepth 8192 in
set_option maxHeartbeats 2000000 in
/-- The rectifier's slope. -/
theorem val3_main_cst_8 (V : Valuation τ sig (Elt Ideal)) : val3 V (no_index (Proc.devRef .tc main_cst_8)) = constant (F := Ideal) S_ .f32 0x3C23D70A#32 := by
  unfold val3
  simp only [opsB]
  after_results_simp

/-! ### The rectifier -/

set_option maxRecDepth 100000 in
set_option maxHeartbeats 2000000 in
/-- The result. -/
theorem val4_main_v48 (V : Valuation τ sig (Elt Ideal)) : val4 V (no_index (Proc.devRef .tc main_v48)) =
    refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold val4
  simp only [opsLeaky]
  after_results_simp
  simp only [val3_main_v47, val3_main_cst_8] <;> rfl

/-- The whole line's contents are the fourth stretch's. -/
theorem after_ops (V : Valuation τ sig (Elt Ideal)) : after (ops (F := Ideal)) V = val4 V := by
  unfold val4 val3 val2 val1
  simp only [ops, after_app]

/-! ## The run -/

/-- On every device, from any memory with zero counters: every weakly fair execution of the reference function
    terminates with the result buffer at the reference's result of the argument buffers' launch contents, and the
    argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v48).trans (by simp only [after_ops]; exact val4_main_v48 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c))⟩)
    (run_seq scopedRefs_eq scopedSems_eq defs main (fun _ => ops) main_eq (fun _ => ops_sub) m ρ)

end Cert.ReferenceIdeal.Hand

end
-- ==== Proof.RefFrame.lean ====
import proofs.«141531_j54073638257182_2_alg».proof.Defs
import proofs.«141531_j54073638257182_2_alg».proof.Proof.Gen.Pre_finite_inputs
import proofs.«141531_j54073638257182_2_alg».proof.Proof.RefRun

/-!
# The reference function runs and leaves its arguments unchanged

The run of the reference function ends with the result buffer at the reference's result and every argument buffer at
its launch contents; the frame claim is the second part.
-/

noncomputable section

open Idealize.ShloMosaic Idealize.ShloMosaic.TcCoe Idealize.SL.Sem

namespace Cert.Proof.RefClaims

/-- The reference function terminates from any launch memory and its six argument buffers end as they began. -/
theorem frame_ri : Cert.frame_ReferenceIdeal := fun m ρ _ =>
  (θ_run Cert.ReferenceIdeal.defs _ _).mono (fun _ h c => (h c).2) (Cert.ReferenceIdeal.Hand.run m ρ)

end Cert.Proof.RefClaims

end
-- ==== Proof.RefReadIdx.lean ====
import proofs.«141531_j54073638257182_2_alg».proof.Proof.RefTerm
import Idealize.ShloMosaic.Lib.ValueIdx
import Idealize.ShloMosaic.Lib.IdealHost
import Idealize.ShloMosaic.Lib.Pipeline.Value

/-!
# The diagonal index table, read at an entry

Row `e` of the table is `[e, e]`: each column is the index `0, 1, …, 12287` itself, because the index is never negative
(read as a signed 32-bit integer it is below `2³¹`), so the branch that would add 12288 is never taken.
-/

noncomputable section

namespace Cert.ReferenceIdeal.Hand

open Cert.ReferenceIdeal
open Idealize.ShloMosaic Idealize.ShloMosaic.ValueIdx
open Cert.ReferenceIdeal.Facts₀ Cert.ReferenceIdeal.Facts

/-- A number below 12288, as a 32-bit word read signed, is itself. -/
theorem toInt_ofNat_small {e : Nat} (h : e < 12288) : (BitVec.ofNat 32 e).toInt = (e : Int) := by
  rw [BitVec.toInt_eq_toNat_cond, BitVec.toNat_ofNat]
  have he : e % 2 ^ 32 = e := Nat.mod_eq_of_lt (by omega)
  rw [he, if_pos (by omega)]

/-- A number below 12288 is not negative as a signed 32-bit word. -/
theorem cmpi_slt_zero_small {e : Nat} (h : e < 12288) : IntOp.cmpi .slt (BitVec.ofNat 32 e) 0#32 = 0#1 := by
  have h0 : (0#32 : BitVec 32).toInt = 0 := by decide
  have hs : (BitVec.ofNat 32 e).slt 0#32 = false := by
    rw [BitVec.slt, toInt_ofNat_small h, h0]
    exact decide_eq_false (by omega)
  show BitVec.ofBool ((BitVec.ofNat 32 e).slt 0#32) = 0#1
  rw [hs]; rfl

/-- One column of the table at `e` is the word `e`. -/
theorem idxCol_apply (e : Fin 12288) : idxCol (ix1 e) = BitVec.ofNat 32 e.val := by
  unfold idxCol
  rw [select_apply]
  have hc : cmpi .slt iota (broadcastInDim S12288 ![] bcast_S_S12288 (constantI S_ 32 0#32)) (ix1 e) = 0#1 := by
    show IntOp.cmpi .slt (iota (ix1 e)) (broadcastInDim S12288 ![] bcast_S_S12288 (constantI S_ 32 0#32) (ix1 e)) = 0#1
    rw [broadcastInDim_scalar_apply]
    exact cmpi_slt_zero_small e.isLt
  rw [hc, select_zero]
  rfl

/-- The table's first column at row `e` is the word `e`. -/
theorem idx_apply0 (e : Fin 12288) : idx (ix2 e (0 : Fin 2)) = BitVec.ofNat 32 e.val := by
  unfold idx
  refine (concatenate_pair_apply_left (t := S12288x2) (s₁ := S12288x1) (s₂ := S12288x1) (1 : Fin 2) _ _
    concatenates_S12288x1_S12288x1_S12288x2_d1 (ix2 e (0 : Fin 2)) rfl
    (ix2 e (0 : Fin 1)) (fun b => ?_)).trans ?_
  · match b with
    | ⟨0, _⟩ => rfl
    | ⟨1, _⟩ => rfl
  · refine (broadcastInDim_apply _ bcast_S12288_S12288x1_0 idxCol (ix2 e (0 : Fin 1)) (ix1 e) (fun a => ?_)).trans (idxCol_apply e)
    match a with
    | ⟨0, _⟩ => rfl

/-- The table's second column at row `e` is the word `e`. -/
theorem idx_apply1 (e : Fin 12288) : idx (ix2 e (1 : Fin 2)) = BitVec.ofNat 32 e.val := by
  unfold idx
  refine (concatenate_pair_apply_right (t := S12288x2) (s₁ := S12288x1) (s₂ := S12288x1) (1 : Fin 2) _ _
    concatenates_S12288x1_S12288x1_S12288x2_d1 (ix2 e (1 : Fin 2)) rfl rfl
    (ix2 e (0 : Fin 1)) (fun b hb => ?_) rfl).trans ?_
  · match b with
    | ⟨0, _⟩ => rfl
    | ⟨1, _⟩ => exact absurd rfl hb
  · refine (broadcastInDim_apply _ bcast_S12288_S12288x1_0 idxCol (ix2 e (0 : Fin 1)) (ix1 e) (fun a => ?_)).trans (idxCol_apply e)
    match a with
    | ⟨0, _⟩ => rfl

end Cert.ReferenceIdeal.Hand

end
-- ==== Proof.RefReadScatter.lean ====
import Idealize.ShloMosaic.PureOps.Ideal
import Idealize.ShloMosaic.Lib.ValueIdx

/-!
# The host's accumulating scatter of single entries into a matrix, read at an entry

An operand `x : [N, N']`, a table of start indices `idx : [M, 2]` and updates `upd : [M]`: update `e` is added onto
the operand's entry `(idx[e, 0], idx[e, 1])`, each word read as a SIGNED integer and not clamped (an index outside
the operand drops the update). At the extended reals the result at `(p, q)` is therefore

    x (p, q) + Σ_{e : idx[e,0] = p, idx[e,1] = q} upd e

(`scatterAdd_point_apply`). The dimension numbers' coordinate maps are evaluated once, for symbolic sizes: only the
ranks, which are literals, decide them.
-/

noncomputable section

open scoped BigOperators

namespace Cert.Lib.PointScatter

open Idealize.ShloMosaic Idealize.ShloMosaic.ValueIdx

/-- The dimension numbers of a scatter of single entries: no window axis; both operand axes are inserted and receive
    the two components of the start index, read along axis 1 of the table. -/
abbrev pointScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

section
variable {N N' M w : Nat} (wf : ScatterDims.WF ⟨2, ![N, N']⟩ ⟨2, ![M, 2]⟩ ⟨1, ![M]⟩ [] [0, 1] [0, 1] 1)

/-- On operand axis 0 update `e` starts at the first word of row `e` of the table, read signed. -/
theorem point_start0 (idx : IVec ⟨2, ![M, 2]⟩ w) (e : Fin M) :
    (pointScatterDims N N' M wf).start (ix1 e) idx 0 = (idx (ix2 e (0 : Fin 2))).toInt := by
  have hm : (0 : Fin 2) ∈ (pointScatterDims N N' M wf).scatterDimsToOperandDims := by simp
  unfold ScatterDims.start
  rw [dif_pos hm]
  have hsi : (pointScatterDims N N' M wf).siIdx (ix1 e) ⟨List.idxOf (0 : Fin 2) (pointScatterDims N N' M wf).scatterDimsToOperandDims,
      List.idxOf_lt_length_iff.2 hm⟩ = ix2 e (0 : Fin 2) := by
    funext b; refine Fin.ext ?_
    match b with
    | ⟨0, _⟩ => rfl
    | ⟨1, _⟩ => rfl
  rw [hsi]

/-- On operand axis 1 update `e` starts at the second word of row `e` of the table, read signed. -/
theorem point_start1 (idx : IVec ⟨2, ![M, 2]⟩ w) (e : Fin M) :
    (pointScatterDims N N' M wf).start (ix1 e) idx 1 = (idx (ix2 e (1 : Fin 2))).toInt := by
  have hm : (1 : Fin 2) ∈ (pointScatterDims N N' M wf).scatterDimsToOperandDims := by simp
  unfold ScatterDims.start
  rw [dif_pos hm]
  have hsi : (pointScatterDims N N' M wf).siIdx (ix1 e) ⟨List.idxOf (1 : Fin 2) (pointScatterDims N N' M wf).scatterDimsToOperandDims,
      List.idxOf_lt_length_iff.2 hm⟩ = ix2 e (1 : Fin 2) := by
    funext b; refine Fin.ext ?_
    match b with
    | ⟨0, _⟩ => rfl
    | ⟨1, _⟩ => rfl
  rw [hsi]

/-- Both operand axes are inserted: the window coordinate is `0` on each. -/
theorem point_window0 (j : (⟨1, ![M]⟩ : Shape).Idx) : (pointScatterDims N N' M wf).window j 0 = 0 := rfl
theorem point_window1 (j : (⟨1, ![M]⟩ : Shape).Idx) : (pointScatterDims N N' M wf).window j 1 = 0 := rfl

/-- WHERE AN UPDATE LANDS: update `e` lands on `(p, q)` exactly when the two words of row `e` of the table, read signed,
    are `p` and `q`. -/
theorem point_resultIdx?_eq_some_iff (idx : IVec ⟨2, ![M, 2]⟩ w) (e : Fin M) (p : Fin N) (q : Fin N') :
    (pointScatterDims N N' M wf).resultIdx? (ix1 e) idx = some (ix2 p q)
      ↔ (idx (ix2 e (0 : Fin 2))).toInt = (p.val : ℤ) ∧ (idx (ix2 e (1 : Fin 2))).toInt = (q.val : ℤ) := by
  have hs0 := point_start0 wf idx e
  have hs1 := point_start1 wf idx e
  have hw0 := point_window0 wf (ix1 e)
  have hw1 := point_window1 wf (ix1 e)
  have hpN : p.val < N := p.isLt
  have hqN : q.val < N' := q.isLt
  have hsz0 : (⟨2, ![N, N']⟩ : Shape).size 0 = N := rfl
  have hsz1 : (⟨2, ![N, N']⟩ : Shape).size 1 = N' := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 p q : (⟨2, ![N, N']⟩ : Shape).Idx) 0).val = p.val := rfl
      have hv1 : ((ix2 p q : (⟨2, ![N, N']⟩ : Shape).Idx) 1).val = q.val := rfl
      simp only [hs0, hw0, hv0] at h0
      simp only [hs1, hw1, hv1] at h1
      have hh0 := (h 0).1
      have hh1 := (h 1).1
      simp only [hs0, hw0] at hh0
      simp only [hs1, hw1] at hh1
      constructor <;> omega
    · rintro ⟨ht0, ht1⟩
      funext a
      refine Fin.ext ?_
      match a with
      | ⟨0, _⟩ =>
        show ((pointScatterDims N N' M wf).start (ix1 e) idx 0 + ((pointScatterDims N N' M wf).window (ix1 e) 0 : ℕ)).toNat = p.val
        rw [hs0, hw0, ht0]; simp
      | ⟨1, _⟩ =>
        show ((pointScatterDims N N' M wf).start (ix1 e) idx 1 + ((pointScatterDims N N' M wf).window (ix1 e) 1 : ℕ)).toNat = q.val
        rw [hs1, hw1, ht1]; simp
  · rename_i h
    constructor
    · intro hc; exact absurd hc (by simp)
    · rintro ⟨ht0, ht1⟩
      exfalso; apply h
      intro a
      match a with
      | ⟨0, _⟩ =>
        show 0 ≤ (pointScatterDims N N' M wf).start (ix1 e) idx 0 + ((pointScatterDims N N' M wf).window (ix1 e) 0 : ℕ) ∧
          (pointScatterDims N N' M wf).start (ix1 e) idx 0 + ((pointScatterDims N N' M wf).window (ix1 e) 0 : ℕ) < ((⟨2, ![N, N']⟩ : Shape).size 0 : ℕ)
        rw [hs0, hw0, ht0, hsz0]; omega
      | ⟨1, _⟩ =>
        show 0 ≤ (pointScatterDims N N' M wf).start (ix1 e) idx 1 + ((pointScatterDims N N' M wf).window (ix1 e) 1 : ℕ) ∧
          (pointScatterDims N N' M wf).start (ix1 e) idx 1 + ((pointScatterDims N N' M wf).window (ix1 e) 1 : ℕ) < ((⟨2, ![N, N']⟩ : Shape).size 1 : ℕ)
        rw [hs1, hw1, ht1, hsz1]; omega

/-- THE SCATTER-ADD OF SINGLE ENTRIES READ AT `(p, q)`: the operand there plus the sum of `upd e` over the `e` whose two
    start words, read signed, are `p` and `q`. -/
theorem scatterAdd_point_apply {φ : FTy} (x : FVec Ideal ⟨2, ![N, N']⟩ φ) (idx : IVec ⟨2, ![M, 2]⟩ w)
    (upd : FVec Ideal ⟨1, ![M]⟩ φ) (p : Fin N) (q : Fin N') :
    Host.scatterAdd (pointScatterDims N N' M wf) x idx upd (ix2 p q)
      = x (ix2 p q) + ∑ e ∈ Finset.univ.filter (fun e : Fin M =>
          (idx (ix2 e (0 : Fin 2))).toInt = (p.val : ℤ) ∧ (idx (ix2 e (1 : Fin 2))).toInt = (q.val : ℤ)), upd (ix1 e) := by
  show x (ix2 p q) + ∑ j ∈ Finset.univ.filter (fun j => (pointScatterDims N N' M wf).resultIdx? j idx = some (ix2 p q)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (point_resultIdx?_eq_some_iff wf idx e p q).1 hj.2⟩
  · intro e he
    rw [Finset.mem_filter] at he ⊢
    exact ⟨Finset.mem_univ _, (point_resultIdx?_eq_some_iff wf idx e p q).2 he.2⟩
  · intro j _
    exact (eq_ix1 j).symm
  · intro e _
    rfl
  · intro j _
    exact congrArg upd (eq_ix1 j)

end

end Cert.Lib.PointScatter

end
-- ==== Proof.RefRead.lean ====
import proofs.«141531_j54073638257182_2_alg».proof.Proof.RefTerm
import proofs.«141531_j54073638257182_2_alg».proof.Proof.RefReadIdx
import proofs.«141531_j54073638257182_2_alg».proof.Proof.RefReadScatter
import proofs.«141531_j54073638257182_2_alg».proof.Proof.LibDotSum
import proofs.«141531_j54073638257182_2_alg».proof.Proof.Spec
import Idealize.ShloMosaic.PureOps.Ideal.Laws
import Idealize.ShloMosaic.Lib.ValueIdx
import Idealize.ShloMosaic.Lib.IdealHost
import Idealize.ShloMosaic.Lib.Pipeline.Value

/-!
# The reference's propagation, read at an entry

Stage by stage, each array of the reference read at an index is the corresponding function of the argument arrays:

* the scatter of ones along the diagonal gives `A + I` (`adj_apply`): update `e` lands on `(e, e)`, so the updates landing
  on `(p, j)` are the single update `p` when `p = j` and none otherwise;
* the reduction over the columns from zero is the row sum (`rowsumv_apply`), its reciprocal square root the degree
  (`degv_apply`);
* the two broadcasts lay the degrees down the rows and along the columns, and the two products give
  `(degR p · (A + I) p j) · degR j` (`ahat_apply`);
* the contraction with the weights plus the bias row is the dense layer (`x_apply`);
* the contraction of the normalised matrix with the dense layer is the propagation (`prop_apply`).
-/

noncomputable section

namespace Cert.ReferenceIdeal.Hand

open Cert.ReferenceIdeal
open Idealize.ShloMosaic Idealize.ShloMosaic.ValueIdx
open Cert.ReferenceIdeal.Facts₀ Cert.ReferenceIdeal.Facts
open Cert.Lib.PointScatter

/-! ## `A + I` -/

/-- Every update is the number one. -/
theorem ones_apply (i : S12288.Idx) : ones i = 1 := by
  unfold ones
  rw [broadcastInDim_scalar_apply, constant_apply]
  exact Ideal.ofBits_one_f32

/-- The updates landing on `(p, j)`: update `p` when `p = j`, none otherwise. -/
theorem landing_set (p j : Fin 12288) :
    Finset.univ.filter (fun e : Fin 12288 =>
      (idx (ix2 e (0 : Fin 2))).toInt = (p.val : ℤ) ∧ (idx (ix2 e (1 : Fin 2))).toInt = (j.val : ℤ))
      = if p = j then {p} else ∅ := by
  ext e
  rw [Finset.mem_filter, idx_apply0, idx_apply1, toInt_ofNat_small e.isLt]
  by_cases hpj : p = j
  · subst hpj
    rw [if_pos rfl, Finset.mem_singleton]
    constructor
    · rintro ⟨_, h, _⟩; exact Fin.ext (by omega)
    · rintro rfl; exact ⟨Finset.mem_univ _, rfl, rfl⟩
  · rw [if_neg hpj]
    constructor
    · rintro ⟨_, h1, h2⟩; exact absurd (Fin.ext (by omega)) hpj
    · intro h; exact absurd h (Finset.notMem_empty _)

/-- The adjacency matrix with the ones scattered in is `A + I`. -/
theorem adj_apply (a5 : FVec Ideal S12288x12288 .f32) (p j : Fin 12288) :
    adj a5 (ix2 p j) = Cert.Spec.adjI (Cert.Spec.mat a5) p j := by
  have h := scatterAdd_point_apply (N := 12288) (N' := 12288) (M := 12288) (φ := .f32)
    scatter_S12288x12288_S12288x2_S12288_n_01_01_1_wf a5 idx ones p j
  refine (h : adj a5 (ix2 p j) = _).trans ?_
  rw [landing_set]
  unfold Cert.Spec.adjI Cert.Spec.mat
  congr 1
  by_cases hpj : p = j
  · rw [if_pos hpj, if_pos hpj, Finset.sum_singleton, ones_apply]
  · rw [if_neg hpj, if_neg hpj, Finset.sum_empty]

/-! ## The degrees -/

/-- The source index over row `p` with `k` inserted on the column axis is `(p, k)`. -/
theorem lift_cols (h : S12288x12288.Reduces [(1 : Fin 2)] S12288) (p k : Fin 12288) :
    h.lift (ix1 p) k = ix2 p k := by
  funext c
  apply Fin.ext
  match c with
  | ⟨0, _⟩ => rfl
  | ⟨1, _⟩ => rfl

/-- The row sums of `A + I`. -/
theorem rowsumv_apply (a5 : FVec Ideal S12288x12288 .f32) (p : Fin 12288) :
    rowsumv a5 (ix1 p) = ∑ j : Fin 12288, Cert.Spec.adjI (Cert.Spec.mat a5) p j := by
  have hR : S12288x12288.Reduces [(1 : Fin 2)] S12288 := by decide
  unfold rowsumv
  rw [hostReduceAdd_apply, Ideal.hostReduceAdd_single reducesTo_S12288x12288_S12288_d1 hR, constant_apply,
    Ideal.ofBits_zero_f32, zero_add]
  exact Finset.sum_congr rfl fun k _ => (congrArg (adj a5) (lift_cols hR p k)).trans (adj_apply a5 p k)

/-- The degree of node `p`. -/
theorem degv_apply (a5 : FVec Ideal S12288x12288 .f32) (p : Fin 12288) :
    degv a5 (ix1 p) = Cert.Spec.degR (Cert.Spec.mat a5) p := by
  show Ideal.rsqrt (rowsumv a5 (ix1 p)) = _
  rw [rowsumv_apply]
  rfl

/-- The degrees laid down the rows. -/
theorem degRows_apply (a5 : FVec Ideal S12288x12288 .f32) (p j : Fin 12288) :
    degRows a5 (ix2 p j) = Cert.Spec.degR (Cert.Spec.mat a5) p := by
  unfold degRows
  refine (broadcastInDim_apply _ bcast_S12288x1_S12288x12288_0_1 _ (ix2 p j) (ix2 p (0 : Fin 1)) fun a => ?_).trans
    ((broadcastInDim_apply _ bcast_S12288_S12288x1_0 _ (ix2 p (0 : Fin 1)) (ix1 p) fun a => ?_).trans (degv_apply a5 p))
  · match a with
    | ⟨0, _⟩ => rfl
    | ⟨1, _⟩ => rfl
  · match a with
    | ⟨0, _⟩ => rfl

/-- The degrees laid along the columns. -/
theorem degCols_apply (a5 : FVec Ideal S12288x12288 .f32) (p j : Fin 12288) :
    degCols a5 (ix2 p j) = Cert.Spec.degR (Cert.Spec.mat a5) j := by
  unfold degCols
  refine (broadcastInDim_apply _ bcast_S1x12288_S12288x12288_0_1 _ (ix2 p j) (ix2 (0 : Fin 1) j) fun a => ?_).trans
    ((broadcastInDim_apply _ bcast_S12288_S1x12288_1 _ (ix2 (0 : Fin 1) j) (ix1 j) fun a => ?_).trans (degv_apply a5 j))
  · match a with
    | ⟨0, _⟩ => rfl
    | ⟨1, _⟩ => rfl
  · match a with
    | ⟨0, _⟩ => rfl

/-- The normalised matrix. -/
theorem ahat_apply (a5 : FVec Ideal S12288x12288 .f32) (p j : Fin 12288) :
    ahat a5 (ix2 p j) = (Cert.Spec.degR (Cert.Spec.mat a5) p * Cert.Spec.adjI (Cert.Spec.mat a5) p j)
      * Cert.Spec.degR (Cert.Spec.mat a5) j := by
  unfold ahat
  rw [mulf_apply, mulf_apply, degRows_apply, degCols_apply, adj_apply]

/-! ## The dense layer and the propagation -/

/-- The dense layer. -/
theorem x_apply (a0 : FVec Ideal S12288x64 .f32) (a1 : FVec Ideal S64x64 .f32) (a2 : FVec Ideal S64 .f32)
    (j : Fin 12288) (e : Fin 64) :
    x a0 a1 a2 (ix2 j e) = Cert.Spec.lin (Cert.Spec.mat a0) (Cert.Spec.mat a1) (Cert.Spec.vec a2) j e := by
  unfold x
  simp only [Host.dotGeneral]
  rw [addf_apply, Ideal.dotGeneral_apply,
    Cert.LibDotSum.sum_dot dot_S12288x64_S64x64_S12288x64_1_0_0_1_n_n rfl rfl (fun _ _ => rfl) (fun _ _ => rfl)
      (fun _ _ => rfl) (fun _ _ => rfl) a0 a1 j e,
    Cert.LibDotSum.bias_apply]
  rfl

/-- The propagation is the reference's propagation through the normalised matrix. -/
theorem prop_apply (a0 : FVec Ideal S12288x64 .f32) (a1 : FVec Ideal S64x64 .f32) (a2 : FVec Ideal S64 .f32)
    (a5 : FVec Ideal S12288x12288 .f32) (p : Fin 12288) (e : Fin 64) :
    prop a0 a1 a2 a5 (ValueIdx.ix2 p e)
      = Cert.Spec.propR (Cert.Spec.mat a0) (Cert.Spec.mat a1) (Cert.Spec.vec a2) (Cert.Spec.mat a5) p e := by
  unfold prop
  simp only [Host.dotGeneral]
  rw [Ideal.dotGeneral_apply,
    Cert.LibDotSum.sum_dot dot_S12288x12288_S12288x64_S12288x64_1_0_0_1_n_n rfl rfl (fun _ _ => rfl) (fun _ _ => rfl)
      (fun _ _ => rfl) (fun _ _ => rfl) (ahat a5) (x a0 a1 a2) p e]
  unfold Cert.Spec.propR
  exact Finset.sum_congr rfl fun j _ => by rw [ahat_apply, x_apply]

/-- The reference's result: everything after the propagation, applied to the propagation through the normalised
    matrix. -/
theorem refOut_eq (a0 : FVec Ideal S12288x64 .f32) (a1 : FVec Ideal S64x64 .f32) (a2 a3 a4 : FVec Ideal S64 .f32)
    (a5 : FVec Ideal S12288x12288 .f32) :
    refOut a0 a1 a2 a3 a4 a5
      = tailR a3 a4 (Cert.Spec.arr2 (Cert.Spec.propR (Cert.Spec.mat a0) (Cert.Spec.mat a1) (Cert.Spec.vec a2)
          (Cert.Spec.mat a5))) := by
  unfold refOut
  exact congrArg (tailR a3 a4) (funext fun i => by rw [ValueIdx.eq_ix2 i]; exact prop_apply a0 a1 a2 a5 (i 0) (i 1))

end Cert.ReferenceIdeal.Hand

end
-- ==== Proof.Algebra.lean ====
import proofs.«141531_j54073638257182_2_alg».proof.Proof.Spec
import Mathlib.Algebra.BigOperators.Ring.Finset
import Mathlib.Tactic.Ring

/-!
# The two propagations agree on real entries with positive row sums

With every entry of `H`, `W`, `b`, `A` a real number, every finite sum and product here is the coercion of the
same real expression. With the row sum of `A + I` positive at every node, each degree is the coercion of the real
`(√s)⁻¹`. Both propagations are then coercions of real numbers, and over ℝ the identity is distributivity:
`∑ⱼ (d_p (a_pj + δ_pj)) d_j x_j = d_p (∑ⱼ a_pj (d_j x_j) + d_p x_p)`.
-/

noncomputable section

namespace Cert.Spec

open Idealize.ShloMosaic Finset

/-- The coercion ℝ → EReal commutes with a finite sum. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity behind the two propagations: the diagonal term of `A + I` gives `d_p · d_p · x_p`. -/
theorem real_identity {n : ℕ} (d : Fin n → ℝ) (a : Fin n → Fin n → ℝ) (x : Fin n → ℝ) (p : Fin n) :
    d p * ((∑ j, a p j * (d j * x j)) + d p * x p)
      = ∑ j, ((d p * (a p j + if p = j then 1 else 0)) * d j) * x j := by
  have hterm : ∀ j, ((d p * (a p j + if p = j then 1 else 0)) * d j) * x j
      = d p * (a p j * (d j * x j)) + (if p = j then d p * d j * x j else 0) := by
    intro j
    split_ifs <;> ring
  simp only [hterm, Finset.sum_add_distrib, Finset.sum_ite_eq, Finset.mem_univ, if_true, ← Finset.mul_sum]
  ring

/-- The unit diagonal entry is the coercion of the real unit diagonal entry. -/
theorem coe_diag {n : ℕ} (p j : Fin n) :
    (if p = j then (1 : EReal) else 0) = (((if p = j then (1 : ℝ) else 0) : ℝ) : EReal) := by
  split_ifs
  · exact EReal.coe_one.symm
  · exact EReal.coe_zero.symm

theorem prop_eq (H : Fin 12288 → Fin 64 → EReal) (W : Fin 64 → Fin 64 → EReal) (b : Fin 64 → EReal)
    (A : Fin 12288 → Fin 12288 → EReal)
    (hH : Real2 H) (hW : Real2 W) (hb : Real1 b) (hA : Real2 A) (hpos : RowsPositive A) :
    ∀ p e, propK H W b A p e = propR H W b A p e := by
  choose h hh using hH
  choose w hw using hW
  choose c hc using hb
  choose a ha using hA
  -- the row sum of `A + I` is a real number, positive by hypothesis
  have hrow : ∀ p, rowsum A p + 1 = (((∑ j, a p j) + 1 : ℝ) : EReal) := by
    intro p
    simp only [rowsum, ha]
    rw [← coe_finsum, EReal.coe_add, EReal.coe_one]
  have hspos : ∀ p, (0 : ℝ) < (∑ j, a p j) + 1 := by
    intro p
    have h0 := hpos p
    rw [hrow p] at h0
    exact EReal.coe_pos.mp h0
  -- so each degree is the coercion of a real
  have hdeg : ∀ p, deg A p = (((Real.sqrt ((∑ j, a p j) + 1))⁻¹ : ℝ) : EReal) := by
    intro p
    unfold deg
    rw [hrow p, Ideal.rsqrt_coe, if_neg (not_lt.mpr (hspos p).le), if_neg (hspos p).ne']
  -- the row sum of `A + I` is the row sum of `A` plus the one on the diagonal
  have hdegR : ∀ p, degR A p = deg A p := by
    intro p
    unfold degR deg rowsum adjI
    rw [Finset.sum_add_distrib, Finset.sum_ite_eq, if_pos (Finset.mem_univ p)]
  -- the dense layer is the coercion of a real
  have hlin : ∀ p e, lin H W b p e = (((∑ k, h p k * w k e) + c e : ℝ) : EReal) := by
    intro p e
    unfold lin
    simp only [hh, hw, hc, ← EReal.coe_mul]
    rw [← coe_finsum, ← EReal.coe_add]
  intro p e
  have hL : propK H W b A p e
      = (((Real.sqrt ((∑ j, a p j) + 1))⁻¹
          * ((∑ j, a p j * ((Real.sqrt ((∑ i, a j i) + 1))⁻¹ * ((∑ k, h j k * w k e) + c e)))
             + (Real.sqrt ((∑ j, a p j) + 1))⁻¹ * ((∑ k, h p k * w k e) + c e)) : ℝ) : EReal) := by
    unfold propK
    simp only [hdeg, hlin, ha, ← EReal.coe_mul]
    rw [← coe_finsum, ← EReal.coe_add, ← EReal.coe_mul]
  have hR : propR H W b A p e
      = ((∑ j, (((Real.sqrt ((∑ j, a p j) + 1))⁻¹ * (a p j + if p = j then 1 else 0))
          * (Real.sqrt ((∑ i, a j i) + 1))⁻¹) * ((∑ k, h j k * w k e) + c e) : ℝ) : EReal) := by
    unfold propR
    simp only [hdegR, hdeg, hlin, adjI, ha, coe_diag, ← EReal.coe_add, ← EReal.coe_mul]
    rw [← coe_finsum]
  rw [hL, hR]
  congr 1
  exact real_identity (fun q => (Real.sqrt ((∑ j, a q j) + 1))⁻¹) a
    (fun q => (∑ k, h q k * w k e) + c e) p

end Cert.Spec

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.LibAllPositive.lean ====
/-
  A printed `jnp.all(d > 0)`, and the second of two tests joined by `and`, for arrays of any shape.

  `jnp.all(d > 0)` prints as the element-wise comparison of `d` against an array `z` of zeros, reduced by `and` over
  every axis from the constant 1. At the extended reals the comparison at an entry is `z < d` there, so the reduction
  coming out 1 says every entry of `d` is positive (`all_pos`). A precondition of two such tests is their `and`; coming
  out 1 everywhere it gives each test 1 (`first_of_and`, `second_of_and`). Stated over the printed term's shape, generic
  in the array's shape and the reduced axes, so that a certificate's own precondition is an instance by unfolding and
  the reduction over a long axis is never evaluated.
-/
import Idealize.ShloMosaic.PureOps.Ideal
import Idealize.ShloMosaic.PureOps.Ideal.Laws
import Idealize.ShloMosaic.Lib.ReduceAll
import Idealize.ShloMosaic.Lib.ValueIdx

noncomputable section

namespace Cert.LibAllPositive

open Idealize.ShloMosaic

/-- The rank-0 shape has one index. -/
instance : Subsingleton (⟨0, ![]⟩ : Shape).Idx := ⟨fun a b => funext fun d => d.elim0⟩

/-- One entry: the printed comparison `a > z` coming out 1 says `z < a`. -/
theorem lt_of_cmp_one (a z : Ideal .f32) (h : FloatOps.cmpf .ogt a z = 1#1) : (z : EReal) < a := by
  have h2 : BitVec.ofBool (decide ((z : EReal) < a)) = 1#1 := h
  by_contra hn
  rw [decide_eq_false hn] at h2
  exact absurd h2 (by decide)

/-- `jnp.all(d > z)` coming out 1, with `z` an array of zeros, says every entry of `d` is positive. -/
theorem all_pos {s : Shape} {axes : List (Fin s.rank)} (d z : FVec Ideal s .f32) (hz : ∀ j, (z j : EReal) = 0)
    (hr : s.ReducesTo axes ⟨0, ![]⟩) (hu : 0 < (⟨0, ![]⟩ : Shape).numel)
    (e : Host.reduce IntOp.andi (cmpf .ogt d z) (constantI ⟨0, ![]⟩ 1 1#1) hr hu ValueIdx.ix0 = 1#1) :
    ∀ j : s.Idx, (0 : EReal) < d j := by
  intro j
  have h1 := Host.reduce_andi_all _ _ hr hu ValueIdx.ix0 e j
  have h2 := lt_of_cmp_one (d j) (z j) h1
  rwa [hz j] at h2

/-- Two tests joined by `and` coming out 1: the first is 1. -/
theorem first_of_and (a b : IVec ⟨0, ![]⟩ 1) (e : andi a b = fun _ => 1#1) : a ValueIdx.ix0 = 1#1 := by
  have h1 : IntOp.andi (a ValueIdx.ix0) (b ValueIdx.ix0) = 1#1 := congrFun e ValueIdx.ix0
  exact (IntOp.andi_eq_one.mp h1).1

/-- Two tests joined by `and` coming out 1: the second is 1. -/
theorem second_of_and (a b : IVec ⟨0, ![]⟩ 1) (e : andi a b = fun _ => 1#1) : b ValueIdx.ix0 = 1#1 := by
  have h1 : IntOp.andi (a ValueIdx.ix0) (b ValueIdx.ix0) = 1#1 := congrFun e ValueIdx.ix0
  exact (IntOp.andi_eq_one.mp h1).2

end Cert.LibAllPositive

end
-- ==== Proof.PreFacts.lean ====
import proofs.«141531_j54073638257182_2_alg».proof.Pre_finite_inputs
import proofs.«141531_j54073638257182_2_alg».proof.Proof.Spec
import proofs.«141531_j54073638257182_2_alg».proof.Proof.LibFiniteInputs
import proofs.«141531_j54073638257182_2_alg».proof.Proof.LibAllPositive
import Idealize.ShloMosaic.Lib.ReduceAll
import Idealize.ShloMosaic.Lib.IdealHost
import Idealize.ShloMosaic.PureOps.Ideal.Laws
import Idealize.ShloMosaic.Lib.ValueIdx

/-!
# What the precondition says of the arguments

The precondition is seven tests joined by `and`: `all(|x| < +inf)` for each of the six arguments, and
`all(sum(A, axis = 1) + 1 > 0)`. Coming out 1, each test is 1. At the extended reals `|x| < +inf` at an entry says the
entry is a real number, so `H`, `W`, `b` and `A` hold real numbers throughout. The row sum is the sum over the second
coordinate from the initial value zero, the added constant is one, and the comparison against zero says that every row
sum of `A`, plus one, is positive.
-/

noncomputable section

namespace Cert.PreFacts

open Idealize.ShloMosaic Idealize.ShloMosaic.ValueIdx Cert.Pre_finite_inputs Cert.Pre_finite_inputs.Facts

/-- Two rank-0 tests joined by `and` whose one entry is 1: each is 1. -/
theorem and_split (a b : IVec S_ 1) (e : andi a b ValueIdx.ix0 = 1#1) : a ValueIdx.ix0 = 1#1 ∧ b ValueIdx.ix0 = 1#1 := by
  have h1 : IntOp.andi (a ValueIdx.ix0) (b ValueIdx.ix0) = 1#1 := e
  exact IntOp.andi_eq_one.mp h1

/-- The row sum as printed — the reduction by `add` over the second axis from the constant zero — read at row `p`: the
    sum over the second coordinate. -/
theorem rowsum_read (x : FVec Ideal S12288x12288 .f32) (h' : S12288x12288.ReducesTo [1] S12288) (hu : 0 < S_.numel)
    (p : Fin 12288) :
    Host.reduceAdd (F := Ideal) x (constant (F := Ideal) S_ .f32 0x00000000#32) h' hu (ix1 p)
      = ∑ k : Fin 12288, x (ix2 p k) := by
  have h : S12288x12288.Reduces [1] S12288 := by decide
  show Ideal.hostReduceAdd h' x (Ideal.ofBits .f32 0x00000000#32) (ix1 p) = _
  rw [Ideal.hostReduceAdd_single h' h, Ideal.ofBits_zero_f32, zero_add]
  refine Finset.sum_congr rfl fun k _ => congrArg x ?_
  funext d
  apply Fin.ext
  match d with
  | ⟨0, _⟩ => rfl
  | ⟨1, _⟩ => rfl

theorem of_pre [Cert.Pre_finite_inputs.Facts]
    (a0 : FVec Ideal S12288x64 .f32) (a1 : FVec Ideal S64x64 .f32) (a2 a3 a4 : FVec Ideal S64 .f32)
    (a5 : FVec Ideal S12288x12288 .f32)
    (h : Cert.Pre_finite_inputs.fn (F := Ideal) a0 a1 a2 a3 a4 a5 = fun _ => 1#1) :
    Cert.Spec.Real2 (Cert.Spec.mat a0) ∧ Cert.Spec.Real2 (Cert.Spec.mat a1) ∧ Cert.Spec.Real1 (Cert.Spec.vec a2)
      ∧ Cert.Spec.Real2 (Cert.Spec.mat a5) ∧ Cert.Spec.RowsPositive (Cert.Spec.mat a5) := by
  have h0 := congrFun h ValueIdx.ix0
  dsimp only [fn, fn_part1, fn_part2] at h0
  obtain ⟨h28, h34⟩ := and_split _ _ h0
  obtain ⟨h23, h27⟩ := and_split _ _ h28
  obtain ⟨h18, h22⟩ := and_split _ _ h23
  obtain ⟨h13, h17⟩ := and_split _ _ h18
  obtain ⟨h8, h12⟩ := and_split _ _ h13
  obtain ⟨h3, h7⟩ := and_split _ _ h8
  clear h0 h28 h23 h18 h13 h8 h17 h22
  -- the four finiteness tests: every entry of H, W, b, A is a real number
  have rH := Cert.LibFiniteInputs.all_real a0 bcast_S_S12288x64 reducesTo_S12288x64_S_d0_1 h_S_ h3
  have rW := Cert.LibFiniteInputs.all_real a1 bcast_S_S64x64 reducesTo_S64x64_S_d0_1 h_S_ h7
  have rb := Cert.LibFiniteInputs.all_real a2 bcast_S_S64 reducesTo_S64_S_d0 h_S_ h12
  have rA := Cert.LibFiniteInputs.all_real a5 bcast_S_S12288x12288 reducesTo_S12288x12288_S_d0_1 h_S_ h27
  -- the seventh test: every entry of (row sums + 1) is above the zero it is compared with
  have hz : ∀ j : S12288.Idx,
      (broadcastInDim S12288 ![] bcast_S_S12288 (constant (F := Ideal) S_ .f32 0x00000000#32) j : EReal) = 0 :=
    fun j => Ideal.ofBits_zero_f32
  have hposj := Cert.LibAllPositive.all_pos _ _ hz reducesTo_S12288_S_d0 h_S_ h34
  refine ⟨fun p q => rH (ix2 p q), fun p q => rW (ix2 p q), fun q => rb (ix1 q), fun p q => rA (ix2 p q), fun p => ?_⟩
  have hp := hposj (ix1 p)
  change (0 : EReal) < Host.reduceAdd (F := Ideal) a5 (constant (F := Ideal) S_ .f32 0x00000000#32)
      reducesTo_S12288x12288_S12288_d1 h_S_ (ix1 p) + Ideal.ofBits .f32 0x3F800000#32 at hp
  rw [rowsum_read, Ideal.ofBits_one_f32] at hp
  exact hp

end Cert.PreFacts

end
-- ==== Proof.lean ====
/- The proof of `Cert.Claim`: one graph-convolution layer — dense layer, symmetric degree normalisation of `A + I`,
   propagation, batch normalisation, leaky rectifier — computed by two passes over the adjacency matrix against the
   normalised-matrix formula, equal over the extended reals when every entry is a real number and every row sum of
   `A + I` is positive.

   The three frames: each program runs to the end, faults nowhere and leaves its arguments unchanged — for the two
   kernel programs from @main read as eight items (four stretches of host operations around the two calls), each
   call's body run once at a symbolic grid point; for the reference from its operations run in order.
   `preserves`: the idealization rewrote nothing.
   `algebraic`: the kernel program's result is the tail (batch normalisation and rectifier, never opened) of the
   propagation array `deg p · (∑ⱼ A p j · (deg j · lin j e) + deg p · lin p e)`; the reference's is the same tail of
   `∑ⱼ ((deg p · (A + I) p j) · deg j) · lin j e`; with real entries and positive row sums every degree is a positive
   real, the sums distribute, and the two arrays agree entry by entry. -/
import proofs.«141531_j54073638257182_2_alg».proof.Defs
import proofs.«141531_j54073638257182_2_alg».proof.Proof.Gen.Kernel
import proofs.«141531_j54073638257182_2_alg».proof.Proof.Gen.KernelIdeal
import proofs.«141531_j54073638257182_2_alg».proof.Proof.Gen.ReferenceIdeal
import proofs.«141531_j54073638257182_2_alg».proof.Proof.Gen.Pre_finite_inputs
import proofs.«141531_j54073638257182_2_alg».proof.Proof.KernelRunBits
import proofs.«141531_j54073638257182_2_alg».proof.Proof.KernelRunIdeal
import proofs.«141531_j54073638257182_2_alg».proof.Proof.KernelValueIdeal
import proofs.«141531_j54073638257182_2_alg».proof.Proof.RefFrame
import proofs.«141531_j54073638257182_2_alg».proof.Proof.RefRead
import proofs.«141531_j54073638257182_2_alg».proof.Proof.Algebra
import proofs.«141531_j54073638257182_2_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Rgn.frame m ρ
theorem frame_ki : Cert.frame_KernelIdeal := fun m ρ _ => Cert.KernelIdeal.Rgn.frame m ρ

/-- The two propagation arrays agree on inputs the precondition admits. -/
theorem prop_agree (a0 : FVec Ideal Cert.Pre_finite_inputs.S12288x64 .f32) (a1 : FVec Ideal Cert.Pre_finite_inputs.S64x64 .f32)
    (a2 a3 a4 : FVec Ideal Cert.Pre_finite_inputs.S64 .f32) (a5 : FVec Ideal Cert.Pre_finite_inputs.S12288x12288 .f32)
    (h : Cert.Pre_finite_inputs.fn (F := Ideal) a0 a1 a2 a3 a4 a5 = fun _ => 1#1) :
    Cert.Spec.arr2 (Cert.Spec.propK (Cert.Spec.mat a0) (Cert.Spec.mat a1) (Cert.Spec.vec a2) (Cert.Spec.mat a5))
      = Cert.Spec.arr2 (Cert.Spec.propR (Cert.Spec.mat a0) (Cert.Spec.mat a1) (Cert.Spec.vec a2) (Cert.Spec.mat a5)) := by
  obtain ⟨hH, hW, hb, hA, hpos⟩ := Cert.PreFacts.of_pre a0 a1 a2 a3 a4 a5 h
  funext i
  exact Cert.Spec.prop_eq _ _ _ _ hH hW hb hA hpos (i 0) (i 1)

theorem algebraic : Cert.algebraic_KernelIdeal_ReferenceIdeal := by
  intro m ρ m' ρ' hpre hagree
  refine ⟨_, (θ_run Cert.KernelIdeal.defs _ _).mono (fun r h c => ⟨(h c).1.trans (Cert.KernelIdeal.Rgn.value m ρ c), (h c).2⟩)
    (Cert.KernelIdeal.Rgn.run_value (F := Ideal) m ρ), ?_⟩
  refine (θ_run Cert.ReferenceIdeal.defs _ _).mono (fun r h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2,
    Cert.ReferenceIdeal.Hand.refOut_eq]
  exact congrArg (Cert.ReferenceIdeal.Hand.tailR _ _) (prop_agree _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
